-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x4096 : Shape := ⟨2, ![4096, 4096]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg1 : IVec S4096x4096 32) (main_v13 : IVec S_ 1) (main_v15 : IVec S4096x4096 1) (main_c_5 : IVec S_ 32) : IVec S_ 1 :=
  let main_v16 : IVec S4096x4096 32 := broadcastInDim S4096x4096 ![] bcast_S_S4096x4096 main_c_5
  let main_v17 : IVec S4096x4096 1 := cmpi .eq main_arg1 main_v16
  let main_v18 : IVec S4096x4096 1 := ori main_v15 main_v17
  let main_c_6 : IVec S_ 1 := constantI S_ 1 1#1
  let main_v19 : IVec S_ 1 := (fun x v => Host.reduce IntOp.andi x v reducesTo_S4096x4096_S_d0_1 h_S_) main_v18 main_c_6
  let main_v20 : IVec S_ 1 := andi main_v13 main_v19
  main_v20

def fn {F : FTy → Type} [FloatOps F] (main_arg0 : FVec F S2x2048x4096 .f32) (main_arg1 : IVec S4096x4096 32) (main_arg2 : FVec F S4096x4096 .f32) (main_arg3 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 0#32
  let main_v14 : IVec S4096x4096 32 := broadcastInDim S4096x4096 ![] bcast_S_S4096x4096 main_c_4
  let main_v15 : IVec S4096x4096 1 := cmpi .eq main_arg1 main_v14
  let main_c_5 : IVec S_ 32 := constantI S_ 32 1#32
  fn_part1 (F := F) main_arg1 main_v13 main_v15 main_c_5
-- ==== Kernel.lean ====
abbrev S2x2048x4096 : Shape := ⟨3, ![2, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S128 : Shape := ⟨1, ![128]⟩
abbrev S1x128 : Shape := ⟨2, ![1, 128]⟩
abbrev S4096x128 : Shape := ⟨2, ![4096, 128]⟩
abbrev S128x4096 : Shape := ⟨2, ![128, 4096]⟩
abbrev S256 : Shape := ⟨1, ![256]⟩
abbrev S256x1 : Shape := ⟨2, ![256, 1]⟩
abbrev S8 : Shape := ⟨1, ![8]⟩
abbrev S1x8 : Shape := ⟨2, ![1, 8]⟩
abbrev S256x8 : Shape := ⟨2, ![256, 8]⟩
abbrev S8x256 : Shape := ⟨2, ![8, 256]⟩
abbrev S256x4096 : Shape := ⟨2, ![256, 4096]⟩
abbrev S256x128 : Shape := ⟨2, ![256, 128]⟩
abbrev S8x128 : Shape := ⟨2, ![8, 128]⟩
abbrev S128x1024 : Shape := ⟨2, ![128, 1024]⟩
abbrev S8x1024 : Shape := ⟨2, ![8, 1024]⟩
abbrev S256x1024 : Shape := ⟨2, ![256, 1024]⟩
abbrev S1024x256 : Shape := ⟨2, ![1024, 256]⟩
abbrev S2048x256 : Shape := ⟨2, ![2048, 256]⟩
abbrev S2048 : Shape := ⟨1, ![2048]⟩
abbrev S1024x2048 : Shape := ⟨2, ![1024, 2048]⟩
abbrev S1x2048 : Shape := ⟨2, ![1, 2048]⟩

abbrev nBuf : Space → Nat
  | .hbm => 70
  | .vmem => 19
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .i32⟩
  | .hbm, ⟨2, _⟩ => ⟨S4096x4096, .f32⟩
  | .hbm, ⟨3, _⟩ => ⟨S4096, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S4096x4096, .i32⟩
  | .hbm, ⟨8, _⟩ => ⟨S4096x4096, .i32⟩
  | .hbm, ⟨9, _⟩ => ⟨S_, .i32⟩
  | .hbm, ⟨10, _⟩ => ⟨S4096x4096, .i32⟩
  | .hbm, ⟨11, _⟩ => ⟨S4096x4096, .i32⟩
  | .hbm, ⟨12, _⟩ => ⟨S4096x4096, .f32⟩
  | .hbm, ⟨13, _⟩ => ⟨S4096, .i32⟩
  | .hbm, ⟨14, _⟩ => ⟨S_, .i32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S128, .i32⟩
  | .hbm, ⟨34, _⟩ => ⟨S1x128, .i32⟩
  | .hbm, ⟨35, _⟩ => ⟨S4096x128, .i32⟩
  | .hbm, ⟨36, _⟩ => ⟨S4096x128, .i32⟩
  | .hbm, ⟨37, _⟩ => ⟨S4096x128, .i1⟩
  | .hbm, ⟨38, _⟩ => ⟨S4096x128, .bf16⟩
  | .hbm, ⟨39, _⟩ => ⟨S128x4096, .bf16⟩
  | .hbm, ⟨40, _⟩ => ⟨S256, .i32⟩
  | .hbm, ⟨41, _⟩ => ⟨S_, .i32⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S_, .i32⟩
  | .hbm, ⟨47, _⟩ => ⟨S256, .i32⟩
  | .hbm, ⟨48, _⟩ => ⟨S256, .i1⟩
  | .hbm, ⟨49, _⟩ => ⟨S256, .i32⟩
  | .hbm, ⟨50, _⟩ => ⟨S256, .i32⟩
  | .hbm, ⟨51, _⟩ => ⟨S_, .i32⟩
  | .hbm, ⟨52, _⟩ => ⟨S256, .i32⟩
  | .hbm, ⟨53, _⟩ => ⟨S256, .i1⟩
  | .hbm, ⟨54, _⟩ => ⟨S256, .i1⟩
  | .hbm, ⟨55, _⟩ => ⟨S_, .i32⟩
  | .hbm, ⟨56, _⟩ => ⟨S256, .i32⟩
  | .hbm, ⟨57, _⟩ => ⟨S256, .i32⟩
  | .hbm, ⟨58, _⟩ => ⟨S256, .i32⟩
  | .hbm, ⟨59, _⟩ => ⟨S256x1, .i32⟩
  | .hbm, ⟨60, _⟩ => ⟨S8, .i32⟩
  | .hbm, ⟨61, _⟩ => ⟨S1x8, .i32⟩
  | .hbm, ⟨62, _⟩ => ⟨S256x8, .i32⟩
  | .hbm, ⟨63, _⟩ => ⟨S256x8, .i32⟩
  | .hbm, ⟨64, _⟩ => ⟨S256x8, .i1⟩
  | .hbm, ⟨65, _⟩ => ⟨S256x8, .bf16⟩
  | .hbm, ⟨66, _⟩ => ⟨S8x256, .bf16⟩
  | .hbm, ⟨67, _⟩ => ⟨S4096x4096, .bf16⟩
  | .hbm, ⟨68, _⟩ => ⟨S4096x4096, .f32⟩
  | .hbm, ⟨69, _⟩ => ⟨S2x2048x4096, .f32⟩
  | .local _ .vmem, ⟨0, _⟩ => ⟨S256x4096, .i32⟩
  | .local _ .vmem, ⟨1, _⟩ => ⟨S256x4096, .i32⟩
  | .local _ .vmem, ⟨2, _⟩ => ⟨S256x4096, .f32⟩
  | .local _ .vmem, ⟨3, _⟩ => ⟨S256x4096, .f32⟩
  | .local _ .vmem, ⟨4, _⟩ => ⟨S4096x128, .bf16⟩
  | .local _ .vmem, ⟨5, _⟩ => ⟨S128x4096, .bf16⟩
  | .local _ .vmem, ⟨6, _⟩ => ⟨S256x8, .bf16⟩
  | .local _ .vmem, ⟨7, _⟩ => ⟨S8x256, .bf16⟩
  | .local _ .vmem, ⟨8, _⟩ => ⟨S256x4096, .bf16⟩
  | .local _ .vmem, ⟨9, _⟩ => ⟨S256x4096, .bf16⟩
  | .local _ .vmem, ⟨10, _⟩ => ⟨S1024x256, .f32⟩
  | .local _ .vmem, ⟨11, _⟩ => ⟨S1024x256, .f32⟩
  | .local _ .vmem, ⟨12, _⟩ => ⟨S2048x256, .bf16⟩
  | .local _ .vmem, ⟨13, _⟩ => ⟨S2048x256, .bf16⟩
  | .local _ .vmem, ⟨14, _⟩ => ⟨S2048, .f32⟩
  | .local _ .vmem, ⟨15, _⟩ => ⟨S2048, .f32⟩
  | .local _ .vmem, ⟨16, _⟩ => ⟨S1024x2048, .f32⟩
  | .local _ .vmem, ⟨17, _⟩ => ⟨S1024x2048, .f32⟩
  | .local _ .vmem, ⟨18, _⟩ => ⟨S1024x2048, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_1 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_c : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_c_0 : Ref sig .tc := ⟨.hbm, 28, rfl⟩
abbrev main_call1_v12 : Ref sig .tc := ⟨.hbm, 29, rfl⟩
abbrev main_call1_v13 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_2 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_c : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_c_0 : Ref sig .tc := ⟨.hbm, 55, rfl⟩
abbrev main_call2_v12 : Ref sig .tc := ⟨.hbm, 56, rfl⟩
abbrev main_call2_v13 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v17 : BitVec 32 := Scalar.addi c0_i32 c4_i32
  let c1_i32 : BitVec 32 := 1#32
  ⟨c0_i32, v17, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c1024_i32 : BitVec 32 := 1024#32
  let v18 : BitVec 32 := Scalar.muli arg8 c1024_i32
  v18
def k0_off1 (k0_t1 : Fin k0_t1_loop.trips) : Fin 2 → Nat :=
  let c0_10 : Index := 0#32
  let c0_i32 : BitVec 32 := 0#32
  let c1_i32 : BitVec 32 := 1#32
  let arg8 : BitVec 32 := Scf.iv c0_i32 c1_i32 k0_t1
  let c1024_i32 : BitVec 32 := 1024#32
  let v18 : BitVec 32 := Scalar.muli arg8 c1024_i32
  let v19 : BitVec 32 := v18
  let v20 : Index := Scalar.indexCast v19
  ![0, v20.toNat]
def k0_off2 (k0_t1 : Fin k0_t1_loop.trips) : Fin 2 → Nat :=
  let c0_13 : Index := 0#32
  let c0_i32 : BitVec 32 := 0#32
  let c1_i32 : BitVec 32 := 1#32
  let arg8 : BitVec 32 := Scf.iv c0_i32 c1_i32 k0_t1
  let c1024_i32 : BitVec 32 := 1024#32
  let v18 : BitVec 32 := Scalar.muli arg8 c1024_i32
  let v19 : BitVec 32 := v18
  let v26 : Index := Scalar.indexCast v19
  ![0, v26.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x8 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![4, 2, 16], ![false, false, false]⟩

def k1_cond2 (i : grid1.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bcast_S_S4096x4096 : S_.BroadcastsInDim S4096x4096 (![] : Fin 0 → Fin S4096x4096.rank)
  shapeCasts_S2x2048x4096_S4096x4096 : S2x2048x4096.ShapeCasts S4096x4096
  bcast_S_S4096 : S_.BroadcastsInDim S4096 (![] : Fin 0 → Fin S4096.rank)
  bcast_S4096_S4096x1_0 : S4096.BroadcastsInDim S4096x1 (![0] : Fin 1 → Fin S4096x1.rank)
  bcast_S128_S1x128_1 : S128.BroadcastsInDim S1x128 (![1] : Fin 1 → Fin S1x128.rank)
  bcast_S4096x1_S4096x128_0_1 : S4096x1.BroadcastsInDim S4096x128 (![0, 1] : Fin 2 → Fin S4096x128.rank)
  bcast_S1x128_S4096x128_0_1 : S1x128.BroadcastsInDim S4096x128 (![0, 1] : Fin 2 → Fin S4096x128.rank)
  transposes_S4096x128_S128x4096_1_0 : S4096x128.Transposes [1, 0] S128x4096
  bcast_S_S256 : S_.BroadcastsInDim S256 (![] : Fin 0 → Fin S256.rank)
  bcast_S256_S256x1_0 : S256.BroadcastsInDim S256x1 (![0] : Fin 1 → Fin S256x1.rank)
  bcast_S8_S1x8_1 : S8.BroadcastsInDim S1x8 (![1] : Fin 1 → Fin S1x8.rank)
  bcast_S256x1_S256x8_0_1 : S256x1.BroadcastsInDim S256x8 (![0, 1] : Fin 2 → Fin S256x8.rank)
  bcast_S1x8_S256x8_0_1 : S1x8.BroadcastsInDim S256x8 (![0, 1] : Fin 2 → Fin S256x8.rank)
  transposes_S256x8_S8x256_1_0 : S256x8.Transposes [1, 0] S8x256
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S8x256_S8x256_0_0 : ∀ a, (![0, 0] : Fin 2 → Nat) a + S8x256.size a ≤ S8x256.size a
  h_S8x256 : 0 < S8x256.numel
  shapeCasts_S8x256_S8x256 : S8x256.ShapeCasts S8x256
  natLt_1_32 : 1 < 32
  inb_S256x8_S256x8_0_0 : ∀ a, (![0, 0] : Fin 2 → Nat) a + S256x8.size a ≤ S256x8.size a
  h_S256x8 : 0 < S256x8.numel
  shapeCasts_S256x8_S256x8 : S256x8.ShapeCasts S256x8
  h_S128x1024 : 0 < S128x1024.numel
  shapeCasts_S128x1024_S128x1024 : S128x1024.ShapeCasts S128x1024
  h_S256x1024 : 0 < S256x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  shapeCasts_S4096x4096_S2x2048x4096 : S4096x4096.ShapeCasts S2x2048x4096
  dot_S256x4096_S4096x128_S256x128_1_0_0_1_n_n_wf : DotDims.WF S256x4096 S4096x128 S256x128 [1] [0] [0] [1] [] []
  dot_S8x256_S256x128_S8x128_1_0_0_1_n_n_wf : DotDims.WF S8x256 S256x128 S8x128 [1] [0] [0] [1] [] []
  dot_S8x128_S128x1024_S8x1024_1_0_0_1_n_n_wf : DotDims.WF S8x128 S128x1024 S8x1024 [1] [0] [0] [1] [] []
  dot_S256x8_S8x1024_S256x1024_1_0_0_1_n_n_wf : DotDims.WF S256x8 S8x1024 S256x1024 [1] [0] [0] [1] [] []
  dot_S1024x256_S2048x256_S1024x2048_1_1_0_0_n_n_wf : DotDims.WF S1024x256 S2048x256 S1024x2048 [1] [1] [0] [0] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S128x1024.size a ≤ S128x4096.size a
  k0_off2_inb : ∀ k0_t1 : Fin k0_t1_loop.trips, ∀ a, (k0_off2 k0_t1) a + S256x1024.size a ≤ S256x4096.size a
  k0_off2_packedbf16 : ∀ k0_t1 : Fin k0_t1_loop.trips, (Rect.unit (s := S256x4096) (k0_off2 k0_t1) S256x1024.size (k0_off2_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .i32 = 32 ∨ (Rect.block (s := S4096x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x128.size a
  hwx0_2 : ∀ i : grid0.Coords, EltTy.bits .bf16 = 32 ∨ (Rect.block (s := S4096x128) S4096x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S128x4096.size a
  hwx0_3 : ∀ i : grid0.Coords, EltTy.bits .bf16 = 32 ∨ (Rect.block (s := S128x4096) S128x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x8.size a ≤ S256x8.size a
  hwx0_4 : ∀ i : grid0.Coords, EltTy.bits .bf16 = 32 ∨ (Rect.block (s := S256x8) S256x8.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x256.size a ≤ S8x256.size a
  hwx0_5 : ∀ i : grid0.Coords, EltTy.bits .bf16 = 32 ∨ (Rect.block (s := S8x256) S8x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x4096.size a ≤ S4096x4096.size a
  hwx0_6 : ∀ i : grid0.Coords, EltTy.bits .bf16 = 32 ∨ (Rect.block (s := S4096x4096) S256x4096.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S4096x4096.size a
  hwx1_0 : ∀ i : grid1.Coords, EltTy.bits .f32 = 32 ∨ (Rect.block (s := S4096x4096) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S4096x4096.size a
  hwx1_1 : ∀ i : grid1.Coords, EltTy.bits .bf16 = 32 ∨ (Rect.block (s := S4096x4096) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S4096.size a
  hwx1_2 : ∀ i : grid1.Coords, EltTy.bits .f32 = 32 ∨ (Rect.block (s := S4096) S2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S4096x4096.size a
  hwx1_3 : ∀ i : grid1.Coords, EltTy.bits .f32 = 32 ∨ (Rect.block (s := S4096x4096) S1024x2048.size (cc1_transform_3 i) (hinb1_3 i)).WholeWords (EltTy.packing .f32)

variable [Facts₀]

def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S8x256_S256x128_S8x128_1_0_0_1_n_n : DotDims S8x256 S256x128 S8x128 where
  lhsContracting := [1]
  rhsContracting := [0]
  lhsNonContracting := [0]
  rhsNonContracting := [1]
  lhsBatch := []
  rhsBatch := []
  wf := dot_S8x256_S256x128_S8x128_1_0_0_1_n_n_wf
def dot_S8x128_S128x1024_S8x1024_1_0_0_1_n_n : DotDims S8x128 S128x1024 S8x1024 where
  lhsContracting := [1]
  rhsContracting := [0]
  lhsNonContracting := [0]
  rhsNonContracting := [1]
  lhsBatch := []
  rhsBatch := []
  wf := dot_S8x128_S128x1024_S8x1024_1_0_0_1_n_n_wf
def dot_S256x8_S8x1024_S256x1024_1_0_0_1_n_n : DotDims S256x8 S8x1024 S256x1024 where
  lhsContracting := [1]
  rhsContracting := [0]
  lhsNonContracting := [0]
  rhsNonContracting := [1]
  lhsBatch := []
  rhsBatch := []
  wf := dot_S256x8_S8x1024_S256x1024_1_0_0_1_n_n_wf
def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S4096x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S256x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S8x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S256x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x4096 : Shape := ⟨2, ![4096, 4096]⟩
abbrev S4096 : Shape := ⟨1, ![4096]⟩
abbrev S128x32x128x32 : Shape := ⟨4, ![128, 32, 128, 32]⟩
abbrev S_ : Shape := ⟨0, ![]⟩
abbrev S128x128 : Shape := ⟨2, ![128, 128]⟩
abbrev S128x1x128x1 : Shape := ⟨4, ![128, 1, 128, 1]⟩
abbrev S1x1x4096 : Shape := ⟨3, ![1, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .i32⟩
  | .hbm, ⟨2, _⟩ => ⟨S4096x4096, .f32⟩
  | .hbm, ⟨3, _⟩ => ⟨S4096, .f32⟩
  | .hbm, ⟨4, _⟩ => ⟨S128x32x128x32, .i32⟩
  | .hbm, ⟨5, _⟩ => ⟨S_, .i32⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i1⟩
  | .hbm, ⟨10, _⟩ => ⟨S128x32x128x32, .f32⟩
  | .hbm, ⟨11, _⟩ => ⟨S128x1x128x1, .i1⟩
  | .hbm, ⟨12, _⟩ => ⟨S128x1x128x1, .f32⟩
  | .hbm, ⟨13, _⟩ => ⟨S128x32x128x32, .f32⟩
  | .hbm, ⟨14, _⟩ => ⟨S128x32x128x32, .f32⟩
  | .hbm, ⟨15, _⟩ => ⟨S4096x4096, .f32⟩
  | .hbm, ⟨16, _⟩ => ⟨S2x2048x4096, .f32⟩
  | .hbm, ⟨17, _⟩ => ⟨S1x1x4096, .f32⟩
  | .hbm, ⟨18, _⟩ => ⟨S2x2048x4096, .f32⟩
  | .hbm, ⟨19, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  shapeCasts_S4096x4096_S128x32x128x32 : S4096x4096.ShapeCasts S128x32x128x32
  reducesTo_S128x32x128x32_S128x128_d1_3 : S128x32x128x32.ReducesTo [1, 3] S128x128
  h_S_ : 0 < S_.numel
  bcast_S_S128x128 : S_.BroadcastsInDim S128x128 (![] : Fin 0 → Fin S128x128.rank)
  bcast_S128x128_S128x1x128x1_0_2 : S128x128.BroadcastsInDim S128x1x128x1 (![0, 2] : Fin 2 → Fin S128x1x128x1.rank)
  bcast_S128x1x128x1_S128x32x128x32_0_1_2_3 : S128x1x128x1.BroadcastsInDim S128x32x128x32 (![0, 1, 2, 3] : Fin 4 → Fin S128x32x128x32.rank)
  shapeCasts_S128x32x128x32_S4096x4096 : S128x32x128x32.ShapeCasts S4096x4096
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S2x2048x4096_S4096x4096_S2x2048x4096_2_1_01_0_n_n_wf : DotDims.WF S2x2048x4096 S4096x4096 S2x2048x4096 [2] [1] [0, 1] [0] [] []

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.K.Region0.lean ====
import proofs.«142192_j60155311948051_2_alg».proof.Proof.Gen.Kernel.Launch
import proofs.«142192_j60155311948051_2_alg».proof.Proof.Gen.Kernel.Skeleton
import proofs.«142192_j60155311948051_2_alg».proof.Proof.Gen.Kernel.Points
import proofs.«142192_j60155311948051_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the block mask pooled and laid over the weight, at the entry contents `V`

The first kernel runs on a grid of 16 row blocks. At a point it holds a 256×4096 block of the integer mask
(window 0) and of the weight (window 1), four 0/1 indicator matrices that never move (windows 2–5), and writes
a 256×4096 block of the masked weight (window 6) in four chunks of 1024 columns, one per trip of a counted loop. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The column chunks of the loop -/

/-- The loop over column chunks makes four trips. -/
theorem chunks_eq : k0_t1_loop.trips = 4 := by decide +kernel

/-- Chunk `j` of the four as a trip of the loop. -/
def chunk (j : Fin 4) : Fin k0_t1_loop.trips := j.cast chunks_eq.symm

/-- Columns `[1024·k, 1024·k + 1024)` of a 256×4096 block: where trip `k` reads the weight and writes the result. -/
abbrev colChunk (k : Fin k0_t1_loop.trips) : Rect S256x4096 :=
  Rect.unit (s := S256x4096) (k0_off2 k) S256x1024.size (k0_off2_inb k)

/-- The same columns of the 128×4096 indicator that spreads a pooled column over its 32 columns. -/
abbrev indChunk (k : Fin k0_t1_loop.trips) : Rect S128x4096 :=
  Rect.unit (s := S128x4096) (k0_off1 k) S128x1024.size (k0_off1_inb k)

/-- What trip `k` writes: over its column chunk, the weight's chunk times the pooled block mask spread back over
    the chunk, rounded to bf16 — the payload of the body's one store, from the mask block `v0`, the pooling
    indicators `v3` (4096×128), `v7` (8×256), the row-spreading indicator `v15` (256×8), the column-spreading
    indicator's contents `x3` and the weight block `x1`. -/
def chunkPiece (v0 : Vec F S256x4096 .i32) (v3 : Vec F S4096x128 .bf16) (v7 : Vec F S8x256 .bf16) (v15 : Vec F S256x8 .bf16)
    (x3 : Vec F S128x4096 .bf16) (x1 : Vec F S256x4096 .f32) (k : Fin k0_t1_loop.trips) : View.Piece (Elt F) S256x4096 .bf16 :=
  ⟨colChunk k, k0_pay1 v0 v3 v7 v15 (View.ld x3 (indChunk k)) (View.ld x1 (colChunk k))⟩

/-- One trip of the loop writes exactly that piece: the loop instance's piece list for trip `k`, opened. -/
theorem tripL_eq (𝒱 : Variants) (c : Dev nD) (bd : Option 𝒱.V) (i : grid0.Coords) (arg1 : Memref sig .tc .vmem S256x4096 .i32) (harg1 : arg1.IsWhole) (arg2 : Memref sig .tc .vmem S256x4096 .f32) (harg2 : arg2.IsWhole) (arg3 : Memref sig .tc .vmem S4096x128 .bf16) (harg3 : arg3.IsWhole) (arg4 : Memref sig .tc .vmem S128x4096 .bf16) (harg4 : arg4.IsWhole) (arg5 : Memref sig .tc .vmem S256x8 .bf16) (harg5 : arg5.IsWhole) (arg6 : Memref sig .tc .vmem S8x256 .bf16) (harg6 : arg6.IsWhole) (arg7 : Memref sig .tc .vmem S256x4096 .bf16) (harg7 : arg7.IsWhole) (v0 : Vec F S256x4096 .i32) (v3 : Vec F S4096x128 .bf16) (v7 : Vec F S8x256 .bf16) (v15 : Vec F S256x8 .bf16) (X_arg2 : BufTy.Contents (Elt F) arg2.view.ty) (X_arg4 : BufTy.Contents (Elt F) arg4.view.ty) (k : Fin k0_t1_loop.trips) :
    tripL_k0_t1 (F := F) 𝒱 c bd i arg1 harg1 arg2 harg2 arg3 harg3 arg4 harg4 arg5 harg5 arg6 harg6 arg7 harg7 v0 v3 v7 v15 X_arg2 X_arg4 k
      = [chunkPiece v0 v3 v7 v15 (arg4.view.read (Elt F) X_arg4) (arg2.view.read (Elt F) X_arg2) k] := by
  unfold tripL_k0_t1 trip_k0_t1
  rfl

/-- After the loop the output buffer has been written with the four chunks' pieces, the last trip's first. -/
theorem pieces_after_loop (𝒱 : Variants) (c : Dev nD) (bd : Option 𝒱.V) (i : grid0.Coords) (arg1 : Memref sig .tc .vmem S256x4096 .i32) (harg1 : arg1.IsWhole) (arg2 : Memref sig .tc .vmem S256x4096 .f32) (harg2 : arg2.IsWhole) (arg3 : Memref sig .tc .vmem S4096x128 .bf16) (harg3 : arg3.IsWhole) (arg4 : Memref sig .tc .vmem S128x4096 .bf16) (harg4 : arg4.IsWhole) (arg5 : Memref sig .tc .vmem S256x8 .bf16) (harg5 : arg5.IsWhole) (arg6 : Memref sig .tc .vmem S8x256 .bf16) (harg6 : arg6.IsWhole) (arg7 : Memref sig .tc .vmem S256x4096 .bf16) (harg7 : arg7.IsWhole) (v0 : Vec F S256x4096 .i32) (v3 : Vec F S4096x128 .bf16) (v7 : Vec F S8x256 .bf16) (v15 : Vec F S256x8 .bf16) (X_arg2 : BufTy.Contents (Elt F) arg2.view.ty) (X_arg4 : BufTy.Contents (Elt F) arg4.view.ty) :
    pb_k0_t1 (F := F) 𝒱 c bd i arg1 harg1 arg2 harg2 arg3 harg3 arg4 harg4 arg5 harg5 arg6 harg6 arg7 harg7 v0 v3 v7 v15 X_arg2 X_arg4 (Scf.trips k0_t1_loop.lb k0_t1_loop.ub k0_t1_loop.st)
      = [chunkPiece v0 v3 v7 v15 (arg4.view.read (Elt F) X_arg4) (arg2.view.read (Elt F) X_arg2) (chunk 3),
         chunkPiece v0 v3 v7 v15 (arg4.view.read (Elt F) X_arg4) (arg2.view.read (Elt F) X_arg2) (chunk 2),
         chunkPiece v0 v3 v7 v15 (arg4.view.read (Elt F) X_arg4) (arg2.view.read (Elt F) X_arg2) (chunk 1),
         chunkPiece v0 v3 v7 v15 (arg4.view.read (Elt F) X_arg4) (arg2.view.read (Elt F) X_arg2) (chunk 0)] := by
  rw [show Scf.trips k0_t1_loop.lb k0_t1_loop.ub k0_t1_loop.st = (chunk 3).val + 1 from chunks_eq,
    pb_k0_t1_succ, show (chunk 3).val = (chunk 2).val + 1 from rfl,
    pb_k0_t1_succ, show (chunk 2).val = (chunk 1).val + 1 from rfl,
    pb_k0_t1_succ, show (chunk 1).val = (chunk 0).val + 1 from rfl,
    pb_k0_t1_succ, tripL_eq, tripL_eq, tripL_eq, tripL_eq]
  rfl

/-! ## What the body leaves in the output window's buffer -/

/-- Window 6's staging buffer after the body, from the six input windows' blocks — `x0` the mask block, `x1` the
    weight block, `x2` the 4096×128 and `x3` the 128×4096 column indicators, `x4` the 256×8 and `x5` the 8×256
    row indicators —: the four chunks' pieces, last first (Lib/Pipeline/FrameBody.lean `View.canon`). -/
def out0_6 (x0 : Vec F S256x4096 .i32) (x1 : Vec F S256x4096 .f32) (x2 : Vec F S4096x128 .bf16) (x3 : Vec F S128x4096 .bf16)
    (x4 : Vec F S256x8 .bf16) (x5 : Vec F S8x256 .bf16) : Vec F S256x4096 .bf16 :=
  View.canon [chunkPiece x0 x2 x5 x4 x3 x1 (chunk 3), chunkPiece x0 x2 x5 x4 x3 x1 (chunk 2),
    chunkPiece x0 x2 x5 x4 x3 x1 (chunk 1), chunkPiece x0 x2 x5 x4 x3 x1 (chunk 0)]

/-- The four chunks tile the block (checked by evaluation), so they cover it. -/
theorem chunks_cover (p3 p2 p1 p0 : Vec F S256x1024 .bf16) (y : S256x4096.Idx) :
    ∃ pc ∈ ([⟨colChunk (chunk 3), p3⟩, ⟨colChunk (chunk 2), p2⟩, ⟨colChunk (chunk 1), p1⟩, ⟨colChunk (chunk 0), p0⟩] :
      List (View.Piece (Elt F) S256x4096 .bf16)), y ∈ pc.1.set :=
  View.cover_of_tiled (s := S256x4096) _ S256x1024.size (by sl_kernel_rfl) y

/-- A load of a whole buffer reads its contents. -/
theorem ld_whole {S : Shape} {e : EltTy} (off : Fin S.rank → ℕ) (hoff : ∀ a, off a = 0)
    (inb : ∀ a, off a + S.size a ≤ S.size a) (X : S.Idx → Elt F e) : View.ld X (Rect.unit off S.size inb) = X :=
  View.ld_unit_zero (funext hoff) inb X

/-! ## The body's triple -/

set_option maxHeartbeats 1000000 in
/-- The kernel body on whole staging memrefs, the six inputs' at read contents `x0 … x5` and the output's at anything,
    runs to the continuation holding the inputs' as they were and the output's at `out0_6` of the inputs': the printed
    function is its skeleton, the loop over column chunks is passed by its invariant, and the pieces the four
    trips wrote cover the buffer. The body's load of the output chunk before each store is dropped. -/
theorem sound_kernel0 (c : Dev nD) (E : Set ℕ) (i : grid0.Coords) (arg1 : Memref sig .tc .vmem S256x4096 .i32) (harg1 : arg1.IsWhole) (arg2 : Memref sig .tc .vmem S256x4096 .f32) (harg2 : arg2.IsWhole) (arg3 : Memref sig .tc .vmem S4096x128 .bf16) (harg3 : arg3.IsWhole) (arg4 : Memref sig .tc .vmem S128x4096 .bf16) (harg4 : arg4.IsWhole) (arg5 : Memref sig .tc .vmem S256x8 .bf16) (harg5 : arg5.IsWhole) (arg6 : Memref sig .tc .vmem S8x256 .bf16) (harg6 : arg6.IsWhole) (arg7 : Memref sig .tc .vmem S256x4096 .bf16) (harg7 : arg7.IsWhole)
    (x0 : Vec F S256x4096 .i32) (x1 : Vec F S256x4096 .f32) (x2 : Vec F S4096x128 .bf16) (x3 : Vec F S128x4096 .bf16)
    (x4 : Vec F S256x8 .bf16) (x5 : Vec F S8x256 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare (out0_6 x0 x1 x2 x3 x4 x5)) -∗ K ⟨⟩))
      ⊢ wp frame (wpE (defs₀ (F := F)) Variants.none c none) E (cc0__mask_weight_kernel i arg1 harg1 arg2 harg2 arg3 harg3 arg4 harg4 arg5 harg5 arg6 harg6 arg7 harg7) K := by
  simp only [cc0__mask_weight_kernel_eq_skeleton]; unfold cc0__mask_weight_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [pieces_after_loop]
  simp only [View.readAt_eq_ld]
  rw [ld_whole _ (by decide), ld_whole _ (by decide), ld_whole _ (by decide), ld_whole _ (by decide)]
  exact View.read_writes_eq_canon _ _ _ (chunks_cover _ _ _ _)

/-! ## The input windows hold their blocks -/

/-- An input window's current staging buffer holds its block at every point, fetched there or not (the indicator
    windows 2–5 are fetched at the first point only and never move), for ANY proof data whose array is `V`'s (`hA`)
    and whose body leaves the block in place (`hafter`): Lib/Pipeline/FrameBody.lean `Dat.before_in_eq_fetched`,
    the windows uncut and never idle. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of pipeline 0 on core `c`: the arrays as the region finds them (`V`); after the body at point
    `t` each input's buffer at its block and the output's at `out0_6` of the six input blocks; the invariant the
    scoped rest and the core's pseudo-random number register, untouched (Lib/Pipeline/Frame.lean `ΦA`); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1Runs.lean ====
import proofs.«142192_j60155311948051_2_alg».proof.Proof.Gen.Kernel.Launch
import proofs.«142192_j60155311948051_2_alg».proof.Proof.Gen.Kernel.Skeleton
import proofs.«142192_j60155311948051_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel (the tiled contraction data·wbᵀ + bias): what its three control cases share

The grid is (4, 2, 16); the last coordinate k = t mod 16 is the step of the contraction. The accumulator is a scratch
buffer carried from one step to the next: zeroed at the first step (k = 0), added to at every step, and read into the
output block (with the bias) at the last step (k = 15). -/

section Region1

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point, for any proof data over the entry contents whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the masked weight's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the bias block (fetched only at the first step of each contraction, found in place at the others). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The two conditions of the body, over the grid -/

/-- "This is the first step of the contraction": the condition under which the accumulator is zeroed, as the body
    computes it from the last grid coordinate. -/
abbrev firstStep (i : grid1.Coords) : Prop :=
  (Scalar.cmpi .ne (Scalar.extui (Scalar.cmpi .eq (BitVec.ofNat 32 (i 2).val) 0#32)) 0#32) = 1#1
/-- It holds exactly at the points ≡ 0 (mod 16). -/
theorem firstStep_iff : ∀ t : Fin cfg1.N, firstStep (grid1.coords t) ↔ t.val % 16 = 0 :=
  (by decide +kernel : ∀ t : Fin grid1.N, firstStep (grid1.coords t) ↔ t.val % 16 = 0)

/-- "This is the last step of the contraction": the condition under which the output block is stored. -/
abbrev lastStep (i : grid1.Coords) : Prop := k1_cond2 i = 1#1
/-- It holds exactly at the points ≡ 15 (mod 16). -/
theorem lastStep_iff : ∀ t : Fin cfg1.N, lastStep (grid1.coords t) ↔ t.val % 16 = 15 :=
  (by decide +kernel : ∀ t : Fin grid1.N, lastStep (grid1.coords t) ↔ t.val % 16 = 15)

/-! ## Where the windows are idle -/

/-- The three inputs are never idle. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last step the output window is idle (nothing is stored into it), -/
theorem idle1_3 : ∀ t : Fin cfg1.N, ¬lastStep (grid1.coords t) → cfg1.idle 3 (grid1.coords t) = true := by decide +kernel
/-- and its block is not written back there. -/
theorem noFlush1_3 : ∀ t : Fin cfg1.N, ¬lastStep (grid1.coords t) → (cfg1.win 3).flush t = false := by decide +kernel
/-- At the last step the output window is live. -/
theorem live1_3 : ∀ t : Fin cfg1.N, lastStep (grid1.coords t) → cfg1.idle 3 (grid1.coords t) = false := by decide +kernel

/-! ## The memrefs the body is called with -/

/-- One staging buffer of the output window, through which its contents are stated. -/
abbrev outView : View sig .tc .vmem S1024x2048 .f32 := (Memref.whole cc1_stg3_0 : Memref sig .tc .vmem S1024x2048 .f32).view
/-- Each window's current staging memref at point `t`, as the pipeline passes it, and its wholeness. -/
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: the kernel's scratch operand, a whole scoped buffer passed beside the windows. -/
abbrev accM : Memref sig .tc .vmem S1024x2048 .f32 := Memref.whole cc1_scratch0
/-- The accumulator as a view: what it holds is stated through it. -/
abbrev accView : View sig .tc .vmem S1024x2048 .f32 := accM.view

/-- The region's invariant with the accumulator as a memref owned at some contents: the first kernel's ten staging
    buffers at anything, the accumulator at anything, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) accM fullShare d)) ∗ (∃ r, prngReg c r)) := by
  unfold Pipeline.ΦA; rw [scopedRest1_eq]; simp only [accM, owns_whole]; try rfl

end Cert.Kernel.Hand

end
-- ==== Proof.K.Region1RunFirst.lean ====
import proofs.«142192_j60155311948051_2_alg».proof.Proof.K.Region1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first step of a contraction (k = 0): the whole body's run

The accumulator is zeroed, then the step's product is added to it; nothing is stored into the output window. -/

set_option maxHeartbeats 1000000 in
/-- What the body's stores leave in the accumulator at the first step, as pieces (last first), with the proof that on
    whole memrefs — the three inputs at their contents, the output window's buffer at contents handed back untouched,
    the accumulator at anything — the body runs to the continuation holding the inputs and the output buffer as they
    were and the accumulator with its pieces written. The pieces are the witness the run finds. -/
noncomputable def runFirst (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : firstStep i) (hc1 : ¬lastStep i)
    (x0 : Vec F S1024x256 .f32) (x1 : Vec F S2048x256 .bf16) (x2 : Vec F S2048 .f32) :
    { LS : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Hand

end
-- ==== Proof.K.Region1RunMiddle.lean ====
import proofs.«142192_j60155311948051_2_alg».proof.Proof.K.Region1RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A middle step of a contraction (0 < k < 15): the whole body's run

The step's product is added to the accumulator as the step before left it; nothing is stored into the output window. -/

set_option maxHeartbeats 1000000 in
/-- What the body's stores leave in the accumulator at a middle step, as pieces (last first), with the proof that on
    whole memrefs — the three inputs at their contents, the output window's buffer at contents handed back untouched,
    the accumulator at what the step before left (`acc`) — the body runs to the continuation holding the inputs and the
    output buffer as they were and the accumulator with its pieces written. The pieces are the witness the run finds. -/
noncomputable def runMiddle (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬firstStep i) (hc1 : ¬lastStep i)
    (x0 : Vec F S1024x256 .f32) (x1 : Vec F S2048x256 .bf16) (x2 : Vec F S2048 .f32) (acc : Vec F S1024x2048 .f32) :
    { LS : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare acc
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Hand

end
-- ==== Proof.K.Region1RunLast.lean ====
import proofs.«142192_j60155311948051_2_alg».proof.Proof.K.Region1RunMiddle

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The last step of a contraction (k = 15): the whole body's run

The step's product is added to the accumulator as the step before left it, and the finished sum, with the bias added
along the rows, is stored into the output window's block. -/

set_option maxHeartbeats 1000000 in
/-- What the body's stores leave in the output window's buffer and in the accumulator at the last step, as pieces (last
    first), with the proof that on whole memrefs — the three inputs at their contents, the output window's buffer at
    anything, the accumulator at what the step before left (`acc`) — the body runs to the continuation holding the inputs
    as they were and the output buffer and the accumulator with their pieces written. The pieces are the witness the run
    finds. -/
noncomputable def runLast (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬firstStep i) (hc1 : lastStep i)
    (x0 : Vec F S1024x256 .f32) (x1 : Vec F S2048x256 .bf16) (x2 : Vec F S2048 .f32) (acc : Vec F S1024x2048 .f32) :
    Σ' (L3 : List (View.Piece (Elt F) S1024x2048 .f32)), { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare acc
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Hand

end
-- ==== Proof.K.Region1.lean ====
import proofs.«142192_j60155311948051_2_alg».proof.Proof.K.Region1RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's half of the frame: what the accumulator and the output block hold point by point, the proof
data over it, and the body obligation -/

/-! ## What each case leaves -/

/-- The first step's pieces cover the accumulator (two whole-buffer stores: the zeros, then the sum). -/
theorem accCoverFirst (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : firstStep i) (hc1 : ¬lastStep i)
    (x0 : Vec F S1024x256 .f32) (x1 : Vec F S2048x256 .bf16) (x2 : Vec F S2048 .f32) (y : S1024x2048.Idx) :
    ∃ pc ∈ (runFirst c i arg3 harg3 arg4 harg4 arg5 harg5 arg6 harg6 arg7 harg7 hc0 hc1 x0 x1 x2).1, y ∈ pc.1.set :=
  View.cover_of_tiledL (runFirst c i arg3 harg3 arg4 harg4 arg5 harg5 arg6 harg6 arg7 harg7 hc0 hc1 x0 x1 x2).1 S1024x2048.size (by sl_kernel_rfl) y

/-- What the first step leaves in the accumulator: its pieces read back. -/
def accFirst (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : firstStep i) (hc1 : ¬lastStep i)
    (x0 : Vec F S1024x256 .f32) (x1 : Vec F S2048x256 .bf16) (x2 : Vec F S2048 .f32) : Vec F S1024x2048 .f32 :=
  accView.read (Elt F) (accView.writes (Elt F) accView.junk (runFirst c i arg3 harg3 arg4 harg4 arg5 harg5 arg6 harg6 arg7 harg7 hc0 hc1 x0 x1 x2).1)

/-- A middle step's pieces cover the accumulator (one whole-buffer store). -/
theorem accCoverMiddle (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬firstStep i) (hc1 : ¬lastStep i)
    (x0 : Vec F S1024x256 .f32) (x1 : Vec F S2048x256 .bf16) (x2 : Vec F S2048 .f32) (acc : Vec F S1024x2048 .f32) (y : S1024x2048.Idx) :
    ∃ pc ∈ (runMiddle c i arg3 harg3 arg4 harg4 arg5 harg5 arg6 harg6 arg7 harg7 hc0 hc1 x0 x1 x2 acc).1, y ∈ pc.1.set :=
  View.cover_of_tiledL (runMiddle c i arg3 harg3 arg4 harg4 arg5 harg5 arg6 harg6 arg7 harg7 hc0 hc1 x0 x1 x2 acc).1 S1024x2048.size (by sl_kernel_rfl) y

/-- What a middle step leaves in the accumulator. -/
def accMiddle (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬firstStep i) (hc1 : ¬lastStep i)
    (x0 : Vec F S1024x256 .f32) (x1 : Vec F S2048x256 .bf16) (x2 : Vec F S2048 .f32) (acc : Vec F S1024x2048 .f32) : Vec F S1024x2048 .f32 :=
  accView.read (Elt F) (accView.writes (Elt F) accView.junk (runMiddle c i arg3 harg3 arg4 harg4 arg5 harg5 arg6 harg6 arg7 harg7 hc0 hc1 x0 x1 x2 acc).1)

/-- The last step's pieces for the output block cover it (one whole-block store). -/
theorem outCoverLast (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬firstStep i) (hc1 : lastStep i)
    (x0 : Vec F S1024x256 .f32) (x1 : Vec F S2048x256 .bf16) (x2 : Vec F S2048 .f32) (acc : Vec F S1024x2048 .f32) (y : S1024x2048.Idx) :
    ∃ pc ∈ (runLast c i arg3 harg3 arg4 harg4 arg5 harg5 arg6 harg6 arg7 harg7 hc0 hc1 x0 x1 x2 acc).1, y ∈ pc.1.set :=
  View.cover_of_tiledL (runLast c i arg3 harg3 arg4 harg4 arg5 harg5 arg6 harg6 arg7 harg7 hc0 hc1 x0 x1 x2 acc).1 S1024x2048.size (by sl_kernel_rfl) y

/-- What the last step leaves in the output window's buffer. -/
def outLast (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬firstStep i) (hc1 : lastStep i)
    (x0 : Vec F S1024x256 .f32) (x1 : Vec F S2048x256 .bf16) (x2 : Vec F S2048 .f32) (acc : Vec F S1024x2048 .f32) : Vec F S1024x2048 .f32 :=
  outView.read (Elt F) (outView.writes (Elt F) outView.junk (runLast c i arg3 harg3 arg4 harg4 arg5 harg5 arg6 harg6 arg7 harg7 hc0 hc1 x0 x1 x2 acc).1)

/-- The last step's pieces for the accumulator cover it (one whole-buffer store). -/
theorem accCoverLast (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬firstStep i) (hc1 : lastStep i)
    (x0 : Vec F S1024x256 .f32) (x1 : Vec F S2048x256 .bf16) (x2 : Vec F S2048 .f32) (acc : Vec F S1024x2048 .f32) (y : S1024x2048.Idx) :
    ∃ pc ∈ (runLast c i arg3 harg3 arg4 harg4 arg5 harg5 arg6 harg6 arg7 harg7 hc0 hc1 x0 x1 x2 acc).2.1, y ∈ pc.1.set :=
  View.cover_of_tiledL (runLast c i arg3 harg3 arg4 harg4 arg5 harg5 arg6 harg6 arg7 harg7 hc0 hc1 x0 x1 x2 acc).2.1 S1024x2048.size (by sl_kernel_rfl) y

/-- What the last step leaves in the accumulator. -/
def accLast (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬firstStep i) (hc1 : lastStep i)
    (x0 : Vec F S1024x256 .f32) (x1 : Vec F S2048x256 .bf16) (x2 : Vec F S2048 .f32) (acc : Vec F S1024x2048 .f32) : Vec F S1024x2048 .f32 :=
  accView.read (Elt F) (accView.writes (Elt F) accView.junk (runLast c i arg3 harg3 arg4 harg4 arg5 harg5 arg6 harg6 arg7 harg7 hc0 hc1 x0 x1 x2 acc).2.1)

/-- The output component away from the last step: nothing is stored, the window is idle and not written back, and
    nothing consults this value. -/
def outIdle : Vec F S1024x2048 .f32 := outView.read (Elt F) outView.junk

section Region1

-- the TensorCore's buffer contents when the region is entered
variable (V : (c : Dev nD) → (b : Ref sig .tc) → Buf (Elt F) ((c : Thread nD τ).loc b))

/-! ## What the output block and the accumulator hold after each point -/

/-- THE ACCUMULATION. What the output window's staging buffer and the accumulator hold after the body at position `n`:
    the case the closed forms select at `n`, run at the point's memrefs and input blocks, over the accumulator as the
    point before left it. -/
def outsAt1 (c : Dev nD) : (n : ℕ) → n < cfg1.N → Vec F S1024x2048 .f32 × Vec F S1024x2048 .f32
  | 0, hn => (outIdle, accFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) accM (Memref.isWhole_whole _) ((firstStep_iff ⟨0, hn⟩).mpr (Nat.zero_mod _)) (fun h => (fun h => by (try dsimp only at h); omega) ((lastStep_iff ⟨0, hn⟩).mp h)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then
        False.elim (by omega)
      else
        (outIdle, accFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM (Memref.isWhole_whole _) ((firstStep_iff ⟨n + 1, hn⟩).mpr h0) (fun h => h1 ((lastStep_iff ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (outLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM (Memref.isWhole_whole _) (fun h => h0 ((firstStep_iff ⟨n + 1, hn⟩).mp h)) ((lastStep_iff ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, accLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM (Memref.isWhole_whole _) (fun h => h0 ((firstStep_iff ⟨n + 1, hn⟩).mp h)) ((lastStep_iff ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (outIdle, accMiddle c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM (Memref.isWhole_whole _) (fun h => h0 ((firstStep_iff ⟨n + 1, hn⟩).mp h)) (fun h => h1 ((lastStep_iff ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a first step: that case's contents. -/
theorem outsAt1_first (c : Dev nD) (t : Fin cfg1.N) (h0 : t.val % 16 = 0) (h1 : ¬t.val % 16 = 15) :
    outsAt1 V c t.val t.isLt = (outIdle, accFirst c (grid1.coords t) (ms1_0 t) (hs1_0 t) (ms1_1 t) (hs1_1 t) (ms1_2 t) (hs1_2 t) (ms1_3 t) (hs1_3 t) accM (Memref.isWhole_whole _) ((firstStep_iff t).mpr h0) (fun h => h1 ((lastStep_iff t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle step: that case's contents, over what the point before left. -/
theorem outsAt1_middle (c : Dev nD) (t : Fin cfg1.N) (h0 : ¬t.val % 16 = 0) (h1 : ¬t.val % 16 = 15) :
    outsAt1 V c t.val t.isLt = (outIdle, accMiddle c (grid1.coords t) (ms1_0 t) (hs1_0 t) (ms1_1 t) (hs1_1 t) (ms1_2 t) (hs1_2 t) (ms1_3 t) (hs1_3 t) accM (Memref.isWhole_whole _) (fun h => h0 ((firstStep_iff t).mp h)) (fun h => h1 ((lastStep_iff t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last step: that case's contents, over what the point before left. -/
theorem outsAt1_last (c : Dev nD) (t : Fin cfg1.N) (h0 : ¬t.val % 16 = 0) (h1 : t.val % 16 = 15) :
    outsAt1 V c t.val t.isLt = (outLast c (grid1.coords t) (ms1_0 t) (hs1_0 t) (ms1_1 t) (hs1_1 t) (ms1_2 t) (hs1_2 t) (ms1_3 t) (hs1_3 t) accM (Memref.isWhole_whole _) (fun h => h0 ((firstStep_iff t).mp h)) ((lastStep_iff t).mpr h1) (iblk1 V c 0 t) (iblk1 V c 1 t) (iblk1 V c 2 t) (outsAt1 V c (t.val - 1) (Nat.lt_of_le_of_lt (Nat.sub_le _ _) t.isLt)).2, accLast c (grid1.coords t) (ms1_0 t) (hs1_0 t) (ms1_1 t) (hs1_1 t) (ms1_2 t) (hs1_2 t) (ms1_3 t) (hs1_3 t) accM (Memref.isWhole_whole _) (fun h => h0 ((firstStep_iff t).mp h)) ((lastStep_iff t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant with the accumulator carried -/

/-- A scoped buffer this kernel never touches (a staging buffer of the first kernel), whole at some contents. -/
abbrev heldAny (c : Dev nD) (b : Ref sig .tc) : sProp 𝕄 :=
  iprop(∃ f : Buf (Elt F) ((c : Thread nD τ).loc b), ((c : Thread nD τ).loc b) ↦{fullShare} f)

/-- The region invariant before position `n`: before the first point the class's (every scoped buffer that is no
    staging buffer of this kernel at anything); afterwards the same with the accumulator at what the point before left
    in it, and the generator register at some state. -/
def PhiS (c : Dev nD) : (n : ℕ) → n ≤ cfg1.N → sProp 𝕄
  | 0, _ => Pipeline.ΦA spec1 c
  | n + 1, hn => iprop(iprop(heldAny c cc0_stg0_0 ∗ heldAny c cc0_stg0_1 ∗ heldAny c cc0_stg1_0 ∗ heldAny c cc0_stg1_1 ∗ heldAny c cc0_stg2_0 ∗ heldAny c cc0_stg3_0 ∗ heldAny c cc0_stg4_0 ∗ heldAny c cc0_stg5_0 ∗ heldAny c cc0_stg6_0 ∗ heldAny c cc0_stg6_1 ∗ owns (c : Thread nD τ) accM fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the accumulator at that point's contents. -/
theorem PhiS_succ (c : Dev nD) (n : ℕ) (hn : n < cfg1.N) :
    PhiS V c (n + 1) hn = iprop(iprop(heldAny c cc0_stg0_0 ∗ heldAny c cc0_stg0_1 ∗ heldAny c cc0_stg1_0 ∗ heldAny c cc0_stg1_1 ∗ heldAny c cc0_stg2_0 ∗ heldAny c cc0_stg3_0 ∗ heldAny c cc0_stg4_0 ∗ heldAny c cc0_stg5_0 ∗ heldAny c cc0_stg6_0 ∗ heldAny c cc0_stg6_1 ∗ owns (c : Thread nD τ) accM fullShare ((outsAt1 V c n hn).2)) ∗ (∃ r, prngReg c r)) := rfl

/-- Before a point that is not the first: the accumulator at what the point before left. -/
theorem PhiS_pos (c : Dev nD) (n : ℕ) (h : n ≤ cfg1.N) (hz : n ≠ 0) :
    PhiS V c n h = iprop(iprop(heldAny c cc0_stg0_0 ∗ heldAny c cc0_stg0_1 ∗ heldAny c cc0_stg1_0 ∗ heldAny c cc0_stg1_1 ∗ heldAny c cc0_stg2_0 ∗ heldAny c cc0_stg3_0 ∗ heldAny c cc0_stg4_0 ∗ heldAny c cc0_stg5_0 ∗ heldAny c cc0_stg6_0 ∗ heldAny c cc0_stg6_1 ∗ owns (c : Thread nD τ) accM fullShare ((outsAt1 V c (n - 1) (by omega)).2)) ∗ (∃ r, prngReg c r)) := by
  cases n with
  | zero => exact absurd rfl hz
  | succ n => rfl

/-! ## The proof data -/

/-- The proof data of the second pipeline on core `c`: the arrays as the region finds them; after the body at point `t`
    each input's buffer at its block and the output's at `outsAt1`'s first component; the invariant `PhiS`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS_castSucc (c : Dev nD) (t : Fin cfg1.N) :
    (dat1 V c).Φ t.castSucc = PhiS V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Region1

section Region1Body

variable (V : (c : Dev nD) → (b : Ref sig .tc) → Buf (Elt F) ((c : Thread nD τ).loc b))

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which step of the contraction the
    point is; so that case's run applies. The invariant hands the body the accumulator at what the point before left (at
    anything at the very first point) and takes it back at this point's contents; away from the last step the output
    window's buffer is handed back as it was found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  by_cases h0 : t.val % 16 = 0
  · by_cases h1 : t.val % 16 = 15
    · exfalso; omega
    · rw [Dat.leavesExact_idle (dat1 V c) 3 t (idle1_3 t (fun h => h1 ((lastStep_iff t).mp h))) (noFlush1_3 t (fun h => h1 ((lastStep_iff t).mp h)))]
      rw [outsAt1_first V c t h0 h1]
      unfold accFirst; (try dsimp only)
      by_cases hz : t.val = 0
      · rw [PhiS_castSucc V c t, PhiS_zero V c _ _ hz, PhiA1_eq]
        iintro ⟨⟨⟨HR0, HR1, HR2, HR3, HR4, HR5, HR6, HR7, HR8, HR9, HS⟩, Hg⟩, Ho, ⟨%d0, H0⟩, ⟨%d1, H1⟩, ⟨%d2, H2⟩, ⟨%d3, H3⟩⟩
        iapply ((runFirst c (grid1.coords t) _ _ _ _ _ _ _ _ _ _ ((firstStep_iff t).mpr h0) (fun h => h1 ((lastStep_iff t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HR0 HR1 HR2 HR3 HR4 HR5 HR6 HR7 HR8 HR9 HS Hg]
        · isplitl [HR0 HR1 HR2 HR3 HR4 HR5 HR6 HR7 HR8 HR9 HS]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            unfold owns; iexists _; isplitr
            swap; · iexact HS
            ipureintro; exact View.read_writes_of_cover _ _ _ _ _ (accCoverFirst c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HR0, HR1, HR2, HR3, HR4, HR5, HR6, HR7, HR8, HR9, HS⟩, Hg⟩, Ho, ⟨%d0, H0⟩, ⟨%d1, H1⟩, ⟨%d2, H2⟩, ⟨%d3, H3⟩⟩
        iapply ((runFirst c (grid1.coords t) _ _ _ _ _ _ _ _ _ _ ((firstStep_iff t).mpr h0) (fun h => h1 ((lastStep_iff t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HR0 HR1 HR2 HR3 HR4 HR5 HR6 HR7 HR8 HR9 HS Hg]
        · isplitl [HR0 HR1 HR2 HR3 HR4 HR5 HR6 HR7 HR8 HR9 HS]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            unfold owns; iexists _; isplitr
            swap; · iexact HS
            ipureintro; exact View.read_writes_of_cover _ _ _ _ _ (accCoverFirst c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 16 = 15
    · rw [show (dat1 V c).leavesExact 3 t = owns (c : Thread nD τ) (ms1_3 t) fullShare ((dat1 V c).after 3 t) from by
        unfold Dat.leavesExact; rw [live1_3 t ((lastStep_iff t).mpr h1)], after1_3]
      rw [outsAt1_last V c t h0 h1]
      unfold outLast accLast; (try dsimp only)
      rw [PhiS_castSucc V c t, PhiS_pos V c _ _ hz]
      iintro ⟨⟨⟨HR0, HR1, HR2, HR3, HR4, HR5, HR6, HR7, HR8, HR9, HS⟩, Hg⟩, Ho, ⟨%d0, H0⟩, ⟨%d1, H1⟩, ⟨%d2, H2⟩, ⟨%d3, H3⟩⟩
      iapply ((runLast c (grid1.coords t) _ _ _ _ _ _ _ _ _ _ (fun h => h0 ((firstStep_iff t).mp h)) ((lastStep_iff t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HR0 HR1 HR2 HR3 HR4 HR5 HR6 HR7 HR8 HR9 HS Hg]
      · isplitl [HR0 HR1 HR2 HR3 HR4 HR5 HR6 HR7 HR8 HR9 HS]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          unfold owns; iexists _; isplitr
          swap; · iexact HS
          ipureintro; exact View.read_writes_of_cover _ _ _ _ _ (accCoverLast c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast c _ _ _ _ _ _ _ _ _ _ _ _ _ _ _ _ _)
    · rw [Dat.leavesExact_idle (dat1 V c) 3 t (idle1_3 t (fun h => h1 ((lastStep_iff t).mp h))) (noFlush1_3 t (fun h => h1 ((lastStep_iff t).mp h)))]
      rw [outsAt1_middle V c t h0 h1]
      unfold accMiddle; (try dsimp only)
      rw [PhiS_castSucc V c t, PhiS_pos V c _ _ hz]
      iintro ⟨⟨⟨HR0, HR1, HR2, HR3, HR4, HR5, HR6, HR7, HR8, HR9, HS⟩, Hg⟩, Ho, ⟨%d0, H0⟩, ⟨%d1, H1⟩, ⟨%d2, H2⟩, ⟨%d3, H3⟩⟩
      iapply ((runMiddle c (grid1.coords t) _ _ _ _ _ _ _ _ _ _ (fun h => h0 ((firstStep_iff t).mp h)) (fun h => h1 ((lastStep_iff t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HR0 HR1 HR2 HR3 HR4 HR5 HR6 HR7 HR8 HR9 HS Hg]
      · isplitl [HR0 HR1 HR2 HR3 HR4 HR5 HR6 HR7 HR8 HR9 HS]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          unfold owns; iexists _; isplitr
          swap; · iexact HS
          ipureintro; exact View.read_writes_of_cover _ _ _ _ _ (accCoverMiddle c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HR0, HR1, HR2, HR3, HR4, HR5, HR6, HR7, HR8, HR9, HS⟩, Hg⟩
  isplitl [HR0 HR1 HR2 HR3 HR4 HR5 HR6 HR7 HR8 HR9 HS]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    iexists _; iexact HS
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Region1Body

end Cert.Kernel.Hand

end
-- ==== Proof.K.Run.lean ====
/-
  The run of the whole program: host operations, the masking region, the contraction region, the final reshape.

  Between two items of the program every unscoped buffer of a core is held at named contents: the launch memory pushed
  through each stretch of host operations, the masked weight as the first region's write-backs leave it, the product as
  the second region's leave it. Each region is entered by splitting its windows' arrays out of those buffers and left by
  putting them back at their final contents. At the end the result buffer is read off the last contents, and every
  argument is found as launched.
-/
import proofs.«142192_j60155311948051_2_alg».proof.Proof.Gen.Kernel.Regions
import proofs.«142192_j60155311948051_2_alg».proof.Proof.K.Region0
import proofs.«142192_j60155311948051_2_alg».proof.Proof.K.Region1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents around the two regions -/

/-- What the masking region finds: the launch memory after the seven stretches of host operations. -/
abbrev Vin0 : (c : Dev nD) → (b : Ref sig .tc) → Buf (Elt F) ((c : Thread nD τ).loc b) := fun c b => V7 m c b

/-- The masked weight as the first region's write-backs leave it. -/
def arr0 (c : Dev nD) : Buf (Elt F) ((c : Thread nD τ).loc main_v22) := (dat0 (Vin0 m) c).arrAt 6 cfg0.N

/-- What the contraction region finds: the same, with the masked weight in its buffer. -/
abbrev Vin1 : (c : Dev nD) → (b : Ref sig .tc) → Buf (Elt F) ((c : Thread nD τ).loc b) :=
  fun c b => Function.update (V7 m c) main_v22 (arr0 m c) b

/-- The product as the second region's write-backs leave it. -/
def arr1 (c : Dev nD) : Buf (Elt F) ((c : Thread nD τ).loc main_v23) := (dat1 (Vin1 m) c).arrAt 3 cfg1.N

/-- What the regions leave in the buffers they may change. -/
def outs : Outs (F := F) := fun _ r c =>
  if h : r = main_v22 then h ▸ arr0 m c else if h' : r = main_v23 then h' ▸ arr1 m c else m ((c : Thread nD τ).loc r)

theorem outs_v22 (c : Dev nD) : outs m 8 main_v22 c = arr0 m c := by
  unfold outs; rw [dif_pos rfl]

theorem outs_v23 (c : Dev nD) : outs m 9 main_v23 c = arr1 m c := by
  unfold outs; rw [dif_neg (by decide), dif_pos rfl]

/-- The contents after the first region, at the TensorCore's references. -/
abbrev Vout0 : (c : Dev nD) → (b : Ref sig .tc) → Buf (Elt F) ((c : Thread nD τ).loc b) := fun c b => V8 m (outs m) c b
/-- The contents after the second region, at the TensorCore's references. -/
abbrev Vout1 : (c : Dev nD) → (b : Ref sig .tc) → Buf (Elt F) ((c : Thread nD τ).loc b) := fun c b => V9 m (outs m) c b

theorem Vout0_eq (c : Dev nD) (b : Ref sig .tc) : Vout0 m c b = Vin1 m c b := by
  show Function.update (V7 m c) main_v22 (outs m 8 main_v22 c) b = Function.update (V7 m c) main_v22 (arr0 m c) b
  rw [outs_v22]

/-! ## What each region leaves, against the contents after it -/

/-- After the first region each of its arrays holds what the write-backs leave: an input its entry contents, the output
    the masked weight. -/
theorem hF0 (c : Dev nD) (w : Fin cfg0.W) : (dat0 (Vin0 m) c).arrAt w cfg0.N = Vout0 m c (Pipeline.arrRef spec0 w) := by
  match w with
  | ⟨0, _⟩ => exact (((dat0 (Vin0 m) c).arrAt_in 0 rfl _).trans (A_eq0 (Vin0 m) c 0)).trans (V8_of m (outs m) c _ (by decide)).symm
  | ⟨1, _⟩ => exact (((dat0 (Vin0 m) c).arrAt_in 1 rfl _).trans (A_eq0 (Vin0 m) c 1)).trans (V8_of m (outs m) c _ (by decide)).symm
  | ⟨2, _⟩ => exact (((dat0 (Vin0 m) c).arrAt_in 2 rfl _).trans (A_eq0 (Vin0 m) c 2)).trans (V8_of m (outs m) c _ (by decide)).symm
  | ⟨3, _⟩ => exact (((dat0 (Vin0 m) c).arrAt_in 3 rfl _).trans (A_eq0 (Vin0 m) c 3)).trans (V8_of m (outs m) c _ (by decide)).symm
  | ⟨4, _⟩ => exact (((dat0 (Vin0 m) c).arrAt_in 4 rfl _).trans (A_eq0 (Vin0 m) c 4)).trans (V8_of m (outs m) c _ (by decide)).symm
  | ⟨5, _⟩ => exact (((dat0 (Vin0 m) c).arrAt_in 5 rfl _).trans (A_eq0 (Vin0 m) c 5)).trans (V8_of m (outs m) c _ (by decide)).symm
  | ⟨6, _⟩ =>
    show arr0 m c = Function.update (V7 m c) main_v22 (outs m 8 main_v22 c) main_v22
    rw [Function.update_self, outs_v22]

/-- Every buffer that is no array of the first region is untouched by it. -/
theorem hrest0 (c : Dev nD) : ∀ b, b ∉ Finset.univ.image (Pipeline.arrRef spec0) → Vout0 m c b = Vin0 m c b :=
  fun b hb => V8_of m (outs m) c b (fun h => hb (Finset.mem_image.mpr ⟨6, Finset.mem_univ _, (List.mem_singleton.mp h).symm⟩))

/-- After the second region each of its arrays holds what the write-backs leave: an input its entry contents, the output
    the product. -/
theorem hF1 (c : Dev nD) (w : Fin cfg1.W) : (dat1 (Vin1 m) c).arrAt w cfg1.N = Vout1 m c (Pipeline.arrRef spec1 w) := by
  match w with
  | ⟨0, _⟩ => exact (((dat1 (Vin1 m) c).arrAt_in 0 rfl _).trans (A_eq1 (Vin1 m) c 0)).trans ((V9_of m (outs m) c _ (by decide)).trans (Vout0_eq m c _)).symm
  | ⟨1, _⟩ => exact (((dat1 (Vin1 m) c).arrAt_in 1 rfl _).trans (A_eq1 (Vin1 m) c 1)).trans ((V9_of m (outs m) c _ (by decide)).trans (Vout0_eq m c _)).symm
  | ⟨2, _⟩ => exact (((dat1 (Vin1 m) c).arrAt_in 2 rfl _).trans (A_eq1 (Vin1 m) c 2)).trans ((V9_of m (outs m) c _ (by decide)).trans (Vout0_eq m c _)).symm
  | ⟨3, _⟩ =>
    show arr1 m c = Function.update (V8 m (outs m) c) main_v23 (outs m 9 main_v23 c) main_v23
    rw [Function.update_self, outs_v23]

/-- Every buffer that is no array of the second region is untouched by it. -/
theorem hrest1 (c : Dev nD) : ∀ b, b ∉ Finset.univ.image (Pipeline.arrRef spec1) → Vout1 m c b = Vin1 m c b :=
  fun b hb => (V9_of m (outs m) c b (fun h => hb (Finset.mem_image.mpr ⟨3, Finset.mem_univ _, (List.mem_singleton.mp h).symm⟩))).trans (Vout0_eq m c b)

/-! ## The proof data family and the thread state -/

/-- Each region's proof data, at its entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

abbrev 𝒱₀ : Variants := Variants.none
/-- No core owes another anything. -/
abbrev L : GSem nD τ sig → Finset Unit := fun _ => ∅
abbrev lv : GSem nD τ sig → Unit → ℕ := fun _ _ => 0

/-- What rides beside the buffers: the generator register at some state, and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c

/-! ## The regions as segments -/

set_option backward.isDefEq.respectTransparency.types false in
/-- THE MASKING REGION over the thread state: entered from every unscoped buffer at the contents after the host
    operations, left with the masked weight in its buffer. Its windows' arrays are split out of the unscoped buffers and
    put back at their final contents; the generator register goes into the class's invariant and comes back; nothing is
    owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V7 m c) ∗ R (F := F) c)
  post c := iprop(StableHlo.held (c : Thread nD τ) (Pipeline.ucRefs τ sig) (V8 m (outs m) c) ∗ R (F := F) c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    unfold R
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    unfold R
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE CONTRACTION REGION over the thread state: entered from the contents the masking region left, left with the
    product in its buffer. The invariant carries the accumulator between grid points; at the region's ends it is the
    class's (the scoped buffers at anything, the generator register at some state). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (V8 m (outs m) c) ∗ R (F := F) c)
  post c := iprop(StableHlo.held (c : Thread nD τ) (Pipeline.ucRefs τ sig) (V9 m (outs m) c) ∗ R (F := F) c)
  X c := iprop(∃ r, prngReg c r)
  Y c := iprop(∃ r, prngReg c r)
  Z c := Pipeline.unscopedRest (Ix := Unit) (Name := ℕ) (U := UR sig nD τ) (Lvl := ℕ) spec1 c (Vout0 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vout0 m c) fun w => (A_eq1 (Vin1 m) c w).trans (Vout0_eq m c _).symm
    rw [Pipeline.unscopedBufs_held] at hsplit
    unfold R
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (Vin1 m) c)
    unfold Pipeline.ΦA
    iintro ⟨Hp, -, Hr⟩
    isplitl [Hr]; · iexact Hr
    iexact Hp
  hout c := by
    rw [Pipeline.ownSems0_none]
    refine (hout1 (Vin1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vout0 m c) (Vout1 m c) ((pdats m 1 c).arrAt · cfg1.N) (hF1 m c) (fun b hb => (hrest1 m c b hb).trans (Vout0_eq m c b).symm)
    rw [Pipeline.unscopedBufs_held] at hjoin
    unfold R
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- THE RUN. From any memory with zero counters every weakly fair execution of the program terminates, nothing faulting,
    and in every final state the result buffer holds the last contents' value and every argument is as launched. -/
theorem run : θ_run defs (onTc (τ := τ) (main (F := F))) ⟨m, fun _ => 0, ρ⟩ (fun r => ∀ c : Dev nD,
      r.2.mem ((c.tc : Thread nD τ).loc main_v24) = V10 m (outs m) c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm (pdats m) () cellOf_inj emb₁ defs₀ 𝒱₀ L lv m ρ main
    (segs m (outs m) 𝒱₀ L lv (E (F := F)) () (pdats m) (reg0 m) (reg1 m))
    (fun c Q => by
      rewrite [main_chain c, Seg.run_eq_chain,
        show (segs m (outs m) 𝒱₀ L lv (E (F := F)) () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ R (F := F) c))
    (Tₙ := fun c => StableHlo.held (c : Thread nD τ) (Pipeline.ucRefs τ sig) (V10 m (outs m) c))
    (hch := fun c => ⟨.rfl, .rfl, .rfl, .rfl, .rfl, .rfl, .rfl, .rfl, .rfl, .rfl,
      sep_mono .rfl (show R (F := F) c ⊢ iprop(∃ W, owes (c : Thread nD τ) (0 : CellTallies nD τ sig Unit) W) from by
        iintro ⟨-, H⟩; iexact H)⟩)
    (hinit := ?_)
    (QY := fun c s => s.mem ((c.tc : Thread nD τ).loc main_v24) = V10 m (outs m) c main_v24
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h => h)
  · -- the launch element is the pipeline library's at every staging cell
    iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch: every unscoped buffer held at the launch memory, the generator register, nothing owed
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result and each argument read off the last contents
    unfold StableHlo.held
    iintro ⟨Hh, HSI⟩
    ihave Hr := (pointsTo_read_all (Pipeline.ucRefs τ sig) (fun b => ((c : Thread nD τ).1, b)) (V10 m (outs m) c) s') $$ [Hh HSI]
    · isplitl [Hh] <;> iassumption
    icases Hr with ⟨%h, HSI⟩
    imodintro
    isplitr
    · ipureintro
      exact ⟨h (Proc.devRef .tc main_v24) (Finset.mem_filter.mpr ⟨StableHlo.devRef_mem_tcRefs main_v24, by decide⟩),
        (h (Proc.devRef .tc main_arg0) (Finset.mem_filter.mpr ⟨StableHlo.devRef_mem_tcRefs main_arg0, by decide⟩)).trans (V10_main_arg0 m (outs m) c),
        (h (Proc.devRef .tc main_arg1) (Finset.mem_filter.mpr ⟨StableHlo.devRef_mem_tcRefs main_arg1, by decide⟩)).trans (V10_main_arg1 m (outs m) c),
        (h (Proc.devRef .tc main_arg2) (Finset.mem_filter.mpr ⟨StableHlo.devRef_mem_tcRefs main_arg2, by decide⟩)).trans (V10_main_arg2 m (outs m) c),
        (h (Proc.devRef .tc main_arg3) (Finset.mem_filter.mpr ⟨StableHlo.devRef_mem_tcRefs main_arg3, by decide⟩)).trans (V10_main_arg3 m (outs m) c)⟩
    · iexact HSI

end Cert.Kernel.Hand

end
-- ==== Proof.KI.Region0.lean ====
import proofs.«142192_j60155311948051_2_alg».proof.Proof.Gen.KernelIdeal.Launch
import proofs.«142192_j60155311948051_2_alg».proof.Proof.Gen.KernelIdeal.Skeleton
import proofs.«142192_j60155311948051_2_alg».proof.Proof.Gen.KernelIdeal.Points
import proofs.«142192_j60155311948051_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the block mask pooled and laid over the weight, at the entry contents `V`

The first kernel runs on a grid of 16 row blocks. At a point it holds a 256×4096 block of the integer mask
(window 0) and of the weight (window 1), four 0/1 indicator matrices that never move (windows 2–5), and writes
a 256×4096 block of the masked weight (window 6) in four chunks of 1024 columns, one per trip of a counted loop. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The column chunks of the loop -/

/-- The loop over column chunks makes four trips. -/
theorem chunks_eq : k0_t1_loop.trips = 4 := by decide +kernel

/-- Chunk `j` of the four as a trip of the loop. -/
def chunk (j : Fin 4) : Fin k0_t1_loop.trips := j.cast chunks_eq.symm

/-- Columns `[1024·k, 1024·k + 1024)` of a 256×4096 block: where trip `k` reads the weight and writes the result. -/
abbrev colChunk (k : Fin k0_t1_loop.trips) : Rect S256x4096 :=
  Rect.unit (s := S256x4096) (k0_off2 k) S256x1024.size (k0_off2_inb k)

/-- The same columns of the 128×4096 indicator that spreads a pooled column over its 32 columns. -/
abbrev indChunk (k : Fin k0_t1_loop.trips) : Rect S128x4096 :=
  Rect.unit (s := S128x4096) (k0_off1 k) S128x1024.size (k0_off1_inb k)

/-- What trip `k` writes: over its column chunk, the weight's chunk times the pooled block mask spread back over
    the chunk, rounded to bf16 — the payload of the body's one store, from the mask block `v0`, the pooling
    indicators `v3` (4096×128), `v7` (8×256), the row-spreading indicator `v15` (256×8), the column-spreading
    indicator's contents `x3` and the weight block `x1`. -/
def chunkPiece (v0 : Vec F S256x4096 .i32) (v3 : Vec F S4096x128 .bf16) (v7 : Vec F S8x256 .bf16) (v15 : Vec F S256x8 .bf16)
    (x3 : Vec F S128x4096 .bf16) (x1 : Vec F S256x4096 .f32) (k : Fin k0_t1_loop.trips) : View.Piece (Elt F) S256x4096 .bf16 :=
  ⟨colChunk k, k0_pay1 v0 v3 v7 v15 (View.ld x3 (indChunk k)) (View.ld x1 (colChunk k))⟩

/-- One trip of the loop writes exactly that piece: the loop instance's piece list for trip `k`, opened. -/
theorem tripL_eq (𝒱 : Variants) (c : Dev nD) (bd : Option 𝒱.V) (i : grid0.Coords) (arg1 : Memref sig .tc .vmem S256x4096 .i32) (harg1 : arg1.IsWhole) (arg2 : Memref sig .tc .vmem S256x4096 .f32) (harg2 : arg2.IsWhole) (arg3 : Memref sig .tc .vmem S4096x128 .bf16) (harg3 : arg3.IsWhole) (arg4 : Memref sig .tc .vmem S128x4096 .bf16) (harg4 : arg4.IsWhole) (arg5 : Memref sig .tc .vmem S256x8 .bf16) (harg5 : arg5.IsWhole) (arg6 : Memref sig .tc .vmem S8x256 .bf16) (harg6 : arg6.IsWhole) (arg7 : Memref sig .tc .vmem S256x4096 .bf16) (harg7 : arg7.IsWhole) (v0 : Vec F S256x4096 .i32) (v3 : Vec F S4096x128 .bf16) (v7 : Vec F S8x256 .bf16) (v15 : Vec F S256x8 .bf16) (X_arg2 : BufTy.Contents (Elt F) arg2.view.ty) (X_arg4 : BufTy.Contents (Elt F) arg4.view.ty) (k : Fin k0_t1_loop.trips) :
    tripL_k0_t1 (F := F) 𝒱 c bd i arg1 harg1 arg2 harg2 arg3 harg3 arg4 harg4 arg5 harg5 arg6 harg6 arg7 harg7 v0 v3 v7 v15 X_arg2 X_arg4 k
      = [chunkPiece v0 v3 v7 v15 (arg4.view.read (Elt F) X_arg4) (arg2.view.read (Elt F) X_arg2) k] := by
  unfold tripL_k0_t1 trip_k0_t1
  rfl

/-- After the loop the output buffer has been written with the four chunks' pieces, the last trip's first. -/
theorem pieces_after_loop (𝒱 : Variants) (c : Dev nD) (bd : Option 𝒱.V) (i : grid0.Coords) (arg1 : Memref sig .tc .vmem S256x4096 .i32) (harg1 : arg1.IsWhole) (arg2 : Memref sig .tc .vmem S256x4096 .f32) (harg2 : arg2.IsWhole) (arg3 : Memref sig .tc .vmem S4096x128 .bf16) (harg3 : arg3.IsWhole) (arg4 : Memref sig .tc .vmem S128x4096 .bf16) (harg4 : arg4.IsWhole) (arg5 : Memref sig .tc .vmem S256x8 .bf16) (harg5 : arg5.IsWhole) (arg6 : Memref sig .tc .vmem S8x256 .bf16) (harg6 : arg6.IsWhole) (arg7 : Memref sig .tc .vmem S256x4096 .bf16) (harg7 : arg7.IsWhole) (v0 : Vec F S256x4096 .i32) (v3 : Vec F S4096x128 .bf16) (v7 : Vec F S8x256 .bf16) (v15 : Vec F S256x8 .bf16) (X_arg2 : BufTy.Contents (Elt F) arg2.view.ty) (X_arg4 : BufTy.Contents (Elt F) arg4.view.ty) :
    pb_k0_t1 (F := F) 𝒱 c bd i arg1 harg1 arg2 harg2 arg3 harg3 arg4 harg4 arg5 harg5 arg6 harg6 arg7 harg7 v0 v3 v7 v15 X_arg2 X_arg4 (Scf.trips k0_t1_loop.lb k0_t1_loop.ub k0_t1_loop.st)
      = [chunkPiece v0 v3 v7 v15 (arg4.view.read (Elt F) X_arg4) (arg2.view.read (Elt F) X_arg2) (chunk 3),
         chunkPiece v0 v3 v7 v15 (arg4.view.read (Elt F) X_arg4) (arg2.view.read (Elt F) X_arg2) (chunk 2),
         chunkPiece v0 v3 v7 v15 (arg4.view.read (Elt F) X_arg4) (arg2.view.read (Elt F) X_arg2) (chunk 1),
         chunkPiece v0 v3 v7 v15 (arg4.view.read (Elt F) X_arg4) (arg2.view.read (Elt F) X_arg2) (chunk 0)] := by
  rw [show Scf.trips k0_t1_loop.lb k0_t1_loop.ub k0_t1_loop.st = (chunk 3).val + 1 from chunks_eq,
    pb_k0_t1_succ, show (chunk 3).val = (chunk 2).val + 1 from rfl,
    pb_k0_t1_succ, show (chunk 2).val = (chunk 1).val + 1 from rfl,
    pb_k0_t1_succ, show (chunk 1).val = (chunk 0).val + 1 from rfl,
    pb_k0_t1_succ, tripL_eq, tripL_eq, tripL_eq, tripL_eq]
  rfl

/-! ## What the body leaves in the output window's buffer -/

/-- Window 6's staging buffer after the body, from the six input windows' blocks — `x0` the mask block, `x1` the
    weight block, `x2` the 4096×128 and `x3` the 128×4096 column indicators, `x4` the 256×8 and `x5` the 8×256
    row indicators —: the four chunks' pieces, last first (Lib/Pipeline/FrameBody.lean `View.canon`). -/
def out0_6 (x0 : Vec F S256x4096 .i32) (x1 : Vec F S256x4096 .f32) (x2 : Vec F S4096x128 .bf16) (x3 : Vec F S128x4096 .bf16)
    (x4 : Vec F S256x8 .bf16) (x5 : Vec F S8x256 .bf16) : Vec F S256x4096 .bf16 :=
  View.canon [chunkPiece x0 x2 x5 x4 x3 x1 (chunk 3), chunkPiece x0 x2 x5 x4 x3 x1 (chunk 2),
    chunkPiece x0 x2 x5 x4 x3 x1 (chunk 1), chunkPiece x0 x2 x5 x4 x3 x1 (chunk 0)]

/-- The four chunks tile the block (checked by evaluation), so they cover it. -/
theorem chunks_cover (p3 p2 p1 p0 : Vec F S256x1024 .bf16) (y : S256x4096.Idx) :
    ∃ pc ∈ ([⟨colChunk (chunk 3), p3⟩, ⟨colChunk (chunk 2), p2⟩, ⟨colChunk (chunk 1), p1⟩, ⟨colChunk (chunk 0), p0⟩] :
      List (View.Piece (Elt F) S256x4096 .bf16)), y ∈ pc.1.set :=
  View.cover_of_tiled (s := S256x4096) _ S256x1024.size (by sl_kernel_rfl) y

/-- A load of a whole buffer reads its contents. -/
theorem ld_whole {S : Shape} {e : EltTy} (off : Fin S.rank → ℕ) (hoff : ∀ a, off a = 0)
    (inb : ∀ a, off a + S.size a ≤ S.size a) (X : S.Idx → Elt F e) : View.ld X (Rect.unit off S.size inb) = X :=
  View.ld_unit_zero (funext hoff) inb X

/-! ## The body's triple -/

set_option maxHeartbeats 1000000 in
/-- The kernel body on whole staging memrefs, the six inputs' at read contents `x0 … x5` and the output's at anything,
    runs to the continuation holding the inputs' as they were and the output's at `out0_6` of the inputs': the printed
    function is its skeleton, the loop over column chunks is passed by its invariant, and the pieces the four
    trips wrote cover the buffer. The body's load of the output chunk before each store is dropped. -/
theorem sound_kernel0 (c : Dev nD) (E : Set ℕ) (i : grid0.Coords) (arg1 : Memref sig .tc .vmem S256x4096 .i32) (harg1 : arg1.IsWhole) (arg2 : Memref sig .tc .vmem S256x4096 .f32) (harg2 : arg2.IsWhole) (arg3 : Memref sig .tc .vmem S4096x128 .bf16) (harg3 : arg3.IsWhole) (arg4 : Memref sig .tc .vmem S128x4096 .bf16) (harg4 : arg4.IsWhole) (arg5 : Memref sig .tc .vmem S256x8 .bf16) (harg5 : arg5.IsWhole) (arg6 : Memref sig .tc .vmem S8x256 .bf16) (harg6 : arg6.IsWhole) (arg7 : Memref sig .tc .vmem S256x4096 .bf16) (harg7 : arg7.IsWhole)
    (x0 : Vec F S256x4096 .i32) (x1 : Vec F S256x4096 .f32) (x2 : Vec F S4096x128 .bf16) (x3 : Vec F S128x4096 .bf16)
    (x4 : Vec F S256x8 .bf16) (x5 : Vec F S8x256 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare (out0_6 x0 x1 x2 x3 x4 x5)) -∗ K ⟨⟩))
      ⊢ wp frame (wpE (defs₀ (F := F)) Variants.none c none) E (cc0__mask_weight_kernel i arg1 harg1 arg2 harg2 arg3 harg3 arg4 harg4 arg5 harg5 arg6 harg6 arg7 harg7) K := by
  simp only [cc0__mask_weight_kernel_eq_skeleton]; unfold cc0__mask_weight_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [pieces_after_loop]
  simp only [View.readAt_eq_ld]
  rw [ld_whole _ (by decide), ld_whole _ (by decide), ld_whole _ (by decide), ld_whole _ (by decide)]
  exact View.read_writes_eq_canon _ _ _ (chunks_cover _ _ _ _)

/-! ## The input windows hold their blocks -/

/-- An input window's current staging buffer holds its block at every point, fetched there or not (the indicator
    windows 2–5 are fetched at the first point only and never move), for ANY proof data whose array is `V`'s (`hA`)
    and whose body leaves the block in place (`hafter`): Lib/Pipeline/FrameBody.lean `Dat.before_in_eq_fetched`,
    the windows uncut and never idle. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of pipeline 0 on core `c`: the arrays as the region finds them (`V`); after the body at point
    `t` each input's buffer at its block and the output's at `out0_6` of the six input blocks; the invariant the
    scoped rest and the core's pseudo-random number register, untouched (Lib/Pipeline/Frame.lean `ΦA`); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Runs.lean ====
import proofs.«142192_j60155311948051_2_alg».proof.Proof.Gen.KernelIdeal.Launch
import proofs.«142192_j60155311948051_2_alg».proof.Proof.Gen.KernelIdeal.Skeleton
import proofs.«142192_j60155311948051_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel (the tiled contraction data·wbᵀ + bias): what its three control cases share

The grid is (4, 2, 16); the last coordinate k = t mod 16 is the step of the contraction. The accumulator is a scratch
buffer carried from one step to the next: zeroed at the first step (k = 0), added to at every step, and read into the
output block (with the bias) at the last step (k = 15). -/

section Region1

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point, for any proof data over the entry contents whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the masked weight's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the bias block (fetched only at the first step of each contraction, found in place at the others). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The two conditions of the body, over the grid -/

/-- "This is the first step of the contraction": the condition under which the accumulator is zeroed, as the body
    computes it from the last grid coordinate. -/
abbrev firstStep (i : grid1.Coords) : Prop :=
  (Scalar.cmpi .ne (Scalar.extui (Scalar.cmpi .eq (BitVec.ofNat 32 (i 2).val) 0#32)) 0#32) = 1#1
/-- It holds exactly at the points ≡ 0 (mod 16). -/
theorem firstStep_iff : ∀ t : Fin cfg1.N, firstStep (grid1.coords t) ↔ t.val % 16 = 0 :=
  (by decide +kernel : ∀ t : Fin grid1.N, firstStep (grid1.coords t) ↔ t.val % 16 = 0)

/-- "This is the last step of the contraction": the condition under which the output block is stored. -/
abbrev lastStep (i : grid1.Coords) : Prop := k1_cond2 i = 1#1
/-- It holds exactly at the points ≡ 15 (mod 16). -/
theorem lastStep_iff : ∀ t : Fin cfg1.N, lastStep (grid1.coords t) ↔ t.val % 16 = 15 :=
  (by decide +kernel : ∀ t : Fin grid1.N, lastStep (grid1.coords t) ↔ t.val % 16 = 15)

/-! ## Where the windows are idle -/

/-- The three inputs are never idle. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last step the output window is idle (nothing is stored into it), -/
theorem idle1_3 : ∀ t : Fin cfg1.N, ¬lastStep (grid1.coords t) → cfg1.idle 3 (grid1.coords t) = true := by decide +kernel
/-- and its block is not written back there. -/
theorem noFlush1_3 : ∀ t : Fin cfg1.N, ¬lastStep (grid1.coords t) → (cfg1.win 3).flush t = false := by decide +kernel
/-- At the last step the output window is live. -/
theorem live1_3 : ∀ t : Fin cfg1.N, lastStep (grid1.coords t) → cfg1.idle 3 (grid1.coords t) = false := by decide +kernel

/-! ## The memrefs the body is called with -/

/-- One staging buffer of the output window, through which its contents are stated. -/
abbrev outView : View sig .tc .vmem S1024x2048 .f32 := (Memref.whole cc1_stg3_0 : Memref sig .tc .vmem S1024x2048 .f32).view
/-- Each window's current staging memref at point `t`, as the pipeline passes it, and its wholeness. -/
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: the kernel's scratch operand, a whole scoped buffer passed beside the windows. -/
abbrev accM : Memref sig .tc .vmem S1024x2048 .f32 := Memref.whole cc1_scratch0
/-- The accumulator as a view: what it holds is stated through it. -/
abbrev accView : View sig .tc .vmem S1024x2048 .f32 := accM.view

/-- The region's invariant with the accumulator as a memref owned at some contents: the first kernel's ten staging
    buffers at anything, the accumulator at anything, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) accM fullShare d)) ∗ (∃ r, prngReg c r)) := by
  unfold Pipeline.ΦA; rw [scopedRest1_eq]; simp only [accM, owns_whole]; try rfl

end Cert.KernelIdeal.Hand

end
-- ==== Proof.KI.Region1RunFirst.lean ====
import proofs.«142192_j60155311948051_2_alg».proof.Proof.KI.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first step of a contraction (k = 0): the whole body's run

The accumulator is zeroed, then the step's product is added to it; nothing is stored into the output window. -/

set_option maxHeartbeats 1000000 in
/-- What the body's stores leave in the accumulator at the first step, as pieces (last first), with the proof that on
    whole memrefs — the three inputs at their contents, the output window's buffer at contents handed back untouched,
    the accumulator at anything — the body runs to the continuation holding the inputs and the output buffer as they
    were and the accumulator with its pieces written. The pieces are the witness the run finds. -/
noncomputable def runFirst (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : firstStep i) (hc1 : ¬lastStep i)
    (x0 : Vec F S1024x256 .f32) (x1 : Vec F S2048x256 .bf16) (x2 : Vec F S2048 .f32) :
    { LS : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Hand

end
-- ==== Proof.KI.Region1RunMiddle.lean ====
import proofs.«142192_j60155311948051_2_alg».proof.Proof.KI.Region1RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A middle step of a contraction (0 < k < 15): the whole body's run

The step's product is added to the accumulator as the step before left it; nothing is stored into the output window. -/

set_option maxHeartbeats 1000000 in
/-- What the body's stores leave in the accumulator at a middle step, as pieces (last first), with the proof that on
    whole memrefs — the three inputs at their contents, the output window's buffer at contents handed back untouched,
    the accumulator at what the step before left (`acc`) — the body runs to the continuation holding the inputs and the
    output buffer as they were and the accumulator with its pieces written. The pieces are the witness the run finds. -/
noncomputable def runMiddle (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬firstStep i) (hc1 : ¬lastStep i)
    (x0 : Vec F S1024x256 .f32) (x1 : Vec F S2048x256 .bf16) (x2 : Vec F S2048 .f32) (acc : Vec F S1024x2048 .f32) :
    { LS : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare acc
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Hand

end
-- ==== Proof.KI.Region1RunLast.lean ====
import proofs.«142192_j60155311948051_2_alg».proof.Proof.KI.Region1RunMiddle

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The last step of a contraction (k = 15): the whole body's run

The step's product is added to the accumulator as the step before left it, and the finished sum, with the bias added
along the rows, is stored into the output window's block. -/

set_option maxHeartbeats 1000000 in
/-- What the body's stores leave in the output window's buffer and in the accumulator at the last step, as pieces (last
    first), with the proof that on whole memrefs — the three inputs at their contents, the output window's buffer at
    anything, the accumulator at what the step before left (`acc`) — the body runs to the continuation holding the inputs
    as they were and the output buffer and the accumulator with their pieces written. The pieces are the witness the run
    finds. -/
noncomputable def runLast (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬firstStep i) (hc1 : lastStep i)
    (x0 : Vec F S1024x256 .f32) (x1 : Vec F S2048x256 .bf16) (x2 : Vec F S2048 .f32) (acc : Vec F S1024x2048 .f32) :
    Σ' (L3 : List (View.Piece (Elt F) S1024x2048 .f32)), { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare acc
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Hand

end
-- ==== Proof.KI.Region1.lean ====
import proofs.«142192_j60155311948051_2_alg».proof.Proof.KI.Region1RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's half of the frame: what the accumulator and the output block hold point by point, the proof
data over it, and the body obligation -/

/-! ## What each case leaves -/

/-- The first step's pieces cover the accumulator (two whole-buffer stores: the zeros, then the sum). -/
theorem accCoverFirst (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : firstStep i) (hc1 : ¬lastStep i)
    (x0 : Vec F S1024x256 .f32) (x1 : Vec F S2048x256 .bf16) (x2 : Vec F S2048 .f32) (y : S1024x2048.Idx) :
    ∃ pc ∈ (runFirst c i arg3 harg3 arg4 harg4 arg5 harg5 arg6 harg6 arg7 harg7 hc0 hc1 x0 x1 x2).1, y ∈ pc.1.set :=
  View.cover_of_tiledL (runFirst c i arg3 harg3 arg4 harg4 arg5 harg5 arg6 harg6 arg7 harg7 hc0 hc1 x0 x1 x2).1 S1024x2048.size (by sl_kernel_rfl) y

/-- What the first step leaves in the accumulator: its pieces read back. -/
def accFirst (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : firstStep i) (hc1 : ¬lastStep i)
    (x0 : Vec F S1024x256 .f32) (x1 : Vec F S2048x256 .bf16) (x2 : Vec F S2048 .f32) : Vec F S1024x2048 .f32 :=
  accView.read (Elt F) (accView.writes (Elt F) accView.junk (runFirst c i arg3 harg3 arg4 harg4 arg5 harg5 arg6 harg6 arg7 harg7 hc0 hc1 x0 x1 x2).1)

/-- A middle step's pieces cover the accumulator (one whole-buffer store). -/
theorem accCoverMiddle (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬firstStep i) (hc1 : ¬lastStep i)
    (x0 : Vec F S1024x256 .f32) (x1 : Vec F S2048x256 .bf16) (x2 : Vec F S2048 .f32) (acc : Vec F S1024x2048 .f32) (y : S1024x2048.Idx) :
    ∃ pc ∈ (runMiddle c i arg3 harg3 arg4 harg4 arg5 harg5 arg6 harg6 arg7 harg7 hc0 hc1 x0 x1 x2 acc).1, y ∈ pc.1.set :=
  View.cover_of_tiledL (runMiddle c i arg3 harg3 arg4 harg4 arg5 harg5 arg6 harg6 arg7 harg7 hc0 hc1 x0 x1 x2 acc).1 S1024x2048.size (by sl_kernel_rfl) y

/-- What a middle step leaves in the accumulator. -/
def accMiddle (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬firstStep i) (hc1 : ¬lastStep i)
    (x0 : Vec F S1024x256 .f32) (x1 : Vec F S2048x256 .bf16) (x2 : Vec F S2048 .f32) (acc : Vec F S1024x2048 .f32) : Vec F S1024x2048 .f32 :=
  accView.read (Elt F) (accView.writes (Elt F) accView.junk (runMiddle c i arg3 harg3 arg4 harg4 arg5 harg5 arg6 harg6 arg7 harg7 hc0 hc1 x0 x1 x2 acc).1)

/-- The last step's pieces for the output block cover it (one whole-block store). -/
theorem outCoverLast (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬firstStep i) (hc1 : lastStep i)
    (x0 : Vec F S1024x256 .f32) (x1 : Vec F S2048x256 .bf16) (x2 : Vec F S2048 .f32) (acc : Vec F S1024x2048 .f32) (y : S1024x2048.Idx) :
    ∃ pc ∈ (runLast c i arg3 harg3 arg4 harg4 arg5 harg5 arg6 harg6 arg7 harg7 hc0 hc1 x0 x1 x2 acc).1, y ∈ pc.1.set :=
  View.cover_of_tiledL (runLast c i arg3 harg3 arg4 harg4 arg5 harg5 arg6 harg6 arg7 harg7 hc0 hc1 x0 x1 x2 acc).1 S1024x2048.size (by sl_kernel_rfl) y

/-- What the last step leaves in the output window's buffer. -/
def outLast (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬firstStep i) (hc1 : lastStep i)
    (x0 : Vec F S1024x256 .f32) (x1 : Vec F S2048x256 .bf16) (x2 : Vec F S2048 .f32) (acc : Vec F S1024x2048 .f32) : Vec F S1024x2048 .f32 :=
  outView.read (Elt F) (outView.writes (Elt F) outView.junk (runLast c i arg3 harg3 arg4 harg4 arg5 harg5 arg6 harg6 arg7 harg7 hc0 hc1 x0 x1 x2 acc).1)

/-- The last step's pieces for the accumulator cover it (one whole-buffer store). -/
theorem accCoverLast (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬firstStep i) (hc1 : lastStep i)
    (x0 : Vec F S1024x256 .f32) (x1 : Vec F S2048x256 .bf16) (x2 : Vec F S2048 .f32) (acc : Vec F S1024x2048 .f32) (y : S1024x2048.Idx) :
    ∃ pc ∈ (runLast c i arg3 harg3 arg4 harg4 arg5 harg5 arg6 harg6 arg7 harg7 hc0 hc1 x0 x1 x2 acc).2.1, y ∈ pc.1.set :=
  View.cover_of_tiledL (runLast c i arg3 harg3 arg4 harg4 arg5 harg5 arg6 harg6 arg7 harg7 hc0 hc1 x0 x1 x2 acc).2.1 S1024x2048.size (by sl_kernel_rfl) y

/-- What the last step leaves in the accumulator. -/
def accLast (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬firstStep i) (hc1 : lastStep i)
    (x0 : Vec F S1024x256 .f32) (x1 : Vec F S2048x256 .bf16) (x2 : Vec F S2048 .f32) (acc : Vec F S1024x2048 .f32) : Vec F S1024x2048 .f32 :=
  accView.read (Elt F) (accView.writes (Elt F) accView.junk (runLast c i arg3 harg3 arg4 harg4 arg5 harg5 arg6 harg6 arg7 harg7 hc0 hc1 x0 x1 x2 acc).2.1)

/-- The output component away from the last step: nothing is stored, the window is idle and not written back, and
    nothing consults this value. -/
def outIdle : Vec F S1024x2048 .f32 := outView.read (Elt F) outView.junk

section Region1

-- the TensorCore's buffer contents when the region is entered
variable (V : (c : Dev nD) → (b : Ref sig .tc) → Buf (Elt F) ((c : Thread nD τ).loc b))

/-! ## What the output block and the accumulator hold after each point -/

/-- THE ACCUMULATION. What the output window's staging buffer and the accumulator hold after the body at position `n`:
    the case the closed forms select at `n`, run at the point's memrefs and input blocks, over the accumulator as the
    point before left it. -/
def outsAt1 (c : Dev nD) : (n : ℕ) → n < cfg1.N → Vec F S1024x2048 .f32 × Vec F S1024x2048 .f32
  | 0, hn => (outIdle, accFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) accM (Memref.isWhole_whole _) ((firstStep_iff ⟨0, hn⟩).mpr (Nat.zero_mod _)) (fun h => (fun h => by (try dsimp only at h); omega) ((lastStep_iff ⟨0, hn⟩).mp h)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then
        False.elim (by omega)
      else
        (outIdle, accFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM (Memref.isWhole_whole _) ((firstStep_iff ⟨n + 1, hn⟩).mpr h0) (fun h => h1 ((lastStep_iff ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (outLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM (Memref.isWhole_whole _) (fun h => h0 ((firstStep_iff ⟨n + 1, hn⟩).mp h)) ((lastStep_iff ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, accLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM (Memref.isWhole_whole _) (fun h => h0 ((firstStep_iff ⟨n + 1, hn⟩).mp h)) ((lastStep_iff ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (outIdle, accMiddle c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) accM (Memref.isWhole_whole _) (fun h => h0 ((firstStep_iff ⟨n + 1, hn⟩).mp h)) (fun h => h1 ((lastStep_iff ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a first step: that case's contents. -/
theorem outsAt1_first (c : Dev nD) (t : Fin cfg1.N) (h0 : t.val % 16 = 0) (h1 : ¬t.val % 16 = 15) :
    outsAt1 V c t.val t.isLt = (outIdle, accFirst c (grid1.coords t) (ms1_0 t) (hs1_0 t) (ms1_1 t) (hs1_1 t) (ms1_2 t) (hs1_2 t) (ms1_3 t) (hs1_3 t) accM (Memref.isWhole_whole _) ((firstStep_iff t).mpr h0) (fun h => h1 ((lastStep_iff t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle step: that case's contents, over what the point before left. -/
theorem outsAt1_middle (c : Dev nD) (t : Fin cfg1.N) (h0 : ¬t.val % 16 = 0) (h1 : ¬t.val % 16 = 15) :
    outsAt1 V c t.val t.isLt = (outIdle, accMiddle c (grid1.coords t) (ms1_0 t) (hs1_0 t) (ms1_1 t) (hs1_1 t) (ms1_2 t) (hs1_2 t) (ms1_3 t) (hs1_3 t) accM (Memref.isWhole_whole _) (fun h => h0 ((firstStep_iff t).mp h)) (fun h => h1 ((lastStep_iff t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last step: that case's contents, over what the point before left. -/
theorem outsAt1_last (c : Dev nD) (t : Fin cfg1.N) (h0 : ¬t.val % 16 = 0) (h1 : t.val % 16 = 15) :
    outsAt1 V c t.val t.isLt = (outLast c (grid1.coords t) (ms1_0 t) (hs1_0 t) (ms1_1 t) (hs1_1 t) (ms1_2 t) (hs1_2 t) (ms1_3 t) (hs1_3 t) accM (Memref.isWhole_whole _) (fun h => h0 ((firstStep_iff t).mp h)) ((lastStep_iff t).mpr h1) (iblk1 V c 0 t) (iblk1 V c 1 t) (iblk1 V c 2 t) (outsAt1 V c (t.val - 1) (Nat.lt_of_le_of_lt (Nat.sub_le _ _) t.isLt)).2, accLast c (grid1.coords t) (ms1_0 t) (hs1_0 t) (ms1_1 t) (hs1_1 t) (ms1_2 t) (hs1_2 t) (ms1_3 t) (hs1_3 t) accM (Memref.isWhole_whole _) (fun h => h0 ((firstStep_iff t).mp h)) ((lastStep_iff t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant with the accumulator carried -/

/-- A scoped buffer this kernel never touches (a staging buffer of the first kernel), whole at some contents. -/
abbrev heldAny (c : Dev nD) (b : Ref sig .tc) : sProp 𝕄 :=
  iprop(∃ f : Buf (Elt F) ((c : Thread nD τ).loc b), ((c : Thread nD τ).loc b) ↦{fullShare} f)

/-- The region invariant before position `n`: before the first point the class's (every scoped buffer that is no
    staging buffer of this kernel at anything); afterwards the same with the accumulator at what the point before left
    in it, and the generator register at some state. -/
def PhiS (c : Dev nD) : (n : ℕ) → n ≤ cfg1.N → sProp 𝕄
  | 0, _ => Pipeline.ΦA spec1 c
  | n + 1, hn => iprop(iprop(heldAny c cc0_stg0_0 ∗ heldAny c cc0_stg0_1 ∗ heldAny c cc0_stg1_0 ∗ heldAny c cc0_stg1_1 ∗ heldAny c cc0_stg2_0 ∗ heldAny c cc0_stg3_0 ∗ heldAny c cc0_stg4_0 ∗ heldAny c cc0_stg5_0 ∗ heldAny c cc0_stg6_0 ∗ heldAny c cc0_stg6_1 ∗ owns (c : Thread nD τ) accM fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the accumulator at that point's contents. -/
theorem PhiS_succ (c : Dev nD) (n : ℕ) (hn : n < cfg1.N) :
    PhiS V c (n + 1) hn = iprop(iprop(heldAny c cc0_stg0_0 ∗ heldAny c cc0_stg0_1 ∗ heldAny c cc0_stg1_0 ∗ heldAny c cc0_stg1_1 ∗ heldAny c cc0_stg2_0 ∗ heldAny c cc0_stg3_0 ∗ heldAny c cc0_stg4_0 ∗ heldAny c cc0_stg5_0 ∗ heldAny c cc0_stg6_0 ∗ heldAny c cc0_stg6_1 ∗ owns (c : Thread nD τ) accM fullShare ((outsAt1 V c n hn).2)) ∗ (∃ r, prngReg c r)) := rfl

/-- Before a point that is not the first: the accumulator at what the point before left. -/
theorem PhiS_pos (c : Dev nD) (n : ℕ) (h : n ≤ cfg1.N) (hz : n ≠ 0) :
    PhiS V c n h = iprop(iprop(heldAny c cc0_stg0_0 ∗ heldAny c cc0_stg0_1 ∗ heldAny c cc0_stg1_0 ∗ heldAny c cc0_stg1_1 ∗ heldAny c cc0_stg2_0 ∗ heldAny c cc0_stg3_0 ∗ heldAny c cc0_stg4_0 ∗ heldAny c cc0_stg5_0 ∗ heldAny c cc0_stg6_0 ∗ heldAny c cc0_stg6_1 ∗ owns (c : Thread nD τ) accM fullShare ((outsAt1 V c (n - 1) (by omega)).2)) ∗ (∃ r, prngReg c r)) := by
  cases n with
  | zero => exact absurd rfl hz
  | succ n => rfl

/-! ## The proof data -/

/-- The proof data of the second pipeline on core `c`: the arrays as the region finds them; after the body at point `t`
    each input's buffer at its block and the output's at `outsAt1`'s first component; the invariant `PhiS`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS_castSucc (c : Dev nD) (t : Fin cfg1.N) :
    (dat1 V c).Φ t.castSucc = PhiS V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Region1

section Region1Body

variable (V : (c : Dev nD) → (b : Ref sig .tc) → Buf (Elt F) ((c : Thread nD τ).loc b))

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which step of the contraction the
    point is; so that case's run applies. The invariant hands the body the accumulator at what the point before left (at
    anything at the very first point) and takes it back at this point's contents; away from the last step the output
    window's buffer is handed back as it was found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  by_cases h0 : t.val % 16 = 0
  · by_cases h1 : t.val % 16 = 15
    · exfalso; omega
    · rw [Dat.leavesExact_idle (dat1 V c) 3 t (idle1_3 t (fun h => h1 ((lastStep_iff t).mp h))) (noFlush1_3 t (fun h => h1 ((lastStep_iff t).mp h)))]
      rw [outsAt1_first V c t h0 h1]
      unfold accFirst; (try dsimp only)
      by_cases hz : t.val = 0
      · rw [PhiS_castSucc V c t, PhiS_zero V c _ _ hz, PhiA1_eq]
        iintro ⟨⟨⟨HR0, HR1, HR2, HR3, HR4, HR5, HR6, HR7, HR8, HR9, HS⟩, Hg⟩, Ho, ⟨%d0, H0⟩, ⟨%d1, H1⟩, ⟨%d2, H2⟩, ⟨%d3, H3⟩⟩
        iapply ((runFirst c (grid1.coords t) _ _ _ _ _ _ _ _ _ _ ((firstStep_iff t).mpr h0) (fun h => h1 ((lastStep_iff t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HR0 HR1 HR2 HR3 HR4 HR5 HR6 HR7 HR8 HR9 HS Hg]
        · isplitl [HR0 HR1 HR2 HR3 HR4 HR5 HR6 HR7 HR8 HR9 HS]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            unfold owns; iexists _; isplitr
            swap; · iexact HS
            ipureintro; exact View.read_writes_of_cover _ _ _ _ _ (accCoverFirst c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HR0, HR1, HR2, HR3, HR4, HR5, HR6, HR7, HR8, HR9, HS⟩, Hg⟩, Ho, ⟨%d0, H0⟩, ⟨%d1, H1⟩, ⟨%d2, H2⟩, ⟨%d3, H3⟩⟩
        iapply ((runFirst c (grid1.coords t) _ _ _ _ _ _ _ _ _ _ ((firstStep_iff t).mpr h0) (fun h => h1 ((lastStep_iff t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HR0 HR1 HR2 HR3 HR4 HR5 HR6 HR7 HR8 HR9 HS Hg]
        · isplitl [HR0 HR1 HR2 HR3 HR4 HR5 HR6 HR7 HR8 HR9 HS]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            unfold owns; iexists _; isplitr
            swap; · iexact HS
            ipureintro; exact View.read_writes_of_cover _ _ _ _ _ (accCoverFirst c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 16 = 15
    · rw [show (dat1 V c).leavesExact 3 t = owns (c : Thread nD τ) (ms1_3 t) fullShare ((dat1 V c).after 3 t) from by
        unfold Dat.leavesExact; rw [live1_3 t ((lastStep_iff t).mpr h1)], after1_3]
      rw [outsAt1_last V c t h0 h1]
      unfold outLast accLast; (try dsimp only)
      rw [PhiS_castSucc V c t, PhiS_pos V c _ _ hz]
      iintro ⟨⟨⟨HR0, HR1, HR2, HR3, HR4, HR5, HR6, HR7, HR8, HR9, HS⟩, Hg⟩, Ho, ⟨%d0, H0⟩, ⟨%d1, H1⟩, ⟨%d2, H2⟩, ⟨%d3, H3⟩⟩
      iapply ((runLast c (grid1.coords t) _ _ _ _ _ _ _ _ _ _ (fun h => h0 ((firstStep_iff t).mp h)) ((lastStep_iff t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HR0 HR1 HR2 HR3 HR4 HR5 HR6 HR7 HR8 HR9 HS Hg]
      · isplitl [HR0 HR1 HR2 HR3 HR4 HR5 HR6 HR7 HR8 HR9 HS]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          unfold owns; iexists _; isplitr
          swap; · iexact HS
          ipureintro; exact View.read_writes_of_cover _ _ _ _ _ (accCoverLast c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast c _ _ _ _ _ _ _ _ _ _ _ _ _ _ _ _ _)
    · rw [Dat.leavesExact_idle (dat1 V c) 3 t (idle1_3 t (fun h => h1 ((lastStep_iff t).mp h))) (noFlush1_3 t (fun h => h1 ((lastStep_iff t).mp h)))]
      rw [outsAt1_middle V c t h0 h1]
      unfold accMiddle; (try dsimp only)
      rw [PhiS_castSucc V c t, PhiS_pos V c _ _ hz]
      iintro ⟨⟨⟨HR0, HR1, HR2, HR3, HR4, HR5, HR6, HR7, HR8, HR9, HS⟩, Hg⟩, Ho, ⟨%d0, H0⟩, ⟨%d1, H1⟩, ⟨%d2, H2⟩, ⟨%d3, H3⟩⟩
      iapply ((runMiddle c (grid1.coords t) _ _ _ _ _ _ _ _ _ _ (fun h => h0 ((firstStep_iff t).mp h)) (fun h => h1 ((lastStep_iff t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HR0 HR1 HR2 HR3 HR4 HR5 HR6 HR7 HR8 HR9 HS Hg]
      · isplitl [HR0 HR1 HR2 HR3 HR4 HR5 HR6 HR7 HR8 HR9 HS]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          unfold owns; iexists _; isplitr
          swap; · iexact HS
          ipureintro; exact View.read_writes_of_cover _ _ _ _ _ (accCoverMiddle c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HR0, HR1, HR2, HR3, HR4, HR5, HR6, HR7, HR8, HR9, HS⟩, Hg⟩
  isplitl [HR0 HR1 HR2 HR3 HR4 HR5 HR6 HR7 HR8 HR9 HS]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    iexists _; iexact HS
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Region1Body

end Cert.KernelIdeal.Hand

end
-- ==== Proof.KI.Run.lean ====
/-
  The run of the whole program: host operations, the masking region, the contraction region, the final reshape.

  Between two items of the program every unscoped buffer of a core is held at named contents: the launch memory pushed
  through each stretch of host operations, the masked weight as the first region's write-backs leave it, the product as
  the second region's leave it. Each region is entered by splitting its windows' arrays out of those buffers and left by
  putting them back at their final contents. At the end the result buffer is read off the last contents, and every
  argument is found as launched.
-/
import proofs.«142192_j60155311948051_2_alg».proof.Proof.Gen.KernelIdeal.Regions
import proofs.«142192_j60155311948051_2_alg».proof.Proof.KI.Region0
import proofs.«142192_j60155311948051_2_alg».proof.Proof.KI.Region1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents around the two regions -/

/-- What the masking region finds: the launch memory after the seven stretches of host operations. -/
abbrev Vin0 : (c : Dev nD) → (b : Ref sig .tc) → Buf (Elt F) ((c : Thread nD τ).loc b) := fun c b => V7 m c b

/-- The masked weight as the first region's write-backs leave it. -/
def arr0 (c : Dev nD) : Buf (Elt F) ((c : Thread nD τ).loc main_v22) := (dat0 (Vin0 m) c).arrAt 6 cfg0.N

/-- What the contraction region finds: the same, with the masked weight in its buffer. -/
abbrev Vin1 : (c : Dev nD) → (b : Ref sig .tc) → Buf (Elt F) ((c : Thread nD τ).loc b) :=
  fun c b => Function.update (V7 m c) main_v22 (arr0 m c) b

/-- The product as the second region's write-backs leave it. -/
def arr1 (c : Dev nD) : Buf (Elt F) ((c : Thread nD τ).loc main_v23) := (dat1 (Vin1 m) c).arrAt 3 cfg1.N

/-- What the regions leave in the buffers they may change. -/
def outs : Outs (F := F) := fun _ r c =>
  if h : r = main_v22 then h ▸ arr0 m c else if h' : r = main_v23 then h' ▸ arr1 m c else m ((c : Thread nD τ).loc r)

theorem outs_v22 (c : Dev nD) : outs m 8 main_v22 c = arr0 m c := by
  unfold outs; rw [dif_pos rfl]

theorem outs_v23 (c : Dev nD) : outs m 9 main_v23 c = arr1 m c := by
  unfold outs; rw [dif_neg (by decide), dif_pos rfl]

/-- The contents after the first region, at the TensorCore's references. -/
abbrev Vout0 : (c : Dev nD) → (b : Ref sig .tc) → Buf (Elt F) ((c : Thread nD τ).loc b) := fun c b => V8 m (outs m) c b
/-- The contents after the second region, at the TensorCore's references. -/
abbrev Vout1 : (c : Dev nD) → (b : Ref sig .tc) → Buf (Elt F) ((c : Thread nD τ).loc b) := fun c b => V9 m (outs m) c b

theorem Vout0_eq (c : Dev nD) (b : Ref sig .tc) : Vout0 m c b = Vin1 m c b := by
  show Function.update (V7 m c) main_v22 (outs m 8 main_v22 c) b = Function.update (V7 m c) main_v22 (arr0 m c) b
  rw [outs_v22]

/-! ## What each region leaves, against the contents after it -/

/-- After the first region each of its arrays holds what the write-backs leave: an input its entry contents, the output
    the masked weight. -/
theorem hF0 (c : Dev nD) (w : Fin cfg0.W) : (dat0 (Vin0 m) c).arrAt w cfg0.N = Vout0 m c (Pipeline.arrRef spec0 w) := by
  match w with
  | ⟨0, _⟩ => exact (((dat0 (Vin0 m) c).arrAt_in 0 rfl _).trans (A_eq0 (Vin0 m) c 0)).trans (V8_of m (outs m) c _ (by decide)).symm
  | ⟨1, _⟩ => exact (((dat0 (Vin0 m) c).arrAt_in 1 rfl _).trans (A_eq0 (Vin0 m) c 1)).trans (V8_of m (outs m) c _ (by decide)).symm
  | ⟨2, _⟩ => exact (((dat0 (Vin0 m) c).arrAt_in 2 rfl _).trans (A_eq0 (Vin0 m) c 2)).trans (V8_of m (outs m) c _ (by decide)).symm
  | ⟨3, _⟩ => exact (((dat0 (Vin0 m) c).arrAt_in 3 rfl _).trans (A_eq0 (Vin0 m) c 3)).trans (V8_of m (outs m) c _ (by decide)).symm
  | ⟨4, _⟩ => exact (((dat0 (Vin0 m) c).arrAt_in 4 rfl _).trans (A_eq0 (Vin0 m) c 4)).trans (V8_of m (outs m) c _ (by decide)).symm
  | ⟨5, _⟩ => exact (((dat0 (Vin0 m) c).arrAt_in 5 rfl _).trans (A_eq0 (Vin0 m) c 5)).trans (V8_of m (outs m) c _ (by decide)).symm
  | ⟨6, _⟩ =>
    show arr0 m c = Function.update (V7 m c) main_v22 (outs m 8 main_v22 c) main_v22
    rw [Function.update_self, outs_v22]

/-- Every buffer that is no array of the first region is untouched by it. -/
theorem hrest0 (c : Dev nD) : ∀ b, b ∉ Finset.univ.image (Pipeline.arrRef spec0) → Vout0 m c b = Vin0 m c b :=
  fun b hb => V8_of m (outs m) c b (fun h => hb (Finset.mem_image.mpr ⟨6, Finset.mem_univ _, (List.mem_singleton.mp h).symm⟩))

/-- After the second region each of its arrays holds what the write-backs leave: an input its entry contents, the output
    the product. -/
theorem hF1 (c : Dev nD) (w : Fin cfg1.W) : (dat1 (Vin1 m) c).arrAt w cfg1.N = Vout1 m c (Pipeline.arrRef spec1 w) := by
  match w with
  | ⟨0, _⟩ => exact (((dat1 (Vin1 m) c).arrAt_in 0 rfl _).trans (A_eq1 (Vin1 m) c 0)).trans ((V9_of m (outs m) c _ (by decide)).trans (Vout0_eq m c _)).symm
  | ⟨1, _⟩ => exact (((dat1 (Vin1 m) c).arrAt_in 1 rfl _).trans (A_eq1 (Vin1 m) c 1)).trans ((V9_of m (outs m) c _ (by decide)).trans (Vout0_eq m c _)).symm
  | ⟨2, _⟩ => exact (((dat1 (Vin1 m) c).arrAt_in 2 rfl _).trans (A_eq1 (Vin1 m) c 2)).trans ((V9_of m (outs m) c _ (by decide)).trans (Vout0_eq m c _)).symm
  | ⟨3, _⟩ =>
    show arr1 m c = Function.update (V8 m (outs m) c) main_v23 (outs m 9 main_v23 c) main_v23
    rw [Function.update_self, outs_v23]

/-- Every buffer that is no array of the second region is untouched by it. -/
theorem hrest1 (c : Dev nD) : ∀ b, b ∉ Finset.univ.image (Pipeline.arrRef spec1) → Vout1 m c b = Vin1 m c b :=
  fun b hb => (V9_of m (outs m) c b (fun h => hb (Finset.mem_image.mpr ⟨3, Finset.mem_univ _, (List.mem_singleton.mp h).symm⟩))).trans (Vout0_eq m c b)

/-! ## The proof data family and the thread state -/

/-- Each region's proof data, at its entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

abbrev 𝒱₀ : Variants := Variants.none
/-- No core owes another anything. -/
abbrev L : GSem nD τ sig → Finset Unit := fun _ => ∅
abbrev lv : GSem nD τ sig → Unit → ℕ := fun _ _ => 0

/-- What rides beside the buffers: the generator register at some state, and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c

/-! ## The regions as segments -/

set_option backward.isDefEq.respectTransparency.types false in
/-- THE MASKING REGION over the thread state: entered from every unscoped buffer at the contents after the host
    operations, left with the masked weight in its buffer. Its windows' arrays are split out of the unscoped buffers and
    put back at their final contents; the generator register goes into the class's invariant and comes back; nothing is
    owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V7 m c) ∗ R (F := F) c)
  post c := iprop(StableHlo.held (c : Thread nD τ) (Pipeline.ucRefs τ sig) (V8 m (outs m) c) ∗ R (F := F) c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    unfold R
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    unfold R
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE CONTRACTION REGION over the thread state: entered from the contents the masking region left, left with the
    product in its buffer. The invariant carries the accumulator between grid points; at the region's ends it is the
    class's (the scoped buffers at anything, the generator register at some state). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (V8 m (outs m) c) ∗ R (F := F) c)
  post c := iprop(StableHlo.held (c : Thread nD τ) (Pipeline.ucRefs τ sig) (V9 m (outs m) c) ∗ R (F := F) c)
  X c := iprop(∃ r, prngReg c r)
  Y c := iprop(∃ r, prngReg c r)
  Z c := Pipeline.unscopedRest (Ix := Unit) (Name := ℕ) (U := UR sig nD τ) (Lvl := ℕ) spec1 c (Vout0 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vout0 m c) fun w => (A_eq1 (Vin1 m) c w).trans (Vout0_eq m c _).symm
    rw [Pipeline.unscopedBufs_held] at hsplit
    unfold R
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (Vin1 m) c)
    unfold Pipeline.ΦA
    iintro ⟨Hp, -, Hr⟩
    isplitl [Hr]; · iexact Hr
    iexact Hp
  hout c := by
    rw [Pipeline.ownSems0_none]
    refine (hout1 (Vin1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vout0 m c) (Vout1 m c) ((pdats m 1 c).arrAt · cfg1.N) (hF1 m c) (fun b hb => (hrest1 m c b hb).trans (Vout0_eq m c b).symm)
    rw [Pipeline.unscopedBufs_held] at hjoin
    unfold R
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- THE RUN. From any memory with zero counters every weakly fair execution of the program terminates, nothing faulting,
    and in every final state the result buffer holds the last contents' value and every argument is as launched. -/
theorem run : θ_run defs (onTc (τ := τ) (main (F := F))) ⟨m, fun _ => 0, ρ⟩ (fun r => ∀ c : Dev nD,
      r.2.mem ((c.tc : Thread nD τ).loc main_v24) = V10 m (outs m) c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm (pdats m) () cellOf_inj emb₁ defs₀ 𝒱₀ L lv m ρ main
    (segs m (outs m) 𝒱₀ L lv (E (F := F)) () (pdats m) (reg0 m) (reg1 m))
    (fun c Q => by
      rewrite [main_chain c, Seg.run_eq_chain,
        show (segs m (outs m) 𝒱₀ L lv (E (F := F)) () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ R (F := F) c))
    (Tₙ := fun c => StableHlo.held (c : Thread nD τ) (Pipeline.ucRefs τ sig) (V10 m (outs m) c))
    (hch := fun c => ⟨.rfl, .rfl, .rfl, .rfl, .rfl, .rfl, .rfl, .rfl, .rfl, .rfl,
      sep_mono .rfl (show R (F := F) c ⊢ iprop(∃ W, owes (c : Thread nD τ) (0 : CellTallies nD τ sig Unit) W) from by
        iintro ⟨-, H⟩; iexact H)⟩)
    (hinit := ?_)
    (QY := fun c s => s.mem ((c.tc : Thread nD τ).loc main_v24) = V10 m (outs m) c main_v24
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h => h)
  · -- the launch element is the pipeline library's at every staging cell
    iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch: every unscoped buffer held at the launch memory, the generator register, nothing owed
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result and each argument read off the last contents
    unfold StableHlo.held
    iintro ⟨Hh, HSI⟩
    ihave Hr := (pointsTo_read_all (Pipeline.ucRefs τ sig) (fun b => ((c : Thread nD τ).1, b)) (V10 m (outs m) c) s') $$ [Hh HSI]
    · isplitl [Hh] <;> iassumption
    icases Hr with ⟨%h, HSI⟩
    imodintro
    isplitr
    · ipureintro
      exact ⟨h (Proc.devRef .tc main_v24) (Finset.mem_filter.mpr ⟨StableHlo.devRef_mem_tcRefs main_v24, by decide⟩),
        (h (Proc.devRef .tc main_arg0) (Finset.mem_filter.mpr ⟨StableHlo.devRef_mem_tcRefs main_arg0, by decide⟩)).trans (V10_main_arg0 m (outs m) c),
        (h (Proc.devRef .tc main_arg1) (Finset.mem_filter.mpr ⟨StableHlo.devRef_mem_tcRefs main_arg1, by decide⟩)).trans (V10_main_arg1 m (outs m) c),
        (h (Proc.devRef .tc main_arg2) (Finset.mem_filter.mpr ⟨StableHlo.devRef_mem_tcRefs main_arg2, by decide⟩)).trans (V10_main_arg2 m (outs m) c),
        (h (Proc.devRef .tc main_arg3) (Finset.mem_filter.mpr ⟨StableHlo.devRef_mem_tcRefs main_arg3, by decide⟩)).trans (V10_main_arg3 m (outs m) c)⟩
    · iexact HSI

end Cert.KernelIdeal.Hand

end
-- ==== Proof.KI.Tail.lean ====
/-
  The result buffer after the run: the product array, reshaped from 4096 × 4096 to 2 × 2048 × 4096 by the last host
  operation. Entry (b, s, n) of the result is entry (2048·b + s, n) of the product.
-/
import proofs.«142192_j60155311948051_2_alg».proof.Proof.KI.Run
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable {F : FTy → Type} [FloatOps F]
variable (m : (ℓ : Loc nD τ sig) → Buf (Elt F) ℓ)

/-- The second region's output buffer holds the product when the last host operation runs. -/
theorem V9_product (c : Dev nD) : V9 m (outs m) c main_v23 = arr1 m c := by
  show Function.update (V8 m (outs m) c) main_v23 (outs m 9 main_v23 c) main_v23 = arr1 m c
  rw [Function.update_self, outs_v23]

/-- The result buffer is the reshape of the product. -/
theorem result_eq (c : Dev nD) :
    V10 m (outs m) c main_v24 = shapeCast S2x2048x4096 (arr1 m c) shapeCasts_S4096x4096_S2x2048x4096 := by
  rw [← V9_product]
  show StableHlo.after hostOps2 (V9 m (outs m) c) (Proc.devRef .tc main_v24) = _
  after_results <;> rfl

/-- Entry `(b, s, n)` of the result is entry `(2048·b + s, n)` of the product. -/
theorem result_apply (c : Dev nD) (b : Fin 2) (s : Fin 2048) (n : Fin 4096) :
    V10 m (outs m) c main_v24 (ix3 b s n)
      = arr1 m c (ix2 ⟨2048 * b.val + s.val, by have := b.isLt; have := s.isLt; omega⟩ n) := by
  rw [result_eq]
  refine shapeCast_apply (arr1 m c) shapeCasts_S4096x4096_S2x2048x4096 (ix3 b s n) _ ?_
  show (S4096x4096.rowMajor (ix2 (⟨2048 * b.val + s.val, by have := b.isLt; have := s.isLt; omega⟩ : Fin 4096) n)).val
    = (S2x2048x4096.rowMajor (ix3 b s n)).val
  rw [Shape.rowMajor_val_two, Shape.rowMajor_val_three]
  show (2048 * b.val + s.val) * 4096 + n.val = (b.val * 2048 + s.val) * 4096 + n.val
  omega

end Cert.KernelIdeal.Hand

end
-- ==== Proof.KI.Region1Readable.lean ====
import proofs.«142192_j60155311948051_2_alg».proof.Proof.KI.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's accumulation, readable as the body's payloads

What each case's run found, read back, is the body's arithmetic on the blocks: at the first step of a contraction the
accumulator ends at the step's product added to zeros; at a later step at the step's product added to what the step
before left; at the last step the output block is that sum with the bias added along the rows. -/

/-- The whole-buffer rectangle of a matrix starts at the origin. -/
theorem accOff_zero : (![0, 0] : Fin 2 → ℕ) = fun _ => 0 := by funext a; fin_cases a <;> rfl
/-- So does the bias vector's. -/
theorem biasOff_zero : (![0] : Fin 1 → ℕ) = fun _ => 0 := by funext a; fin_cases a; rfl

/-- A middle step leaves the accumulator at the step's product added to what it held. -/
theorem accMiddle_eq (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬firstStep i) (hc1 : ¬lastStep i)
    (x0 : Vec F S1024x256 .f32) (x1 : Vec F S2048x256 .bf16) (x2 : Vec F S2048 .f32) (acc : Vec F S1024x2048 .f32) :
    accMiddle c i arg3 harg3 arg4 harg4 arg5 harg5 arg6 harg6 arg7 harg7 hc0 hc1 x0 x1 x2 acc = k1_pay2 x0 x1 acc := by
  unfold accMiddle
  rw [View.read_writes_eq_canon _ _ _ (accCoverMiddle c i arg3 harg3 arg4 harg4 arg5 harg5 arg6 harg6 arg7 harg7 hc0 hc1 x0 x1 x2 acc)]
  unfold runMiddle; dsimp only
  sl_unfold_words
  refine (View.canon_unit_zero (S := S1024x2048) accOff_zero _ _).trans ?_
  simp only [View.readAt_eq_ld, harg3.read_unread, harg4.read_unread, harg7.read_unread]
  rw [View.ld_unit_zero (S := S1024x256) accOff_zero, View.ld_unit_zero (S := S2048x256) accOff_zero, View.ld_unit_zero (S := S1024x2048) accOff_zero]

/-- The first step leaves the accumulator at the step's product added to zeros: the load between its two stores reads
    the zeros just stored. -/
theorem accFirst_eq (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : firstStep i) (hc1 : ¬lastStep i)
    (x0 : Vec F S1024x256 .f32) (x1 : Vec F S2048x256 .bf16) (x2 : Vec F S2048 .f32) :
    accFirst c i arg3 harg3 arg4 harg4 arg5 harg5 arg6 harg6 arg7 harg7 hc0 hc1 x0 x1 x2 = k1_pay2 x0 x1 (k1_pay1 (F := F)) := by
  unfold accFirst
  rw [View.read_writes_eq_canon _ _ _ (accCoverFirst c i arg3 harg3 arg4 harg4 arg5 harg5 arg6 harg6 arg7 harg7 hc0 hc1 x0 x1 x2)]
  unfold runFirst; dsimp only
  sl_unfold_words
  refine (View.canon_cons_unit_zero (S := S1024x2048) accOff_zero _ _ _).trans ?_
  simp only [View.readAt_eq_ld, harg3.read_unread, harg4.read_unread]
  rw [View.ld_unit_zero (S := S1024x256) accOff_zero, View.ld_unit_zero (S := S2048x256) accOff_zero, View.readCov_unit_zero (S := S1024x2048) _ accOff_zero]

/-- The last step leaves the accumulator at the step's product added to what it held, -/
theorem accLast_eq (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬firstStep i) (hc1 : lastStep i)
    (x0 : Vec F S1024x256 .f32) (x1 : Vec F S2048x256 .bf16) (x2 : Vec F S2048 .f32) (acc : Vec F S1024x2048 .f32) :
    accLast c i arg3 harg3 arg4 harg4 arg5 harg5 arg6 harg6 arg7 harg7 hc0 hc1 x0 x1 x2 acc = k1_pay2 x0 x1 acc := by
  unfold accLast
  rw [View.read_writes_eq_canon _ _ _ (accCoverLast c i arg3 harg3 arg4 harg4 arg5 harg5 arg6 harg6 arg7 harg7 hc0 hc1 x0 x1 x2 acc)]
  unfold runLast; dsimp only
  sl_unfold_words
  refine (View.canon_unit_zero (S := S1024x2048) accOff_zero _ _).trans ?_
  simp only [View.readAt_eq_ld, harg3.read_unread, harg4.read_unread, harg7.read_unread]
  rw [View.ld_unit_zero (S := S1024x256) accOff_zero, View.ld_unit_zero (S := S2048x256) accOff_zero, View.ld_unit_zero (S := S1024x2048) accOff_zero]

/-- and the output block at that finished sum with the bias added along the rows. -/
theorem outLast_eq (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S2048 .f32) (harg5 : arg5.IsWhole) (arg6 : Memref sig .tc .vmem S1024x2048 .f32) (harg6 : arg6.IsWhole) (arg7 : Memref sig .tc .vmem S1024x2048 .f32) (harg7 : arg7.IsWhole) (hc0 : ¬firstStep i) (hc1 : lastStep i)
    (x0 : Vec F S1024x256 .f32) (x1 : Vec F S2048x256 .bf16) (x2 : Vec F S2048 .f32) (acc : Vec F S1024x2048 .f32) :
    outLast c i arg3 harg3 arg4 harg4 arg5 harg5 arg6 harg6 arg7 harg7 hc0 hc1 x0 x1 x2 acc = k1_pay3 (k1_pay2 x0 x1 acc) x2 := by
  unfold outLast
  rw [View.read_writes_eq_canon _ _ _ (outCoverLast c i arg3 harg3 arg4 harg4 arg5 harg5 arg6 harg6 arg7 harg7 hc0 hc1 x0 x1 x2 acc)]
  unfold runLast; dsimp only
  sl_unfold_words
  refine (View.canon_unit_zero (S := S1024x2048) accOff_zero _ _).trans ?_
  simp only [View.readAt_eq_ld, harg3.read_unread, harg4.read_unread, harg5.read_unread, harg7.read_unread]
  rw [View.readCov_unit_zero (S := S1024x2048) _ accOff_zero, View.ld_unit_zero (S := S1024x256) accOff_zero, View.ld_unit_zero (S := S2048x256) accOff_zero, View.ld_unit_zero (S := S1024x2048) accOff_zero, View.ld_unit_zero (S := S2048) biasOff_zero]

section Region1Readable

variable (V : (c : Dev nD) → (b : Ref sig .tc) → Buf (Elt F) ((c : Thread nD τ).loc b))

/-- At the first step of a contraction the accumulator ends at the step's product added to zeros. -/
theorem outsAt1_A (c : Dev nD) (t : Fin cfg1.N) (h0 : t.val % 16 = 0) :
    (outsAt1 V c t.val t.isLt).2 = k1_pay2 (iblk1 V c 0 t) (iblk1 V c 1 t) (k1_pay1 (F := F)) := by
  have h1 : ¬t.val % 16 = 15 := by omega
  rw [outsAt1_first V c t h0 h1]
  dsimp only
  exact accFirst_eq c (grid1.coords t) (ms1_0 t) (hs1_0 t) (ms1_1 t) (hs1_1 t) (ms1_2 t) (hs1_2 t) (ms1_3 t) (hs1_3 t) accM (Memref.isWhole_whole _) ((firstStep_iff t).mpr h0) (fun h => h1 ((lastStep_iff t).mp h)) (iblk1 V c 0 t) (iblk1 V c 1 t) (iblk1 V c 2 t)

/-- At a middle step it ends at the step's product added to what the point before left. -/
theorem outsAt1_B (c : Dev nD) (t : Fin cfg1.N) (h0 : ¬t.val % 16 = 0) (h1 : ¬t.val % 16 = 15) :
    (outsAt1 V c t.val t.isLt).2 = k1_pay2 (iblk1 V c 0 t) (iblk1 V c 1 t) (outsAt1 V c (t.val - 1) (Nat.lt_of_le_of_lt (Nat.sub_le _ _) t.isLt)).2 := by
  rw [outsAt1_middle V c t h0 h1]
  dsimp only
  exact accMiddle_eq c (grid1.coords t) (ms1_0 t) (hs1_0 t) (ms1_1 t) (hs1_1 t) (ms1_2 t) (hs1_2 t) (ms1_3 t) (hs1_3 t) accM (Memref.isWhole_whole _) (fun h => h0 ((firstStep_iff t).mp h)) (fun h => h1 ((lastStep_iff t).mp h)) (iblk1 V c 0 t) (iblk1 V c 1 t) (iblk1 V c 2 t) (outsAt1 V c (t.val - 1) (Nat.lt_of_le_of_lt (Nat.sub_le _ _) t.isLt)).2

/-- At the last step the accumulator ends at the step's product added to what the point before left, and the output
    block at that sum with the bias added along the rows. -/
theorem outsAt1_C (c : Dev nD) (t : Fin cfg1.N) (h1 : t.val % 16 = 15) :
    outsAt1 V c t.val t.isLt
      = (k1_pay3 (k1_pay2 (iblk1 V c 0 t) (iblk1 V c 1 t) (outsAt1 V c (t.val - 1) (Nat.lt_of_le_of_lt (Nat.sub_le _ _) t.isLt)).2) (iblk1 V c 2 t),
         k1_pay2 (iblk1 V c 0 t) (iblk1 V c 1 t) (outsAt1 V c (t.val - 1) (Nat.lt_of_le_of_lt (Nat.sub_le _ _) t.isLt)).2) := by
  have h0 : ¬t.val % 16 = 0 := by omega
  rw [outsAt1_last V c t h0 h1]
  exact congrArg₂ Prod.mk
    (outLast_eq c (grid1.coords t) (ms1_0 t) (hs1_0 t) (ms1_1 t) (hs1_1 t) (ms1_2 t) (hs1_2 t) (ms1_3 t) (hs1_3 t) accM (Memref.isWhole_whole _) (fun h => h0 ((firstStep_iff t).mp h)) ((lastStep_iff t).mpr h1) (iblk1 V c 0 t) (iblk1 V c 1 t) (iblk1 V c 2 t) (outsAt1 V c (t.val - 1) (Nat.lt_of_le_of_lt (Nat.sub_le _ _) t.isLt)).2)
    (accLast_eq c (grid1.coords t) (ms1_0 t) (hs1_0 t) (ms1_1 t) (hs1_1 t) (ms1_2 t) (hs1_2 t) (ms1_3 t) (hs1_3 t) accM (Memref.isWhole_whole _) (fun h => h0 ((firstStep_iff t).mp h)) ((lastStep_iff t).mpr h1) (iblk1 V c 0 t) (iblk1 V c 1 t) (iblk1 V c 2 t) (outsAt1 V c (t.val - 1) (Nat.lt_of_le_of_lt (Nat.sub_le _ _) t.isLt)).2)

end Region1Readable

end Cert.KernelIdeal.Hand

end
-- ==== Proof.LibSumChunks.lean ====
/-
  Sums over a range of length n * m taken chunk by chunk.

  In any commutative additive monoid, a sum over `Fin N` with `N = n * m` is the sum over the `n` consecutive
  chunks of length `m`: position `m * c + k` is entry `k` of chunk `c`. This is the re-association that turns
  a contraction computed as a few partial contractions over consecutive slices of the contracted axis, added up
  in order, into the one contraction over the whole axis. Only associativity and commutativity of `+` are used,
  so it holds in the extended reals with no finiteness assumption.
-/
import Mathlib.Algebra.BigOperators.Fin
import Mathlib.Logic.Equiv.Fin.Basic

namespace LibSumChunks

open Finset

/-- Entry `k` of chunk `c` sits at position `m * c + k`, inside the range. -/
theorem chunk_lt {N n m : ℕ} (h : N = n * m) (c : Fin n) (k : Fin m) : m * c.val + k.val < N := by
  subst h
  calc m * c.val + k.val < m * c.val + m := Nat.add_lt_add_left k.isLt _
    _ = m * (c.val + 1) := (Nat.mul_succ m c.val).symm
    _ ≤ m * n := Nat.mul_le_mul_left m c.isLt
    _ = n * m := Nat.mul_comm m n

/-- A sum over `Fin N`, `N = n * m`, is the sum over the `n` chunks of the sums over each chunk's `m` entries. -/
theorem sum_chunks {M : Type*} [AddCommMonoid M] {N : ℕ} (n m : ℕ) (h : N = n * m) (f : Fin N → M) :
    ∑ i : Fin N, f i = ∑ c : Fin n, ∑ k : Fin m, f ⟨m * c.val + k.val, chunk_lt h c k⟩ := by
  subst h
  rw [← (finProdFinEquiv (m := n) (n := m)).sum_comp, Fintype.sum_prod_type]
  refine Finset.sum_congr rfl fun c _ => Finset.sum_congr rfl fun k _ => congrArg f (Fin.ext ?_)
  show (k.val + m * c.val : ℕ) = m * c.val + k.val
  exact Nat.add_comm _ _

/-- Four chunks, written out in the order a left-to-right accumulation adds them, starting from zero. -/
theorem sum_four_chunks {M : Type*} [AddCommMonoid M] {N : ℕ} (m : ℕ) (h : N = 4 * m) (f : Fin N → M) :
    ∑ i : Fin N, f i
      = (((0 + ∑ k : Fin m, f ⟨m * 0 + k.val, chunk_lt h 0 k⟩) + ∑ k : Fin m, f ⟨m * 1 + k.val, chunk_lt h 1 k⟩)
          + ∑ k : Fin m, f ⟨m * 2 + k.val, chunk_lt h 2 k⟩) + ∑ k : Fin m, f ⟨m * 3 + k.val, chunk_lt h 3 k⟩ := by
  rw [sum_chunks 4 m h f, Fin.sum_univ_four, zero_add]
  rfl

end LibSumChunks
-- ==== Proof.LibMatmulSum.lean ====
/-
  A matrix product with ONE contracted axis, read at an output index as a sum over that axis's positions.

  At the ideal instance a `tpu.matmul` into the zero accumulator, and the host's `dot_general`, are at every
  output index the sum over the contraction index of the products of the two operands' entries. When exactly one axis is
  contracted, the contraction index is one number `k < K`; if at the output index `j` the left operand is read at
  `L k` and the right one at `R k`, the entry is `∑ k : Fin K, lhs (L k) * rhs (R k)`. The two index facts are
  the only thing a caller supplies; they hold for any layout of the contracted and free axes.
-/
import Idealize.ShloMosaic.PureOps.Ideal.Laws
import Idealize.ShloMosaic.Lib.ValueIdx

noncomputable section

namespace Idealize.ShloMosaic.MatmulSum

open Idealize.ShloMosaic Idealize.ShloMosaic.ValueIdx

variable {sl sr so : Shape} {φ₁ φ₂ : FTy}

/-- A `tpu.matmul` into the zero splat with one contracted axis of extent `K`: at `j` it is the sum over `k < K` of the
    left operand at `L k` times the right operand at `R k`, where `L k` and `R k` are the operand indices the
    dimension numbers assign to output index `j` and contraction position `k`. -/
theorem matmul_zero_apply_single (D : DotDims sl sr so) (prec : Option ContractPrecision) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The host's `dot_general` with one contracted axis of extent `K`, read the same way. -/
theorem dotGeneral_apply_single (D : DotDims sl sr so) (prec : Option ContractPrecision) (sched : HostSchedule) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

end Idealize.ShloMosaic.MatmulSum

end
-- ==== Proof.KI.Payload1.lean ====
/-
  The accumulating product kernel's three stored values, read at an entry over the extended reals.

  The second kernel multiplies a 1024 × 256 tile of the data (rounded to bf16, the identity here) by the transpose of a
  2048 × 256 tile of the masked weight — both operands are contracted along their second axis — and adds the product
  into a 1024 × 2048 accumulator that starts at zero; after the last tile of the contracted axis it adds the bias row:

      zero (p, q)        = 0,
      accumulate (p, q)  = acc (p, q) + ∑ l, data (p, l) · weight (q, l),
      with bias (p, q)   = acc (p, q) + bias (q).
-/
import proofs.«142192_j60155311948051_2_alg».proof.Proof.Gen.KernelIdeal.Skeleton
import proofs.«142192_j60155311948051_2_alg».proof.Proof.LibMatmulSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## The product contracted along both operands' second axis -/

/-- The left operand's row is the output's row, -/
theorem contract_apply_l0 (j : S1024x2048.Idx) (κ : dot_S1024x256_S2048x256_S1024x2048_1_1_0_0_n_n.contr.Idx) : (dot_S1024x256_S2048x256_S1024x2048_1_1_0_0_n_n.lhsIdx j κ 0).val = (j 0).val := by
  unfold DotDims.lhsIdx
  rw [dif_neg (show ¬(0 : Fin S1024x256.rank) ∈ dot_S1024x256_S2048x256_S1024x2048_1_1_0_0_n_n.lhsBatch by decide), dif_pos (show (0 : Fin S1024x256.rank) ∈ dot_S1024x256_S2048x256_S1024x2048_1_1_0_0_n_n.lhsNonContracting by decide)]
  rfl
/-- its column the contraction position; -/
theorem contract_apply_l1 (j : S1024x2048.Idx) (κ : dot_S1024x256_S2048x256_S1024x2048_1_1_0_0_n_n.contr.Idx) : (dot_S1024x256_S2048x256_S1024x2048_1_1_0_0_n_n.lhsIdx j κ 1).val = (κ ⟨0, by decide⟩).val :=
  dot_S1024x256_S2048x256_S1024x2048_1_1_0_0_n_n.lhsIdx_val_of_single rfl j κ
/-- the right operand's row is the output's column, -/
theorem contract_apply_r0 (j : S1024x2048.Idx) (κ : dot_S1024x256_S2048x256_S1024x2048_1_1_0_0_n_n.contr.Idx) : (dot_S1024x256_S2048x256_S1024x2048_1_1_0_0_n_n.rhsIdx j κ 0).val = (j 1).val := by
  unfold DotDims.rhsIdx
  rw [dif_neg (show ¬(0 : Fin S2048x256.rank) ∈ dot_S1024x256_S2048x256_S1024x2048_1_1_0_0_n_n.rhsBatch by decide), dif_pos (show (0 : Fin S2048x256.rank) ∈ dot_S1024x256_S2048x256_S1024x2048_1_1_0_0_n_n.rhsNonContracting by decide)]
  rfl
/-- its column the contraction position. -/
theorem contract_apply_r1 (j : S1024x2048.Idx) (κ : dot_S1024x256_S2048x256_S1024x2048_1_1_0_0_n_n.contr.Idx) : (dot_S1024x256_S2048x256_S1024x2048_1_1_0_0_n_n.rhsIdx j κ 1).val = (κ ⟨0, by decide⟩).val :=
  dot_S1024x256_S2048x256_S1024x2048_1_1_0_0_n_n.rhsIdx_val_of_single rfl j κ

/-- The product into the zero accumulator at entry `(p, q)`: row `p` of the left operand against row `q` of the right one. -/
theorem contract_apply (lhs : FVec Ideal S1024x256 .bf16) (rhs : FVec Ideal S2048x256 .bf16) (p : Fin 1024) (q : Fin 2048) :
    matmul dot_S1024x256_S2048x256_S1024x2048_1_1_0_0_n_n none lhs rhs (constant S1024x2048 .f32 0x00000000#32) (ix2 p q)
      = ∑ l : Fin 256, lhs (ix2 p l) * rhs (ix2 q l) := by
  refine MatmulSum.matmul_zero_apply_single dot_S1024x256_S2048x256_S1024x2048_1_1_0_0_n_n none 256 rfl rfl lhs rhs (ix2 p q)
    (fun l => ix2 p l) (fun l => ix2 q l) (fun l => ?_) (fun l => ?_)
  · refine funext fun a => Fin.ext ?_
    match a with
    | ⟨0, _⟩ => exact contract_apply_l0 _ _
    | ⟨1, _⟩ => exact (contract_apply_l1 _ _).trans (contrEquiv1_symm_val dot_S1024x256_S2048x256_S1024x2048_1_1_0_0_n_n 256 rfl rfl l)
  · refine funext fun a => Fin.ext ?_
    match a with
    | ⟨0, _⟩ => exact contract_apply_r0 _ _
    | ⟨1, _⟩ => exact (contract_apply_r1 _ _).trans (contrEquiv1_symm_val dot_S1024x256_S2048x256_S1024x2048_1_1_0_0_n_n 256 rfl rfl l)

/-! ## The three stored values -/

/-- The accumulator's first value is zero everywhere. -/
theorem pay1_zero (p : Fin 1024) (q : Fin 2048) : k1_pay1 (F := Ideal) (ix2 p q) = 0 := by
  unfold k1_pay1
  simp only [shapeCast_self]
  exact Ideal.ofBits_zero_f32

/-- One step of the accumulation at entry `(p, q)`: the accumulator plus row `p` of the data tile against row `q` of the
    weight tile. -/
theorem pay2_apply (v3 : Vec Ideal S1024x256 .f32) (v6 : Vec Ideal S2048x256 .bf16) (v8 : Vec Ideal S1024x2048 .f32)
    (p : Fin 1024) (q : Fin 2048) :
    k1_pay2 (F := Ideal) v3 v6 v8 (ix2 p q) = v8 (ix2 p q) + ∑ l : Fin 256, v3 (ix2 p l) * v6 (ix2 q l) := by
  unfold k1_pay2
  simp only [shapeCast_self]
  refine congrArg (v8 (ix2 p q) + ·) ?_
  exact contract_apply _ _ p q

/-- The result at entry `(p, q)`: the accumulator plus the bias of column `q`. -/
theorem pay3_apply (v17 : Vec Ideal S1024x2048 .f32) (v18 : Vec Ideal S2048 .f32) (p : Fin 1024) (q : Fin 2048) :
    k1_pay3 (F := Ideal) v17 v18 (ix2 p q) = v17 (ix2 p q) + v18 (ix1 q) := by
  unfold k1_pay3
  refine congrArg (v17 (ix2 p q) + ·) ?_
  refine (broadcastTo_apply _ _ (ix2 p q) (ix2 (n0 := 1) (n1 := 2048) ⟨0, Nat.one_pos⟩ q) ?_).trans ?_
  · intro a
    match a with
    | ⟨0, _⟩ => rfl
    | ⟨1, _⟩ => rfl
  · refine (shapeCast_addUnit_apply ![2048] v18 _ _).trans ?_
    refine congrArg v18 (funext fun a => ?_)
    match a with
    | ⟨0, _⟩ => rfl

end Cert.KernelIdeal.Hand

end
-- ==== Proof.KI.Value1.lean ====
import proofs.«142192_j60155311948051_2_alg».proof.Proof.KI.Region1Readable
import Idealize.ShloMosaic.Lib.Pipeline.Value
import Idealize.ShloMosaic.Lib.ValueIdx
import Idealize.ShloMosaic.Lib.ValueLayout
import Idealize.ShloMosaic.PureOps.Ideal.Laws
import proofs.«142192_j60155311948051_2_alg».proof.Proof.LibSumChunks
import proofs.«142192_j60155311948051_2_alg».proof.Proof.KI.Payload1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! # The second kernel's result as one array, over the extended reals

Block (i, j) of the result is written back at the last step of its contraction, when the accumulator holds zero plus
the sixteen steps' products added in order, and the bias row is added; the sixteen partial sums over consecutive
chunks of 256 columns are the one sum over all 4096. -/

section Value1

variable (V : (c : Dev nD) → (b : Ref sig .tc) → Buf (Elt Ideal) ((c : Thread nD τ).loc b))

/-- Every index of the accumulator is a pair of coordinates. -/
theorem acc_idx (i : S1024x2048.Idx) : ∃ (p : Fin 1024) (q : Fin 2048), i = ix2 p q := ⟨i 0, i 1, eq_ix2 i⟩

/-- The three input blocks at a point, at their vector types. -/
abbrev xBlk (c : Dev nD) (t : Fin cfg1.N) : Vec Ideal S1024x256 .f32 := iblk1 V c 0 t
abbrev wBlk (c : Dev nD) (t : Fin cfg1.N) : Vec Ideal S2048x256 .bf16 := iblk1 V c 1 t
abbrev bBlk (c : Dev nD) (t : Fin cfg1.N) : Vec Ideal S2048 .f32 := iblk1 V c 2 t

/-- The product of step `n`'s blocks at (p, q): the left operand's row p against the masked weight's row q, over the
    step's 256 columns. Zero past the grid (never used). -/
def stepSum (c : Dev nD) (n : ℕ) (p : Fin 1024) (q : Fin 2048) : EReal :=
  if h : n < cfg1.N then
    ∑ l : Fin 256, xBlk V c ⟨n, h⟩ (ix2 p l) * wBlk V c ⟨n, h⟩ (ix2 q l)
  else 0

/-- At the last step the accumulator's new contents, without the output block. -/
theorem outsAt1_C_acc (c : Dev nD) (t : Fin cfg1.N) (h1 : t.val % 16 = 15) :
    (outsAt1 V c t.val t.isLt).2 = k1_pay2 (iblk1 V c 0 t) (iblk1 V c 1 t) (outsAt1 V c (t.val - 1) (Nat.lt_of_le_of_lt (Nat.sub_le _ _) t.isLt)).2 := by
  rw [outsAt1_C V c t h1]

/-- The accumulator after the first step of a contraction, at point `n`: the step's product added to zeros. -/
def stepReset (c : Dev nD) (n : ℕ) (h : n < cfg1.N) : Vec Ideal S1024x2048 .f32 :=
  k1_pay2 (xBlk V c ⟨n, h⟩) (wBlk V c ⟨n, h⟩) (k1_pay1 (F := Ideal))
/-- The accumulator after a later step, at point `n`: the step's product added to what it held. -/
def stepAdd (c : Dev nD) (n : ℕ) (h : n < cfg1.N) (acc : Vec Ideal S1024x2048 .f32) : Vec Ideal S1024x2048 .f32 :=
  k1_pay2 (xBlk V c ⟨n, h⟩) (wBlk V c ⟨n, h⟩) acc

theorem acc_first (c : Dev nD) (n : ℕ) (h : n < cfg1.N) (hn : n % 16 = 0) : (outsAt1 V c n h).2 = stepReset V c n h :=
  outsAt1_A V c ⟨n, h⟩ hn

theorem acc_later (c : Dev nD) (n : ℕ) (h : n + 1 < cfg1.N) (hn : ¬(n + 1) % 16 = 0) :
    (outsAt1 V c (n + 1) h).2 = stepAdd V c (n + 1) h (outsAt1 V c n (Nat.lt_of_succ_lt h)).2 := by
  by_cases h15 : (n + 1) % 16 = 15
  · exact outsAt1_C_acc V c ⟨n + 1, h⟩ h15
  · exact outsAt1_B V c ⟨n + 1, h⟩ hn h15

/-- THE ACCUMULATION as the fold over the run of points of one contraction. -/
theorem acc_fold (c : Dev nD) (t : Fin cfg1.N) (h' : 16 * (t.val / 16) + t.val % 16 < cfg1.N) :
    (outsAt1 V c t.val t.isLt).2 = Pipeline.accAt (stepReset V c) (stepAdd V c) (16 * (t.val / 16)) (t.val % 16) h' :=
  Pipeline.eq_accAt_of_mod (N := cfg1.N) (fun n h => (outsAt1 V c n h).2) 16 (stepReset V c) (stepAdd V c)
    (acc_first V c) (acc_later V c) (by decide) t.val t.isLt h'

theorem stepReset_apply (c : Dev nD) (n : ℕ) (h : n < cfg1.N) (p : Fin 1024) (q : Fin 2048) :
    stepReset V c n h (ix2 p q) = 0 + stepSum V c n p q := by
  unfold stepReset stepSum
  rw [dif_pos h]
  refine (pay2_apply _ _ _ p q).trans ?_
  rw [pay1_zero p q]

theorem stepAdd_apply (c : Dev nD) (n : ℕ) (h : n < cfg1.N) (acc : Vec Ideal S1024x2048 .f32) (p : Fin 1024) (q : Fin 2048) :
    stepAdd V c n h acc (ix2 p q) = acc (ix2 p q) + stepSum V c n p q := by
  unfold stepAdd stepSum
  rw [dif_pos h]
  exact pay2_apply _ _ _ p q

/-- The fold read at an index: zero plus the steps' products so far, in order. -/
theorem fold_apply (c : Dev nD) (b j : ℕ) (hj : j ≤ 15) (h : b + j < cfg1.N) (p : Fin 1024) (q : Fin 2048) :
    Pipeline.accAt (stepReset V c) (stepAdd V c) b j h (ix2 p q) = 0 + ∑ s ∈ Finset.range (j + 1), stepSum V c (b + s) p q :=
  Pipeline.accAt_add_apply (stepReset V c) (stepAdd V c) (fun _ => (0 : EReal)) (fun n i => stepSum V c n (i 0) (i 1)) b 15
    (fun h i => by obtain ⟨p, q, rfl⟩ := acc_idx i; exact stepReset_apply V c b h p q)
    (fun n h acc i _ _ => by obtain ⟨p, q, rfl⟩ := acc_idx i; exact stepAdd_apply V c n h acc p q)
    j hj h (ix2 p q)

/-- THE ACCUMULATION, read at an index: after point `t` the accumulator holds zero plus the products of the steps of its
    contraction so far, in order. -/
theorem acc_apply (c : Dev nD) (t : Fin cfg1.N) (p : Fin 1024) (q : Fin 2048) :
    (outsAt1 V c t.val t.isLt).2 (ix2 p q)
      = 0 + ∑ s ∈ Finset.range (t.val % 16 + 1), stepSum V c (16 * (t.val / 16) + s) p q := by
  have hN : cfg1.N = 128 := N_1
  have h' : 16 * (t.val / 16) + t.val % 16 < cfg1.N := by have := t.isLt; omega
  rw [acc_fold V c t h']
  exact fold_apply V c _ _ (by omega) h' p q

/-! ## The blocks, read off the arrays -/

/-- The windows' block indices at a point, decided over the grid: the point with coordinates (i, j, k) is
    `32 i + 16 j + k`. -/
theorem idx_facts1 : ∀ t : Fin cfg1.N,
    win1_0.index t (0 : Fin 2) = t.val / 32 ∧ win1_0.index t (1 : Fin 2) = t.val % 16
    ∧ win1_1.index t (0 : Fin 2) = t.val / 16 % 2 ∧ win1_1.index t (1 : Fin 2) = t.val % 16
    ∧ win1_2.index t (0 : Fin 1) = t.val / 16 % 2
    ∧ win1_3.index t (0 : Fin 2) = t.val / 32 ∧ win1_3.index t (1 : Fin 2) = t.val / 16 % 2 :=
  (by decide +kernel : ∀ t : Fin grid1.N, _)

/-- Row `1024 i + p` of the data, for the point's row tile `i`. -/
def rowOf (t : Fin cfg1.N) (p : Fin 1024) : Fin 4096 :=
  ⟨1024 * (t.val / 32) + p.val, by have := t.isLt; have hN : cfg1.N = 128 := N_1; have := p.isLt; omega⟩
/-- Row `2048 j + q` of the masked weight (a column of the result), for the point's column tile `j`. -/
def colOf (t : Fin cfg1.N) (q : Fin 2048) : Fin 4096 :=
  ⟨2048 * (t.val / 16 % 2) + q.val, by have := q.isLt; omega⟩
/-- Contracted position `256 k + l`, for the point's step `k`. -/
def posOf (t : Fin cfg1.N) (l : Fin 256) : Fin 4096 :=
  ⟨256 * (t.val % 16) + l.val, by have := l.isLt; omega⟩

/-- The left operand's block at a point is the data's rows of the row tile, columns of the step. -/
theorem xBlk_apply (c : Dev nD) (t : Fin cfg1.N) (p : Fin 1024) (l : Fin 256) :
    xBlk V c t (ix2 p l) = V c main_v1 (ix2 (rowOf t p) (posOf t l)) := by
  obtain ⟨e0, e1, -⟩ := idx_facts1 t
  unfold xBlk iblk1
  rw [View.read_apply]
  show V c main_v1 _ = V c main_v1 _
  congr 1
  funext a
  apply Fin.ext
  match a with
  | ⟨0, _⟩ => show win1_0.index t 0 * 1024 + 1 * p.val = 1024 * (t.val / 32) + p.val; rw [e0]; omega
  | ⟨1, _⟩ => show win1_0.index t 1 * 256 + 1 * l.val = 256 * (t.val % 16) + l.val; rw [e1]; omega

/-- The masked weight's block at a point is its rows of the column tile, columns of the step. -/
theorem wBlk_apply (c : Dev nD) (t : Fin cfg1.N) (q : Fin 2048) (l : Fin 256) :
    wBlk V c t (ix2 q l) = V c main_v22 (ix2 (colOf t q) (posOf t l)) := by
  obtain ⟨-, -, e0, e1, -⟩ := idx_facts1 t
  unfold wBlk iblk1
  rw [View.read_apply]
  show V c main_v22 _ = V c main_v22 _
  congr 1
  funext a
  apply Fin.ext
  match a with
  | ⟨0, _⟩ => show win1_1.index t 0 * 2048 + 1 * q.val = 2048 * (t.val / 16 % 2) + q.val; rw [e0]; omega
  | ⟨1, _⟩ => show win1_1.index t 1 * 256 + 1 * l.val = 256 * (t.val % 16) + l.val; rw [e1]; omega

/-- The bias block at a point is the bias entries of the column tile. -/
theorem bBlk_apply (c : Dev nD) (t : Fin cfg1.N) (q : Fin 2048) :
    bBlk V c t (ix1 q) = V c main_arg3 (ix1 (colOf t q)) := by
  obtain ⟨-, -, -, -, e0, -⟩ := idx_facts1 t
  unfold bBlk iblk1
  rw [View.read_apply]
  show V c main_arg3 _ = V c main_arg3 _
  congr 1
  funext a
  apply Fin.ext
  match a with
  | ⟨0, _⟩ => show win1_2.index t 0 * 2048 + 1 * q.val = 2048 * (t.val / 16 % 2) + q.val; rw [e0]; omega

/-! ## One contraction, whole -/

/-- The three arrays the kernel reads, as functions into the extended reals. -/
abbrev xA (c : Dev nD) : S4096x4096.Idx → EReal := V c main_v1
abbrev wbA (c : Dev nD) : S4096x4096.Idx → EReal := V c main_v22
abbrev bA (c : Dev nD) : S4096.Idx → EReal := V c main_arg3

/-- Step `n`'s product in terms of the arrays. -/
theorem stepSum_eq (c : Dev nD) (n : ℕ) (h : n < cfg1.N) (p : Fin 1024) (q : Fin 2048) :
    stepSum V c n p q = ∑ l : Fin 256, xA V c (ix2 (rowOf ⟨n, h⟩ p) (posOf ⟨n, h⟩ l)) * wbA V c (ix2 (colOf ⟨n, h⟩ q) (posOf ⟨n, h⟩ l)) := by
  unfold stepSum; rw [dif_pos h]
  refine Finset.sum_congr rfl fun l _ => ?_
  rw [xBlk_apply, wBlk_apply]

/-- The sixteen steps' products of the run that ends at a flushing point are the whole contraction: sixteen
    consecutive chunks of 256 positions are the 4096. -/
theorem run_sum (c : Dev nD) (t : Fin cfg1.N) (h15 : t.val % 16 = 15) (p : Fin 1024) (q : Fin 2048) :
    ∑ s ∈ Finset.range 16, stepSum V c (16 * (t.val / 16) + s) p q
      = ∑ k : Fin 4096, xA V c (ix2 (rowOf t p) k) * wbA V c (ix2 (colOf t q) k) := by
  have hN : cfg1.N = 128 := N_1
  have ht := t.isLt
  refine Eq.trans ?_ (LibSumChunks.sum_chunks 16 256 (by norm_num) (fun k : Fin 4096 => xA V c (ix2 (rowOf t p) k) * wbA V c (ix2 (colOf t q) k))).symm
  rw [← Fin.sum_univ_eq_sum_range (fun s => stepSum V c (16 * (t.val / 16) + s) p q) 16]
  refine Finset.sum_congr rfl fun s _ => ?_
  have hs := s.isLt
  have hn : 16 * (t.val / 16) + s.val < cfg1.N := by omega
  rw [stepSum_eq V c _ hn p q]
  refine Finset.sum_congr rfl fun l _ => ?_
  have hl := l.isLt
  have er : rowOf ⟨16 * (t.val / 16) + s.val, hn⟩ p = rowOf t p :=
    Fin.ext (by show 1024 * ((16 * (t.val / 16) + s.val) / 32) + p.val = 1024 * (t.val / 32) + p.val; omega)
  have ec : colOf ⟨16 * (t.val / 16) + s.val, hn⟩ q = colOf t q :=
    Fin.ext (by show 2048 * ((16 * (t.val / 16) + s.val) / 16 % 2) + q.val = 2048 * (t.val / 16 % 2) + q.val; omega)
  have ep : posOf ⟨16 * (t.val / 16) + s.val, hn⟩ l = ⟨256 * s.val + l.val, LibSumChunks.chunk_lt (by norm_num) s l⟩ :=
    Fin.ext (by show 256 * ((16 * (t.val / 16) + s.val) % 16) + l.val = 256 * s.val + l.val; omega)
  rw [er, ec, ep]

/-! ## The result as one array -/

/-- The result: the data against the masked weight, contracted over all 4096 positions, plus the bias. -/
def G1 (c : Dev nD) : S4096x4096.Idx → EReal := fun i =>
  (∑ k : Fin 4096, xA V c (ix2 (i 0) k) * wbA V c (ix2 (i 1) k)) + bA V c (ix1 (i 1))

theorem G1_apply (c : Dev nD) (r n : Fin 4096) :
    G1 V c (ix2 r n) = (∑ k : Fin 4096, xA V c (ix2 r k) * wbA V c (ix2 n k)) + bA V c (ix1 n) := rfl

/-- At the last step of a contraction the output block holds the result's entries of its tile. -/
theorem out_block_apply (c : Dev nD) (t : Fin cfg1.N) (h15 : t.val % 16 = 15) (p : Fin 1024) (q : Fin 2048) :
    (outsAt1 V c t.val t.isLt).1 (ix2 p q) = G1 V c (ix2 (rowOf t p) (colOf t q)) := by
  have hacc := acc_apply V c t p q
  rw [outsAt1_C_acc V c t h15, h15, run_sum V c t h15 p q, zero_add] at hacc
  rw [outsAt1_C V c t h15]
  dsimp only
  refine (pay3_apply _ _ p q).trans ?_
  rw [hacc, G1_apply]
  exact congrArg _ (bBlk_apply V c t q)

/-! ## The write-backs cover the result -/

/-- What a flushing point writes back is its block of the result. -/
theorem flushed1_eq (c : Dev nD) (t : Fin cfg1.N) (hf : (cfg1.win 3).flush t = true) :
    (dat1 V c).flushed 3 t = ((cfg1.win 3).blk t).view.read (Elt Ideal) (G1 V c) := by
  have h15 : t.val % 16 = 15 := (flush1_3 t).mp hf
  obtain ⟨-, -, -, -, -, e0, e1⟩ := idx_facts1 t
  show (cfg1.win 3).cut (grid1.coords t) ((dat1 V c).after 3 t) = _
  rw [after1_3]
  funext j
  obtain ⟨p, q, rfl⟩ : ∃ (p : Fin 1024) (q : Fin 2048), j = ix2 p q := ⟨j 0, j 1, eq_ix2 (n0 := 1024) (n1 := 2048) j⟩
  show (outsAt1 V c t.val t.isLt).1 (ix2 p q) = G1 V c (((cfg1.win 3).blk t).view.emb (ix2 p q))
  refine (out_block_apply V c t h15 p q).trans (congrArg (G1 V c) ?_)
  funext a
  apply Fin.ext
  match a with
  | ⟨0, _⟩ => show 1024 * (t.val / 32) + p.val = win1_3.index t 0 * 1024 + 1 * p.val; rw [e0]; omega
  | ⟨1, _⟩ => show 2048 * (t.val / 16 % 2) + q.val = win1_3.index t 1 * 2048 + 1 * q.val; rw [e1]; omega

/-- An index of the result is in a point's block iff each coordinate is in the block's range on its axis. -/
theorem mem_blk1 (t : Fin cfg1.N) (i : S4096x4096.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v23).slice (win1_3.rect t)).set ↔ _
  rw [View.set_slice_whole, Rect.mem_set_unit]
  exact Iff.rfl

/-- Every index of the result lies in the block written back at the last step of its tile's contraction. -/
theorem cover1 (i : S4096x4096.Idx) : ∃ t : Fin cfg1.N, (cfg1.win 3).flush t = true ∧ i ∈ ((cfg1.win 3).blk t).view.set := by
  have hN : cfg1.N = 128 := N_1
  have hi0 : (i 0).val < 4096 := idx2_lt0 i
  have hi1 : (i 1).val < 4096 := idx2_lt1 i
  obtain ⟨t, ht⟩ : ∃ t : Fin cfg1.N, t.val = 32 * ((i 0).val / 1024) + 16 * ((i 1).val / 2048) + 15 := ⟨⟨_, by omega⟩, rfl⟩
  obtain ⟨-, -, -, -, -, e0, e1⟩ := idx_facts1 t
  refine ⟨t, (flush1_3 t).mpr (by omega), ?_⟩
  rw [mem_blk1]
  intro a
  match a with
  | ⟨0, _⟩ => show win1_3.index t 0 * 1024 ≤ (i 0).val ∧ (i 0).val < win1_3.index t 0 * 1024 + 1024; rw [e0]; omega
  | ⟨1, _⟩ => show win1_3.index t 1 * 2048 ≤ (i 1).val ∧ (i 1).val < win1_3.index t 1 * 2048 + 2048; rw [e1]; omega

/-- THE RESULT ARRAY after the region: the contraction over all 4096 positions plus the bias, everywhere. -/
theorem arrAt1_eq (c : Dev nD) : (dat1 V c).arrAt 3 cfg1.N = G1 V c :=
  (dat1 V c).arrAt_eq_of_cover 3 (G1 V c) (flushed1_eq V c) cover1

/-- The same, read at an index. -/
theorem arrAt1_apply (c : Dev nD) (r n : Fin 4096) :
    ((dat1 V c).arrAt 3 cfg1.N : S4096x4096.Idx → EReal) (ix2 r n)
      = (∑ k : Fin 4096, xA V c (ix2 r k) * wbA V c (ix2 n k)) + bA V c (ix1 n) :=
  (congrFun (arrAt1_eq V c) (ix2 r n)).trans (G1_apply V c r n)

end Value1

end Cert.KernelIdeal.Hand

end
-- ==== Proof.KI.Value0.lean ====
import proofs.«142192_j60155311948051_2_alg».proof.Proof.KI.Region0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The masked weight as one array

What region 0 leaves in its output array, index by index: element `(n, k)` is the payload of the body's store at
row block `n / 256`, column chunk `k / 1024`, read at `(n % 256, k % 1024)`. -/

/-! ## The output block, index by index -/

/-- Where element `x` of column chunk `k` sits in the block: the same row, column `1024·k + x₁`. -/
theorem emb_colChunk (k : Fin k0_t1_loop.trips) (x : S256x1024.Idx) (y : S256x4096.Idx)
    (h0 : (y (0 : Fin 2)).val = (x (0 : Fin 2)).val) (h1 : (y (1 : Fin 2)).val = 1024 * k.val + (x (1 : Fin 2)).val) :
    (colChunk k).emb x = y := by
  funext a; apply Fin.ext
  show k0_off2 k a + 1 * (x a).val = (y a).val
  rw [k0_off2_eq, Nat.one_mul]
  revert a
  exact Fin.forall_fin_two.mpr ⟨by show 0 + (x (0 : Fin 2)).val = (y (0 : Fin 2)).val; omega,
    by show 1024 * k.val + (x (1 : Fin 2)).val = (y (1 : Fin 2)).val; omega⟩

/-- An index whose column lies outside `[1024·k, 1024·k + 1024)` is not in column chunk `k`. -/
theorem not_mem_colChunk (k : Fin k0_t1_loop.trips) (y : S256x4096.Idx)
    (h : (y (1 : Fin 2)).val < 1024 * k.val ∨ 1024 * k.val + 1024 ≤ (y (1 : Fin 2)).val) : y ∉ (colChunk k).set := by
  rw [Rect.mem_set_unit]
  intro hall
  have h1 := hall (1 : Fin 2)
  rw [k0_off2_eq] at h1
  have h1' : 1024 * k.val ≤ (y (1 : Fin 2)).val ∧ (y (1 : Fin 2)).val < 1024 * k.val + 1024 := h1
  omega

/-- Four pieces over the four column chunks, the last chunk's first, read at row `x₀`, column `1024·j + x₁`: the
    later chunks' pieces do not reach the index, chunk `j`'s gives its payload at `(x₀, x₁)`. One statement per chunk. -/
theorem canon_chunks_at3 (p3 p2 p1 p0 : Vec F S256x1024 .bf16) (y : S256x4096.Idx) (x : S256x1024.Idx)
    (h0 : (y (0 : Fin 2)).val = (x (0 : Fin 2)).val) (h1 : (y (1 : Fin 2)).val = 1024 * (chunk 3).val + (x (1 : Fin 2)).val) :
    View.canon ([⟨colChunk (chunk 3), p3⟩, ⟨colChunk (chunk 2), p2⟩, ⟨colChunk (chunk 1), p1⟩, ⟨colChunk (chunk 0), p0⟩] :
        List (View.Piece (Elt F) S256x4096 .bf16)) y = p3 x := by
  have hx : (x (1 : Fin 2)).val < 1024 := (x (1 : Fin 2)).isLt
  have e3 : (chunk 3).val = 3 := rfl
  have e2 : (chunk 2).val = 2 := rfl
  have e1 : (chunk 1).val = 1 := rfl
  have e0 : (chunk 0).val = 0 := rfl
  rw [← emb_colChunk (chunk 3) x y h0 h1]
  exact View.canon_cons_emb (colChunk (chunk 3)) p3 _ x
theorem canon_chunks_at2 (p3 p2 p1 p0 : Vec F S256x1024 .bf16) (y : S256x4096.Idx) (x : S256x1024.Idx)
    (h0 : (y (0 : Fin 2)).val = (x (0 : Fin 2)).val) (h1 : (y (1 : Fin 2)).val = 1024 * (chunk 2).val + (x (1 : Fin 2)).val) :
    View.canon ([⟨colChunk (chunk 3), p3⟩, ⟨colChunk (chunk 2), p2⟩, ⟨colChunk (chunk 1), p1⟩, ⟨colChunk (chunk 0), p0⟩] :
        List (View.Piece (Elt F) S256x4096 .bf16)) y = p2 x := by
  have hx : (x (1 : Fin 2)).val < 1024 := (x (1 : Fin 2)).isLt
  have e3 : (chunk 3).val = 3 := rfl
  have e2 : (chunk 2).val = 2 := rfl
  have e1 : (chunk 1).val = 1 := rfl
  have e0 : (chunk 0).val = 0 := rfl
  rw [View.canon_cons_of_not_mem (⟨colChunk (chunk 3), p3⟩ : View.Piece (Elt F) S256x4096 .bf16) _ (not_mem_colChunk (chunk 3) y (.inl (by omega))),
    ← emb_colChunk (chunk 2) x y h0 h1]
  exact View.canon_cons_emb (colChunk (chunk 2)) p2 _ x
theorem canon_chunks_at1 (p3 p2 p1 p0 : Vec F S256x1024 .bf16) (y : S256x4096.Idx) (x : S256x1024.Idx)
    (h0 : (y (0 : Fin 2)).val = (x (0 : Fin 2)).val) (h1 : (y (1 : Fin 2)).val = 1024 * (chunk 1).val + (x (1 : Fin 2)).val) :
    View.canon ([⟨colChunk (chunk 3), p3⟩, ⟨colChunk (chunk 2), p2⟩, ⟨colChunk (chunk 1), p1⟩, ⟨colChunk (chunk 0), p0⟩] :
        List (View.Piece (Elt F) S256x4096 .bf16)) y = p1 x := by
  have hx : (x (1 : Fin 2)).val < 1024 := (x (1 : Fin 2)).isLt
  have e3 : (chunk 3).val = 3 := rfl
  have e2 : (chunk 2).val = 2 := rfl
  have e1 : (chunk 1).val = 1 := rfl
  have e0 : (chunk 0).val = 0 := rfl
  rw [View.canon_cons_of_not_mem (⟨colChunk (chunk 3), p3⟩ : View.Piece (Elt F) S256x4096 .bf16) _ (not_mem_colChunk (chunk 3) y (.inl (by omega))),
    View.canon_cons_of_not_mem (⟨colChunk (chunk 2), p2⟩ : View.Piece (Elt F) S256x4096 .bf16) _ (not_mem_colChunk (chunk 2) y (.inl (by omega))),
    ← emb_colChunk (chunk 1) x y h0 h1]
  exact View.canon_cons_emb (colChunk (chunk 1)) p1 _ x
theorem canon_chunks_at0 (p3 p2 p1 p0 : Vec F S256x1024 .bf16) (y : S256x4096.Idx) (x : S256x1024.Idx)
    (h0 : (y (0 : Fin 2)).val = (x (0 : Fin 2)).val) (h1 : (y (1 : Fin 2)).val = 1024 * (chunk 0).val + (x (1 : Fin 2)).val) :
    View.canon ([⟨colChunk (chunk 3), p3⟩, ⟨colChunk (chunk 2), p2⟩, ⟨colChunk (chunk 1), p1⟩, ⟨colChunk (chunk 0), p0⟩] :
        List (View.Piece (Elt F) S256x4096 .bf16)) y = p0 x := by
  have hx : (x (1 : Fin 2)).val < 1024 := (x (1 : Fin 2)).isLt
  have e3 : (chunk 3).val = 3 := rfl
  have e2 : (chunk 2).val = 2 := rfl
  have e1 : (chunk 1).val = 1 := rfl
  have e0 : (chunk 0).val = 0 := rfl
  rw [View.canon_cons_of_not_mem (⟨colChunk (chunk 3), p3⟩ : View.Piece (Elt F) S256x4096 .bf16) _ (not_mem_colChunk (chunk 3) y (.inl (by omega))),
    View.canon_cons_of_not_mem (⟨colChunk (chunk 2), p2⟩ : View.Piece (Elt F) S256x4096 .bf16) _ (not_mem_colChunk (chunk 2) y (.inl (by omega))),
    View.canon_cons_of_not_mem (⟨colChunk (chunk 1), p1⟩ : View.Piece (Elt F) S256x4096 .bf16) _ (not_mem_colChunk (chunk 1) y (.inl (by omega))),
    ← emb_colChunk (chunk 0) x y h0 h1]
  exact View.canon_cons_emb (colChunk (chunk 0)) p0 _ x

/-- THE OUTPUT BLOCK AT AN INDEX: the element in row `x₀`, column `1024·j + x₁` of what the body leaves is chunk
    `j`'s payload at `(x₀, x₁)` — the weight's chunk `j` times the pooled mask spread over chunk `j`'s columns
    (the 128×1024 slice of `x3` at column offset `1024·j`), rounded to bf16. -/
theorem out0_6_apply (x0 : Vec F S256x4096 .i32) (x1 : Vec F S256x4096 .f32) (x2 : Vec F S4096x128 .bf16) (x3 : Vec F S128x4096 .bf16)
    (x4 : Vec F S256x8 .bf16) (x5 : Vec F S8x256 .bf16) :
    ∀ (j : Fin 4) (y : S256x4096.Idx) (x : S256x1024.Idx), (y (0 : Fin 2)).val = (x (0 : Fin 2)).val →
      (y (1 : Fin 2)).val = 1024 * j.val + (x (1 : Fin 2)).val →
      out0_6 x0 x1 x2 x3 x4 x5 y
        = k0_pay1 x0 x2 x5 x4 (View.ld x3 (indChunk (chunk j))) (View.ld x1 (colChunk (chunk j))) x
  | 3, y, x, h0, h1 => by unfold out0_6 chunkPiece; exact canon_chunks_at3 _ _ _ _ y x h0 h1
  | 2, y, x, h0, h1 => by unfold out0_6 chunkPiece; exact canon_chunks_at2 _ _ _ _ y x h0 h1
  | 1, y, x, h0, h1 => by unfold out0_6 chunkPiece; exact canon_chunks_at1 _ _ _ _ y x h0 h1
  | 0, y, x, h0, h1 => by unfold out0_6 chunkPiece; exact canon_chunks_at0 _ _ _ _ y x h0 h1

/-! ## Slices of the whole arrays -/

/-- Row block `tb` (256 rows, every column) of a 4096×4096 array. -/
def rowBlock {α : Type} (X : S4096x4096.Idx → α) (tb : Fin 16) : S256x4096.Idx → α :=
  fun y => X (ix2 (n0 := 4096) (n1 := 4096) ⟨256 * tb.val + (y 0).val, by have := idx2_lt0 y; have := tb.isLt; omega⟩
    ⟨(y 1).val, idx2_lt1 y⟩)

/-- Column chunk `ch` (every row, 1024 columns) of a 128×4096 array. -/
def colChunkOf {α : Type} (X : S128x4096.Idx → α) (ch : Fin 4) : S128x1024.Idx → α :=
  fun y => X (ix2 (n0 := 128) (n1 := 4096) ⟨(y 0).val, idx2_lt0 y⟩
    ⟨1024 * ch.val + (y 1).val, by have := idx2_lt1 y; have := ch.isLt; omega⟩)

/-- Row block `tb`, column chunk `ch` (256 rows, 1024 columns) of a 4096×4096 array. -/
def blockChunk {α : Type} (X : S4096x4096.Idx → α) (tb : Fin 16) (ch : Fin 4) : S256x1024.Idx → α :=
  fun y => X (ix2 (n0 := 4096) (n1 := 4096) ⟨256 * tb.val + (y 0).val, by have := idx2_lt0 y; have := tb.isLt; omega⟩
    ⟨1024 * ch.val + (y 1).val, by have := idx2_lt1 y; have := ch.isLt; omega⟩)

/-! ## The whole array -/

/-- Element `(n, k)` of the masked weight, from the six argument arrays: `a0` the mask, `a1` the weight, `a2` … `a5`
    the indicators of windows 2 … 5. -/
def maskedAt (a0 : S4096x4096.Idx → Elt F .i32) (a1 : S4096x4096.Idx → Elt F .f32) (a2 : S4096x128.Idx → Elt F .bf16)
    (a3 : S128x4096.Idx → Elt F .bf16) (a4 : S256x8.Idx → Elt F .bf16) (a5 : S8x256.Idx → Elt F .bf16) (n k : Fin 4096) : Elt F .bf16 :=
  k0_pay1 (rowBlock a0 ⟨n.val / 256, by have := n.isLt; omega⟩) a2 a5 a4 (colChunkOf a3 ⟨k.val / 1024, by have := k.isLt; omega⟩)
    (blockChunk a1 ⟨n.val / 256, by have := n.isLt; omega⟩ ⟨k.val / 1024, by have := k.isLt; omega⟩)
    (ix2 (n0 := 256) (n1 := 1024) ⟨n.val % 256, Nat.mod_lt _ (by decide)⟩ ⟨k.val % 1024, Nat.mod_lt _ (by decide)⟩)

/-- The masked weight as one function of the argument arrays. -/
def G0 (a0 : S4096x4096.Idx → Elt F .i32) (a1 : S4096x4096.Idx → Elt F .f32) (a2 : S4096x128.Idx → Elt F .bf16)
    (a3 : S128x4096.Idx → Elt F .bf16) (a4 : S256x8.Idx → Elt F .bf16) (a5 : S8x256.Idx → Elt F .bf16) : S4096x4096.Idx → Elt F .bf16 :=
  fun i => maskedAt a0 a1 a2 a3 a4 a5 (i 0) (i 1)

/-- The payload depends on its arguments only. -/
theorem pay_congr {v0 v0' : Vec F S256x4096 .i32} {v3 v3' : Vec F S4096x128 .bf16} {v7 v7' : Vec F S8x256 .bf16}
    {v15 v15' : Vec F S256x8 .bf16} {v21 v21' : Vec F S128x1024 .bf16} {v27 v27' : Vec F S256x1024 .f32} {x x' : S256x1024.Idx}
    (h0 : v0 = v0') (h3 : v3 = v3') (h7 : v7 = v7') (h15 : v15 = v15') (h21 : v21 = v21') (h27 : v27 = v27') (hx : x = x') :
    k0_pay1 v0 v3 v7 v15 v21 v27 x = k0_pay1 v0' v3' v7' v15' v21' v27' x' := by
  subst h0 h3 h7 h15 h21 h27 hx; rfl

/-- ONE ELEMENT, BY BLOCK AND CHUNK: at row `256·tb + p`, column `1024·ch + r` the element is the payload of row block
    `tb` and column chunk `ch` at `(p, r)`. -/
theorem maskedAt_block (a0 : S4096x4096.Idx → Elt F .i32) (a1 : S4096x4096.Idx → Elt F .f32) (a2 : S4096x128.Idx → Elt F .bf16)
    (a3 : S128x4096.Idx → Elt F .bf16) (a4 : S256x8.Idx → Elt F .bf16) (a5 : S8x256.Idx → Elt F .bf16)
    (tb : Fin 16) (p : Fin 256) (ch : Fin 4) (r : Fin 1024) (n k : Fin 4096)
    (hn : n.val = 256 * tb.val + p.val) (hk : k.val = 1024 * ch.val + r.val) :
    maskedAt a0 a1 a2 a3 a4 a5 n k
      = k0_pay1 (rowBlock a0 tb) a2 a5 a4 (colChunkOf a3 ch) (blockChunk a1 tb ch) (ix2 (n0 := 256) (n1 := 1024) p r) := by
  have hp := p.isLt
  have hr := r.isLt
  have e1 : (⟨n.val / 256, by have := n.isLt; omega⟩ : Fin 16) = tb := Fin.ext (by show n.val / 256 = tb.val; omega)
  have e2 : (⟨n.val % 256, Nat.mod_lt _ (by decide)⟩ : Fin 256) = p := Fin.ext (by show n.val % 256 = p.val; omega)
  have e3 : (⟨k.val / 1024, by have := k.isLt; omega⟩ : Fin 4) = ch := Fin.ext (by show k.val / 1024 = ch.val; omega)
  have e4 : (⟨k.val % 1024, Nat.mod_lt _ (by decide)⟩ : Fin 1024) = r := Fin.ext (by show k.val % 1024 = r.val; omega)
  unfold maskedAt
  rw [e1, e2, e3, e4]

/-! ## The printed index maps, decided over the grid -/

/-- The grid's points are the sixteen row blocks. -/
def pt (t : Fin cfg0.N) : Fin 16 := t.cast N_0

/-- Windows 0, 1 and 6 (mask, weight, result) sit at row block `t`, column block 0; the indicator windows 2–5 never move. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input block, read where its rectangle says -/

/-- The mask's block at point `t` is row block `t` of the mask. -/
theorem block0_eq (c : Dev nD) (t : Fin cfg0.N) :
    iblk0 V c 0 t = rowBlock (V c main_v0 : S4096x4096.Idx → Elt F .i32) (pt t) := by
  obtain ⟨e00, e01, -⟩ := index_facts t
  funext y
  show V c main_v0 (((cfg0.win 0).blk t).view.emb y) = V c main_v0 _
  refine congrArg _ (funext fun a => Fin.ext ?_)
  match a with
  | ⟨0, _⟩ => show win0_0.index t (0 : Fin 2) * 256 + 1 * (y 0).val = 256 * t.val + (y 0).val; omega
  | ⟨1, _⟩ => show win0_0.index t (1 : Fin 2) * 4096 + 1 * (y 1).val = (y 1).val; omega

/-- The weight's block at point `t` is row block `t` of the weight. -/
theorem block1_eq (c : Dev nD) (t : Fin cfg0.N) :
    iblk0 V c 1 t = rowBlock (V c main_arg2 : S4096x4096.Idx → Elt F .f32) (pt t) := by
  obtain ⟨-, -, e10, e11, -⟩ := index_facts t
  funext y
  show V c main_arg2 (((cfg0.win 1).blk t).view.emb y) = V c main_arg2 _
  refine congrArg _ (funext fun a => Fin.ext ?_)
  match a with
  | ⟨0, _⟩ => show win0_1.index t (0 : Fin 2) * 256 + 1 * (y 0).val = 256 * t.val + (y 0).val; omega
  | ⟨1, _⟩ => show win0_1.index t (1 : Fin 2) * 4096 + 1 * (y 1).val = (y 1).val; omega

/-- The indicator windows hold their whole arrays at every point. -/
theorem block2_eq (c : Dev nD) (t : Fin cfg0.N) : iblk0 V c 2 t = (V c main_v10 : S4096x128.Idx → Elt F .bf16) := by
  obtain ⟨-, -, -, -, e0, e1, -⟩ := index_facts t
  funext y
  show V c main_v10 (((cfg0.win 2).blk t).view.emb y) = V c main_v10 y
  refine congrArg _ (funext fun a => Fin.ext ?_)
  match a with
  | ⟨0, _⟩ => show win0_2.index t (0 : Fin 2) * 4096 + 1 * (y 0).val = (y 0).val; omega
  | ⟨1, _⟩ => show win0_2.index t (1 : Fin 2) * 128 + 1 * (y 1).val = (y 1).val; omega
theorem block3_eq (c : Dev nD) (t : Fin cfg0.N) : iblk0 V c 3 t = (V c main_v11 : S128x4096.Idx → Elt F .bf16) := by
  obtain ⟨-, -, -, -, -, -, e0, e1, -⟩ := index_facts t
  funext y
  show V c main_v11 (((cfg0.win 3).blk t).view.emb y) = V c main_v11 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 4096 + 1 * (y 1).val = (y 1).val; omega
theorem block4_eq (c : Dev nD) (t : Fin cfg0.N) : iblk0 V c 4 t = (V c main_v20 : S256x8.Idx → Elt F .bf16) := by
  obtain ⟨-, -, -, -, -, -, -, -, e0, e1, -⟩ := index_facts t
  funext y
  show V c main_v20 (((cfg0.win 4).blk t).view.emb y) = V c main_v20 y
  refine congrArg _ (funext fun a => Fin.ext ?_)
  match a with
  | ⟨0, _⟩ => show win0_4.index t (0 : Fin 2) * 256 + 1 * (y 0).val = (y 0).val; omega
  | ⟨1, _⟩ => show win0_4.index t (1 : Fin 2) * 8 + 1 * (y 1).val = (y 1).val; omega
theorem block5_eq (c : Dev nD) (t : Fin cfg0.N) : iblk0 V c 5 t = (V c main_v21 : S8x256.Idx → Elt F .bf16) := by
  obtain ⟨-, -, -, -, -, -, -, -, -, -, e0, e1, -⟩ := index_facts t
  funext y
  show V c main_v21 (((cfg0.win 5).blk t).view.emb y) = V c main_v21 y
  refine congrArg _ (funext fun a => Fin.ext ?_)
  match a with
  | ⟨0, _⟩ => show win0_5.index t (0 : Fin 2) * 8 + 1 * (y 0).val = (y 0).val; omega
  | ⟨1, _⟩ => show win0_5.index t (1 : Fin 2) * 256 + 1 * (y 1).val = (y 1).val; omega

/-- Column chunk `j` of a row block is that block and chunk of the array. -/
theorem ld_rowBlock_colChunk {α : Type} (X : S4096x4096.Idx → α) (tb : Fin 16) (j : Fin 4) :
    (fun x => rowBlock X tb ((colChunk (chunk j)).emb x)) = blockChunk X tb j := by
  funext x
  rw [emb_colChunk (chunk j) x (ix2 (n0 := 256) (n1 := 4096) ⟨(x 0).val, idx2_lt0 x⟩
    ⟨1024 * j.val + (x 1).val, by have := idx2_lt1 x; have := j.isLt; omega⟩) rfl rfl]
  rfl

/-- Where element `x` of the indicator's column chunk `k` sits: the same row, column `1024·k + x₁`. -/
theorem emb_indChunk (k : Fin k0_t1_loop.trips) (x : S128x1024.Idx) (y : S128x4096.Idx)
    (h0 : (y (0 : Fin 2)).val = (x (0 : Fin 2)).val) (h1 : (y (1 : Fin 2)).val = 1024 * k.val + (x (1 : Fin 2)).val) :
    (indChunk k).emb x = y := by
  funext a; apply Fin.ext
  show k0_off1 k a + 1 * (x a).val = (y a).val
  rw [k0_off1_eq, Nat.one_mul]
  revert a
  exact Fin.forall_fin_two.mpr ⟨by show 0 + (x (0 : Fin 2)).val = (y (0 : Fin 2)).val; omega,
    by show 1024 * k.val + (x (1 : Fin 2)).val = (y (1 : Fin 2)).val; omega⟩

/-- Column chunk `j` of the 128×4096 indicator, as the body loads it. -/
theorem ld_indChunk {α : Type} (X : S128x4096.Idx → α) (j : Fin 4) :
    (fun x => X ((indChunk (chunk j)).emb x)) = colChunkOf X j := by
  funext x
  rw [emb_indChunk (chunk j) x (ix2 (n0 := 128) (n1 := 4096) ⟨(x 0).val, idx2_lt0 x⟩
    ⟨1024 * j.val + (x 1).val, by have := idx2_lt1 x; have := j.isLt; omega⟩) rfl rfl]
  rfl

/-! ## What each point writes back, and the array after the region -/

/-- WHAT POINT `t` WRITES BACK is block `t` of the masked weight of the arrays as the region finds them. -/
theorem flushed0_eq (c : Dev nD) (t : Fin cfg0.N) :
    (dat0 V c).flushed 6 t = ((cfg0.win 6).blk t).view.read (Elt F) (G0 (V c main_v0) (V c main_arg2) (V c main_v10) (V c main_v11) (V c main_v20) (V c main_v21)) := by
  show (cfg0.win 6).cut (grid0.coords t) ((dat0 V c).after 6 t) = _
  rw [after0_6, block0_eq, block1_eq, block2_eq, block3_eq, block4_eq, block5_eq]
  obtain ⟨-, -, -, -, -, -, -, -, -, -, -, -, e60, e61⟩ := index_facts t
  funext j
  have hj0 := idx2_lt0 j
  have hj1 := idx2_lt1 j
  show out0_6 _ _ _ _ _ _ j = maskedAt _ _ _ _ _ _ ((((cfg0.win 6).blk t).view.emb j) 0) ((((cfg0.win 6).blk t).view.emb j) 1)
  refine (out0_6_apply _ _ _ _ _ _ ⟨(j 1).val / 1024, by omega⟩ j
    (ix2 (n0 := 256) (n1 := 1024) ⟨(j 0).val, hj0⟩ ⟨(j 1).val % 1024, Nat.mod_lt _ (by decide)⟩) rfl (Nat.div_add_mod _ _).symm).trans ?_
  refine (pay_congr rfl rfl rfl rfl (ld_indChunk _ _) (ld_rowBlock_colChunk _ _ _) rfl).trans ?_
  refine (maskedAt_block _ _ _ _ _ _ (pt t) ⟨(j 0).val, hj0⟩ ⟨(j 1).val / 1024, by omega⟩ ⟨(j 1).val % 1024, Nat.mod_lt _ (by decide)⟩ _ _ ?_ ?_).symm
  · show win0_6.index t (0 : Fin 2) * 256 + 1 * (j 0).val = 256 * t.val + (j 0).val; omega
  · show win0_6.index t (1 : Fin 2) * 4096 + 1 * (j 1).val = 1024 * ((j 1).val / 1024) + (j 1).val % 1024; omega

/-- An index of the array is in point `t`'s block iff each coordinate is in the block's range on its axis. -/
theorem mem_block6 (t : Fin cfg0.N) (i : S4096x4096.Idx) :
    i ∈ ((cfg0.win 6).blk t).view.set ↔ ∀ a : Fin 2, win0_6.index t a * S256x4096.size a ≤ (i a).val
      ∧ (i a).val < win0_6.index t a * S256x4096.size a + S256x4096.size a := by
  show i ∈ ((View.whole main_v22).slice (win0_6.rect t)).set ↔ _
  rw [View.set_slice_whole, Rect.mem_set_unit]
  exact Iff.rfl

/-- Every index is in some point's block: row `n` lies in row block `n / 256`, and every point writes back. -/
theorem covered0 (i : S4096x4096.Idx) : ∃ t : Fin cfg0.N, (cfg0.win 6).flush t = true ∧ i ∈ ((cfg0.win 6).blk t).view.set := by
  have hi0 := idx2_lt0 i
  have hi1 := idx2_lt1 i
  have ht : ((⟨(i 0).val / 256, by omega⟩ : Fin 16).cast N_0.symm : Fin cfg0.N).val = (i 0).val / 256 := rfl
  obtain ⟨-, -, -, -, -, -, -, -, -, -, -, -, e60, e61⟩ := index_facts ((⟨(i 0).val / 256, by omega⟩ : Fin 16).cast N_0.symm)
  refine ⟨_, flush0_6 ((⟨(i 0).val / 256, by omega⟩ : Fin 16).cast N_0.symm), ?_⟩
  rw [mem_block6]
  intro a
  match a with
  | ⟨0, _⟩ =>
    show win0_6.index _ (0 : Fin 2) * 256 ≤ (i 0).val ∧ (i 0).val < win0_6.index _ (0 : Fin 2) * 256 + 256
    omega
  | ⟨1, _⟩ =>
    show win0_6.index _ (1 : Fin 2) * 4096 ≤ (i 1).val ∧ (i 1).val < win0_6.index _ (1 : Fin 2) * 4096 + 4096
    omega

/-- THE ARRAY after the region: the masked weight of the arrays as the region finds them. -/
theorem arrAt0_eq (c : Dev nD) : (dat0 V c).arrAt 6 cfg0.N = (G0 (V c main_v0) (V c main_arg2) (V c main_v10) (V c main_v11) (V c main_v20) (V c main_v21)) :=
  (dat0 V c).arrAt_eq_of_cover 6 (G0 (V c main_v0) (V c main_arg2) (V c main_v10) (V c main_v11) (V c main_v20) (V c main_v21)) (fun t _ => flushed0_eq V c t) covered0

/-- THE ARRAY AT AN INDEX: element `(n, k)` is the payload of row block `n / 256` and column chunk `k / 1024` at
    `(n % 256, k % 1024)`. -/
theorem arrAt0_apply (c : Dev nD) (n k : Fin 4096) :
    (dat0 V c).arrAt 6 cfg0.N (ix2 (n0 := 4096) (n1 := 4096) n k)
      = k0_pay1 (rowBlock (V c main_v0 : S4096x4096.Idx → Elt F .i32) ⟨n.val / 256, by have := n.isLt; omega⟩)
          (V c main_v10) (V c main_v21) (V c main_v20)
          (colChunkOf (V c main_v11 : S128x4096.Idx → Elt F .bf16) ⟨k.val / 1024, by have := k.isLt; omega⟩)
          (blockChunk (V c main_arg2 : S4096x4096.Idx → Elt F .f32) ⟨n.val / 256, by have := n.isLt; omega⟩ ⟨k.val / 1024, by have := k.isLt; omega⟩)
          (ix2 (n0 := 256) (n1 := 1024) ⟨n.val % 256, Nat.mod_lt _ (by decide)⟩ ⟨k.val % 1024, Nat.mod_lt _ (by decide)⟩) := by
  rw [arrAt0_eq]
  rfl

end Cert.KernelIdeal.Hand

end
-- ==== Proof.Spec.lean ====
/-
  The function both programs compute, over the extended reals.

  The mask is cut into 32 × 32 tiles; a tile is ACTIVE when one of its entries is the word 1. Every weight
  entry is multiplied by the indicator of its tile, and the result is a plain matrix product against the data,
  plus the bias:

      G (b, s, n) = (∑ k, data (b, s, k) · (weight (n, k) · gate (n, k))) + bias n,
      gate (n, k) = 1 if the tile (n / 32, k / 32) of the mask holds a 1, else 0.

  Nothing here mentions either program.
-/
import Idealize.ShloMosaic.PureOps.Ideal
import Idealize.ShloMosaic.Lib.ValueIdx

noncomputable section

namespace Cert.Spec

open Idealize.ShloMosaic Idealize.ShloMosaic.ValueIdx

abbrev SData : Shape := ⟨3, ![2, 2048, 4096]⟩
abbrev SMat : Shape := ⟨2, ![4096, 4096]⟩
abbrev SVec : Shape := ⟨1, ![4096]⟩

/-- Row (or column) `32 * b + r` of the matrix: entry `r` of tile `b`. -/
def inTile (b : Fin 128) (r : Fin 32) : Fin 4096 := ⟨32 * b.val + r.val, by have := b.isLt; have := r.isLt; omega⟩

/-- The tile an index lies in. -/
def tileOf (n : Fin 4096) : Fin 128 := ⟨n.val / 32, by have := n.isLt; omega⟩

/-- Tile `(nb, kb)` of the mask holds the word 1 somewhere. -/
def Active (mask : SMat.Idx → BitVec 32) (nb kb : Fin 128) : Prop :=
  ∃ (r c : Fin 32), mask (ix2 (inTile nb r) (inTile kb c)) = 1#32

open Classical in
/-- The indicator of the active tiles, as an extended real. -/
def gate (mask : SMat.Idx → BitVec 32) (nb kb : Fin 128) : EReal :=
  if Active mask nb kb then 1 else 0

/-- The masked weight: an entry survives when its tile is active. -/
def maskedWeight (mask : SMat.Idx → BitVec 32) (weight : SMat.Idx → EReal) (n k : Fin 4096) : EReal :=
  weight (ix2 n k) * gate mask (tileOf n) (tileOf k)

/-- The result: the data against the masked weight, contracted over `k`, plus the bias. -/
def G (data : SData.Idx → EReal) (mask : SMat.Idx → BitVec 32) (weight : SMat.Idx → EReal) (bias : SVec.Idx → EReal) :
    SData.Idx → EReal :=
  fun i => (∑ k : Fin 4096, data (ix3 (i 0) (i 1) k) * maskedWeight mask weight (i 2) k) + bias (ix1 (i 2))

/-- Every mask word is 0 or 1: the domain on which the two programs' tile tests agree. -/
def Binary (mask : SMat.Idx → BitVec 32) : Prop := ∀ i, mask i = 0#32 ∨ mask i = 1#32

end Cert.Spec

end
-- ==== Proof.KI.HostValues.lean ====
/-
  The host operations before the two kernels, read as values.

  Before the first kernel the program clips the mask to [0, 1], views the data as a 4096 × 4096 matrix, and builds four
  0/1 indicator matrices: row (or column) `k` of a 4096-long axis against its tile `k / 32` of 128, and row `r` of a
  256-long axis against its tile `r / 32` of 8, each with its transpose. The tile number is computed by a floor
  division spelt with a truncating signed division, the two signs and the remainder; on a non-negative dividend and
  the divisor 32 the signs agree or the remainder is zero, so the correction is never taken and the result is the
  plain quotient. On a mask whose words are 0 or 1 the clip is the identity.
-/
import proofs.«142192_j60155311948051_2_alg».proof.Proof.Gen.KernelIdeal.Regions
import proofs.«142192_j60155311948051_2_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

/-! ## Words -/

/-- The sign word of a 32-bit word: 0, −1 or 1. -/
def sgn (x : BitVec 32) : BitVec 32 := if x = 0 then 0 else if x.msb then -1 else 1

/-- The floor division of the program, on one word: the truncating quotient, less one when the signs differ and the
    remainder is not zero. -/
def fdWord (x d : BitVec 32) : BitVec 32 :=
  Scalar.select (IntOp.andi (IntOp.cmpi .ne (sgn x) (sgn d)) (IntOp.cmpi .ne (IntOp.remsi .host x d) 0#32))
    (IntOp.subi (IntOp.divsi .host x d) 1#32) (IntOp.divsi .host x d)

/-- On a dividend `0 ≤ n < 2³¹` and the divisor 32 the floor division is `n / 32`. -/
theorem fdWord_ofNat (n : Nat) (hn : n < 2 ^ 31) : fdWord (BitVec.ofNat 32 n) 32#32 = BitVec.ofNat 32 (n / 32) := by
  have hx : (BitVec.ofNat 32 n).toNat = n := by rw [BitVec.toNat_ofNat]; omega
  have hmsb : (BitVec.ofNat 32 n).msb = false := BitVec.msb_eq_false_iff_two_mul_lt.2 (by rw [hx]; omega)
  have hcorner : ¬ IntOp.SDivCorner (BitVec.ofNat 32 n) 32#32 := by
    rintro (h | ⟨_, h⟩) <;> exact absurd h (by decide)
  have hq : IntOp.divsi .host (BitVec.ofNat 32 n) 32#32 = BitVec.ofNat 32 (n / 32) := by
    unfold IntOp.divsi
    rw [if_neg hcorner, BitVec.sdiv_eq, hmsb, show (32#32 : BitVec 32).msb = false by decide]
    apply BitVec.eq_of_toNat_eq
    show (BitVec.ofNat 32 n / 32#32).toNat = _
    rw [BitVec.toNat_udiv, hx, BitVec.toNat_ofNat]
    show n / 32 = n / 32 % 2 ^ 32
    omega
  unfold fdWord
  rw [hq]
  by_cases h0 : n = 0
  · subst h0; decide
  · have hne : BitVec.ofNat 32 n ≠ 0 := fun h => h0 (by rw [← hx, h]; rfl)
    have hs : sgn (BitVec.ofNat 32 n) = 1 := by unfold sgn; rw [if_neg hne, hmsb]; rfl
    rw [hs, show sgn 32#32 = 1 by decide, show IntOp.cmpi .ne (1 : BitVec 32) 1 = 0#1 by decide]
    show Scalar.select (0#1 &&& _) _ _ = _
    rw [BitVec.zero_and, select_zero]

/-- Equality of two words written as naturals below 2³² is equality of the naturals. -/
theorem cmpi_eq_ofNat (a b : Nat) (ha : a < 2 ^ 32) (hb : b < 2 ^ 32) :
    IntOp.cmpi .eq (BitVec.ofNat 32 a) (BitVec.ofNat 32 b) = if a = b then 1#1 else 0#1 := by
  show BitVec.ofBool (BitVec.ofNat 32 a == BitVec.ofNat 32 b) = _
  by_cases h : a = b
  · subst h; rw [if_pos rfl, beq_self_eq_true]; rfl
  · have hne : BitVec.ofNat 32 a ≠ BitVec.ofNat 32 b := fun e => h (by
      have := congrArg BitVec.toNat e
      rw [BitVec.toNat_ofNat, BitVec.toNat_ofNat] at this
      omega)
    rw [if_neg h, beq_eq_false_iff_ne.2 hne]; rfl

/-- The clip to [0, 1] fixes the words 0 and 1. -/
theorem clip_word (x : BitVec 32) (hx : x = 0#32 ∨ x = 1#32) : IntOp.minsi 1#32 (IntOp.maxsi 0#32 x) = x := by
  rcases hx with h | h <;> subst h <;> decide

/-- The bit 1 converts to the real 1 and the bit 0 to the real 0, at either float type. -/
theorem uitofp_bit (φ : FTy) (p : Prop) [Decidable p] :
    (FloatOps.uitofp φ (if p then 1#1 else 0#1) : Ideal φ) = if p then (1 : EReal) else 0 := by
  by_cases h : p
  · rw [if_pos h, if_pos h]; show (((1#1 : BitVec 1).toNat : ℝ) : EReal) = 1; simp
  · rw [if_neg h, if_neg h]; show (((0#1 : BitVec 1).toNat : ℝ) : EReal) = 0; simp

variable (m : (ℓ : Loc nD τ sig) → Buf (Elt Ideal) ℓ) (c : Dev nD)

/-! ## The arguments no stretch writes -/

theorem hv_w : V7 m c main_arg2 = m ((c : Thread nD τ).loc main_arg2) :=
  (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl

theorem hv_b : V7 m c main_arg3 = m ((c : Thread nD τ).loc main_arg3) :=
  (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl

/-! ## The clipped mask -/

theorem e_c : (V1 m c main_c : S_.Idx → BitVec 32) = constantI S_ 32 0#32 := by
  show StableHlo.after hostOps0 _ (Proc.devRef .tc main_c) = _
  after_results

theorem e_c_0 : (V1 m c main_c_0 : S_.Idx → BitVec 32) = constantI S_ 32 1#32 := by
  show StableHlo.after hostOps0 _ (Proc.devRef .tc main_c_0) = _
  after_results

/-- The clip stretch, from any contents whose two constants are 0 and 1: the mask's word between them. -/
theorem clip_apply (W : Valuation τ sig (Elt Ideal))
    (h0 : (W (Proc.devRef .tc main_c) : S_.Idx → BitVec 32) = constantI S_ 32 0#32)
    (h1 : (W (Proc.devRef .tc main_c_0) : S_.Idx → BitVec 32) = constantI S_ 32 1#32) (i : S4096x4096.Idx) :
    (StableHlo.after hostOps0_1 W (Proc.devRef .tc main_v0) : S4096x4096.Idx → BitVec 32) i
      = IntOp.minsi 1#32 (IntOp.maxsi 0#32 ((W (Proc.devRef .tc main_arg1) : S4096x4096.Idx → BitVec 32) i)) := by
  after_results
  rw [h0, h1]
  rfl

theorem hv0 (hb : ∀ i : S4096x4096.Idx, (m ((c : Thread nD τ).loc main_arg1) : S4096x4096.Idx → BitVec 32) i = 0#32
      ∨ (m ((c : Thread nD τ).loc main_arg1) : S4096x4096.Idx → BitVec 32) i = 1#32) :
    V7 m c main_v0 = m ((c : Thread nD τ).loc main_arg1) := by
  funext i
  rw [V7_of m c main_v0 (by decide), V6_of m c main_v0 (by decide), V5_of m c main_v0 (by decide),
    V4_of m c main_v0 (by decide), V3_of m c main_v0 (by decide)]
  refine (clip_apply (V1 m c) (e_c m c) (e_c_0 m c) i).trans ?_
  rw [V1_of m c main_arg1 (by decide)]
  exact clip_word _ (hb i)

/-! ## The data as a matrix -/

theorem e_v1 : (V3 m c main_v1 : S4096x4096.Idx → EReal)
    = shapeCast S4096x4096 (m ((c : Thread nD τ).loc main_arg0) : S2x2048x4096.Idx → EReal) shapeCasts_S2x2048x4096_S4096x4096 := by
  show StableHlo.after hostOps0_2 _ (Proc.devRef .tc main_v1) = _
  after_results
  rfl

theorem hv1 (r k : Fin 4096) :
    (V7 m c main_v1 : S4096x4096.Idx → EReal) (ix2 r k)
      = (m ((c : Thread nD τ).loc main_arg0) : S2x2048x4096.Idx → EReal)
          (ix3 (⟨r.val / 2048, by have := r.isLt; omega⟩ : Fin 2) (⟨r.val % 2048, by omega⟩ : Fin 2048) k) := by
  rw [V7_of m c main_v1 (by decide), V6_of m c main_v1 (by decide), V5_of m c main_v1 (by decide),
    V4_of m c main_v1 (by decide), e_v1]
  refine shapeCast_apply (s := S2x2048x4096) (t := S4096x4096) _ _ _ _ ?_
  rw [Shape.rowMajor_val_three, Shape.rowMajor_val_two]
  show (r.val / 2048 * 2048 + r.val % 2048) * 4096 + k.val = r.val * 4096 + k.val
  omega

/-! ## The tile number of each of 4096 rows -/

theorem e_v2 : (V3 m c main_v2 : S4096.Idx → BitVec 32) = iotaInDim S4096 32 0 := by
  show StableHlo.after hostOps0_2 _ (Proc.devRef .tc main_v2) = _
  after_results

theorem e_c_1 : (V3 m c main_c_1 : S_.Idx → BitVec 32) = constantI S_ 32 32#32 := by
  show StableHlo.after hostOps0_2 _ (Proc.devRef .tc main_c_1) = _
  after_results

set_option maxHeartbeats 1000000 in
/-- The floor-division stretch over 4096 rows, from any contents holding the row numbers and the divisor 32. -/
theorem fd4096 (W : Valuation τ sig (Elt Ideal))
    (hx : (W (Proc.devRef .tc main_v2) : S4096.Idx → BitVec 32) = iotaInDim S4096 32 0)
    (hd : (W (Proc.devRef .tc main_c_1) : S_.Idx → BitVec 32) = constantI S_ 32 32#32) (i : S4096.Idx) :
    (StableHlo.after hostOps0_3 W (Proc.devRef .tc main_v3) : S4096.Idx → BitVec 32) i
      = BitVec.ofNat 32 ((i 0).val / 32) := by
  after_results
  rw [hx, hd]
  simp only [TRef.toBuf, TRef.ofBuf, cast_cast, cast_eq]
  show fdWord (BitVec.ofNat 32 (i 0).val) 32#32 = _
  exact fdWord_ofNat _ (by have : (i 0).val < 4096 := (i 0).isLt; omega)

theorem e_v3 : (V4 m c main_v3 : S4096.Idx → BitVec 32) = fun i => BitVec.ofNat 32 ((i 0).val / 32) :=
  funext fun i => fd4096 (V3 m c) (e_v2 m c) (e_c_1 m c) i

/-! ## A vector against the column numbers: the indicator matrix -/

section Indicator
variable {α : Type}

/-- A vector broadcast down the columns of an `n × p` matrix: entry `(k, j)` is the vector's entry `k`. -/
theorem bcast_col_apply {n p : Nat} (hn : n ≠ 1) (x : (⟨1, ![n]⟩ : Shape).Idx → α)
    (h0 : (⟨1, ![n]⟩ : Shape).BroadcastsInDim ⟨2, ![n, 1]⟩ ![0])
    (h1 : (⟨2, ![n, 1]⟩ : Shape).BroadcastsInDim ⟨2, ![n, p]⟩ ![0, 1]) (k : Fin n) (j : Fin p) :
    broadcastInDim ⟨2, ![n, p]⟩ ![0, 1] h1 (broadcastInDim ⟨2, ![n, 1]⟩ ![0] h0 x) (ix2 k j) = x (ix1 k) := by
  rw [broadcastInDim_apply _ h1 _ (ix2 k j) (ix2 k (⟨0, Nat.one_pos⟩ : Fin 1)) (fun a => match a with
      | ⟨0, _⟩ => by show k.val = if n = 1 then 0 else k.val; rw [if_neg hn]
      | ⟨1, _⟩ => by show 0 = if (1 : Nat) = 1 then 0 else j.val; rw [if_pos rfl]),
    broadcastInDim_apply _ h0 _ (ix2 k (⟨0, Nat.one_pos⟩ : Fin 1)) (ix1 k) (fun a => match a with
      | ⟨0, _⟩ => by show k.val = if n = 1 then 0 else k.val; rw [if_neg hn])]

/-- A vector broadcast along the rows of an `n × p` matrix: entry `(k, j)` is the vector's entry `j`. -/
theorem bcast_row_apply {n p : Nat} (hp : p ≠ 1) (x : (⟨1, ![p]⟩ : Shape).Idx → α)
    (h0 : (⟨1, ![p]⟩ : Shape).BroadcastsInDim ⟨2, ![1, p]⟩ ![1])
    (h1 : (⟨2, ![1, p]⟩ : Shape).BroadcastsInDim ⟨2, ![n, p]⟩ ![0, 1]) (k : Fin n) (j : Fin p) :
    broadcastInDim ⟨2, ![n, p]⟩ ![0, 1] h1 (broadcastInDim ⟨2, ![1, p]⟩ ![1] h0 x) (ix2 k j) = x (ix1 j) := by
  rw [broadcastInDim_apply _ h1 _ (ix2 k j) (ix2 (⟨0, Nat.one_pos⟩ : Fin 1) j) (fun a => match a with
      | ⟨0, _⟩ => by show 0 = if (1 : Nat) = 1 then 0 else k.val; rw [if_pos rfl]
      | ⟨1, _⟩ => by show j.val = if p = 1 then 0 else j.val; rw [if_neg hp]),
    broadcastInDim_apply _ h0 _ (ix2 (⟨0, Nat.one_pos⟩ : Fin 1) j) (ix1 j) (fun a => match a with
      | ⟨0, _⟩ => by show j.val = if p = 1 then 0 else j.val; rw [if_neg hp])]

end Indicator

/-- The indicator matrix of a vector of small naturals `q k` against the column numbers: entry `(k, j)` converts
    the bit "`q k = j`" to a float, so it is 1 where `q k = j` and 0 elsewhere. -/
theorem indicator_apply {n p : Nat} (hn : n ≠ 1) (hp : p ≠ 1) (hp32 : p ≤ 2 ^ 32) (q : Fin n → Nat) (hq : ∀ k, q k < 2 ^ 32)
    (h0 : (⟨1, ![n]⟩ : Shape).BroadcastsInDim ⟨2, ![n, 1]⟩ ![0])
    (h1 : (⟨2, ![n, 1]⟩ : Shape).BroadcastsInDim ⟨2, ![n, p]⟩ ![0, 1])
    (h0' : (⟨1, ![p]⟩ : Shape).BroadcastsInDim ⟨2, ![1, p]⟩ ![1])
    (h1' : (⟨2, ![1, p]⟩ : Shape).BroadcastsInDim ⟨2, ![n, p]⟩ ![0, 1]) (k : Fin n) (j : Fin p) :
    (uitofp .bf16 (cmpi .eq
        (broadcastInDim ⟨2, ![n, p]⟩ ![0, 1] h1 (broadcastInDim ⟨2, ![n, 1]⟩ ![0] h0
          (fun i : (⟨1, ![n]⟩ : Shape).Idx => BitVec.ofNat 32 (q (i 0)))))
        (broadcastInDim ⟨2, ![n, p]⟩ ![0, 1] h1' (broadcastInDim ⟨2, ![1, p]⟩ ![1] h0'
          (iotaInDim ⟨1, ![p]⟩ 32 0))))
      : FVec Ideal ⟨2, ![n, p]⟩ .bf16) (ix2 k j) = if q k = j.val then (1 : EReal) else 0 := by
  show FloatOps.uitofp .bf16 (IntOp.cmpi .eq
      (broadcastInDim ⟨2, ![n, p]⟩ ![0, 1] h1 (broadcastInDim ⟨2, ![n, 1]⟩ ![0] h0
        (fun i : (⟨1, ![n]⟩ : Shape).Idx => BitVec.ofNat 32 (q (i 0)))) (ix2 k j))
      (broadcastInDim ⟨2, ![n, p]⟩ ![0, 1] h1' (broadcastInDim ⟨2, ![1, p]⟩ ![1] h0' (iotaInDim ⟨1, ![p]⟩ 32 0)) (ix2 k j))) = _
  rw [bcast_col_apply hn, bcast_row_apply hp]
  show FloatOps.uitofp .bf16 (IntOp.cmpi .eq (BitVec.ofNat 32 (q k)) (BitVec.ofNat 32 j.val)) = _
  rw [cmpi_eq_ofNat _ _ (hq k) (by have := j.isLt; omega), uitofp_bit]

/-! ## The 4096 × 128 indicator and its transpose -/

/-- The indicator stretch, from any contents holding the rows' tile numbers. -/
theorem ind4096 (W : Valuation τ sig (Elt Ideal))
    (h3 : (W (Proc.devRef .tc main_v3) : S4096.Idx → BitVec 32) = fun i => BitVec.ofNat 32 ((i 0).val / 32))
    (k : Fin 4096) (kb : Fin 128) :
    (StableHlo.after hostOps0_4 W (Proc.devRef .tc main_v10) : S4096x128.Idx → EReal) (ix2 k kb)
      = if k.val / 32 = kb.val then (1 : EReal) else 0 := by
  after_results
  rw [h3]
  exact indicator_apply (n := 4096) (p := 128) (by decide) (by decide) (by decide) (fun k => k.val / 32)
    (fun k => by have := k.isLt; omega) _ _ _ _ k kb

/-- The same stretch's transposed indicator. -/
theorem ind4096T (W : Valuation τ sig (Elt Ideal))
    (h3 : (W (Proc.devRef .tc main_v3) : S4096.Idx → BitVec 32) = fun i => BitVec.ofNat 32 ((i 0).val / 32))
    (kb : Fin 128) (k : Fin 4096) :
    (StableHlo.after hostOps0_4 W (Proc.devRef .tc main_v11) : S128x4096.Idx → EReal) (ix2 kb k)
      = if k.val / 32 = kb.val then (1 : EReal) else 0 := by
  after_results
  rw [h3]
  refine (transpose_ix2_apply _ _ kb k).trans ?_
  exact indicator_apply (n := 4096) (p := 128) (by decide) (by decide) (by decide) (fun k => k.val / 32)
    (fun k => by have := k.isLt; omega) _ _ _ _ k kb

theorem hv10 (k : Fin 4096) (kb : Fin 128) :
    (V7 m c main_v10 : S4096x128.Idx → EReal) (ix2 k kb) = if k.val / 32 = kb.val then (1 : EReal) else 0 := by
  rw [V7_of m c main_v10 (by decide), V6_of m c main_v10 (by decide)]
  exact ind4096 (V4 m c) (e_v3 m c) k kb

theorem hv11 (kb : Fin 128) (k : Fin 4096) :
    (V7 m c main_v11 : S128x4096.Idx → EReal) (ix2 kb k) = if k.val / 32 = kb.val then (1 : EReal) else 0 := by
  rw [V7_of m c main_v11 (by decide), V6_of m c main_v11 (by decide)]
  exact ind4096T (V4 m c) (e_v3 m c) kb k

/-! ## The tile number of each of 256 rows, the 256 × 8 indicator and its transpose -/

theorem e_v12 : (V5 m c main_v12 : S256.Idx → BitVec 32) = iotaInDim S256 32 0 := by
  show StableHlo.after hostOps0_4 _ (Proc.devRef .tc main_v12) = _
  after_results

theorem e_c_2 : (V5 m c main_c_2 : S_.Idx → BitVec 32) = constantI S_ 32 32#32 := by
  show StableHlo.after hostOps0_4 _ (Proc.devRef .tc main_c_2) = _
  after_results

set_option maxHeartbeats 1000000 in
/-- The floor-division stretch over 256 rows, from any contents holding the row numbers and the divisor 32. -/
theorem fd256 (W : Valuation τ sig (Elt Ideal))
    (hx : (W (Proc.devRef .tc main_v12) : S256.Idx → BitVec 32) = iotaInDim S256 32 0)
    (hd : (W (Proc.devRef .tc main_c_2) : S_.Idx → BitVec 32) = constantI S_ 32 32#32) (i : S256.Idx) :
    (StableHlo.after hostOps0_5 W (Proc.devRef .tc main_v13) : S256.Idx → BitVec 32) i
      = BitVec.ofNat 32 ((i 0).val / 32) := by
  after_results
  rw [hx, hd]
  simp only [TRef.toBuf, TRef.ofBuf, cast_cast, cast_eq]
  show fdWord (BitVec.ofNat 32 (i 0).val) 32#32 = _
  exact fdWord_ofNat _ (by have : (i 0).val < 256 := (i 0).isLt; omega)

theorem e_v13 : (V6 m c main_v13 : S256.Idx → BitVec 32) = fun i => BitVec.ofNat 32 ((i 0).val / 32) :=
  funext fun i => fd256 (V5 m c) (e_v12 m c) (e_c_2 m c) i

/-- The indicator stretch over 256 rows, from any contents holding the rows' tile numbers. -/
theorem ind256 (W : Valuation τ sig (Elt Ideal))
    (h13 : (W (Proc.devRef .tc main_v13) : S256.Idx → BitVec 32) = fun i => BitVec.ofNat 32 ((i 0).val / 32))
    (r : Fin 256) (nb : Fin 8) :
    (StableHlo.after hostOps0_6 W (Proc.devRef .tc main_v20) : S256x8.Idx → EReal) (ix2 r nb)
      = if r.val / 32 = nb.val then (1 : EReal) else 0 := by
  after_results
  rw [h13]
  exact indicator_apply (n := 256) (p := 8) (by decide) (by decide) (by decide) (fun r => r.val / 32)
    (fun r => by have := r.isLt; omega) _ _ _ _ r nb

/-- The same stretch's transposed indicator. -/
theorem ind256T (W : Valuation τ sig (Elt Ideal))
    (h13 : (W (Proc.devRef .tc main_v13) : S256.Idx → BitVec 32) = fun i => BitVec.ofNat 32 ((i 0).val / 32))
    (nb : Fin 8) (r : Fin 256) :
    (StableHlo.after hostOps0_6 W (Proc.devRef .tc main_v21) : S8x256.Idx → EReal) (ix2 nb r)
      = if r.val / 32 = nb.val then (1 : EReal) else 0 := by
  after_results
  rw [h13]
  refine (transpose_ix2_apply _ _ nb r).trans ?_
  exact indicator_apply (n := 256) (p := 8) (by decide) (by decide) (by decide) (fun r => r.val / 32)
    (fun r => by have := r.isLt; omega) _ _ _ _ r nb

theorem hv20 (r : Fin 256) (nb : Fin 8) :
    (V7 m c main_v20 : S256x8.Idx → EReal) (ix2 r nb) = if r.val / 32 = nb.val then (1 : EReal) else 0 :=
  ind256 (V6 m c) (e_v13 m c) r nb

theorem hv21 (nb : Fin 8) (r : Fin 256) :
    (V7 m c main_v21 : S8x256.Idx → EReal) (ix2 nb r) = if r.val / 32 = nb.val then (1 : EReal) else 0 :=
  ind256T (V6 m c) (e_v13 m c) nb r

end Cert.KernelIdeal.Hand

end
-- ==== Proof.KI.Matmuls.lean ====
/-
  The four small matrix products of the masking kernel, each read at an output index as a plain sum over its one
  contracted axis: row p of the left factor against column q of the right one.
-/
import proofs.«142192_j60155311948051_2_alg».proof.Proof.Gen.KernelIdeal
import proofs.«142192_j60155311948051_2_alg».proof.Proof.LibMatmulSum
import Idealize.ShloMosaic.Lib.ValueIdx
import Idealize.ShloMosaic.PureOps.Ideal.Laws

noncomputable section

namespace Cert.KernelIdeal.Hand

open Cert.KernelIdeal Idealize.ShloMosaic Idealize.ShloMosaic.ValueIdx

theorem pool_cols_apply_l0 (j : S256x128.Idx) (κ : dot_S256x4096_S4096x128_S256x128_1_0_0_1_n_n.contr.Idx) : (dot_S256x4096_S4096x128_S256x128_1_0_0_1_n_n.lhsIdx j κ 0).val = (j 0).val := by
  unfold DotDims.lhsIdx
  rw [dif_neg (show ¬(0 : Fin S256x4096.rank) ∈ dot_S256x4096_S4096x128_S256x128_1_0_0_1_n_n.lhsBatch by decide), dif_pos (show (0 : Fin S256x4096.rank) ∈ dot_S256x4096_S4096x128_S256x128_1_0_0_1_n_n.lhsNonContracting by decide)]
  rfl
theorem pool_cols_apply_l1 (j : S256x128.Idx) (κ : dot_S256x4096_S4096x128_S256x128_1_0_0_1_n_n.contr.Idx) : (dot_S256x4096_S4096x128_S256x128_1_0_0_1_n_n.lhsIdx j κ 1).val = (κ ⟨0, by decide⟩).val :=
  dot_S256x4096_S4096x128_S256x128_1_0_0_1_n_n.lhsIdx_val_of_single rfl j κ
theorem pool_cols_apply_r0 (j : S256x128.Idx) (κ : dot_S256x4096_S4096x128_S256x128_1_0_0_1_n_n.contr.Idx) : (dot_S256x4096_S4096x128_S256x128_1_0_0_1_n_n.rhsIdx j κ 0).val = (κ ⟨0, by decide⟩).val :=
  dot_S256x4096_S4096x128_S256x128_1_0_0_1_n_n.rhsIdx_val_of_single rfl j κ
theorem pool_cols_apply_r1 (j : S256x128.Idx) (κ : dot_S256x4096_S4096x128_S256x128_1_0_0_1_n_n.contr.Idx) : (dot_S256x4096_S4096x128_S256x128_1_0_0_1_n_n.rhsIdx j κ 1).val = (j 1).val := by
  unfold DotDims.rhsIdx
  rw [dif_neg (show ¬(1 : Fin S4096x128.rank) ∈ dot_S256x4096_S4096x128_S256x128_1_0_0_1_n_n.rhsBatch by decide), dif_pos (show (1 : Fin S4096x128.rank) ∈ dot_S256x4096_S4096x128_S256x128_1_0_0_1_n_n.rhsNonContracting by decide)]
  rfl

theorem pool_cols_apply (lhs : FVec Ideal S256x4096 .bf16) (rhs : FVec Ideal S4096x128 .bf16) (p : Fin 256) (q : Fin 128) :
    matmul dot_S256x4096_S4096x128_S256x128_1_0_0_1_n_n none lhs rhs (constant S256x128 .f32 0x00000000#32) (ix2 p q)
      = ∑ l : Fin 4096, lhs (ix2 p l) * rhs (ix2 l q) := by
  refine MatmulSum.matmul_zero_apply_single dot_S256x4096_S4096x128_S256x128_1_0_0_1_n_n none 4096 rfl rfl lhs rhs (ix2 p q)
    (fun l => ix2 p l) (fun l => ix2 l q) (fun l => ?_) (fun l => ?_)
  · refine funext fun a => Fin.ext ?_
    match a with
    | ⟨0, _⟩ => exact pool_cols_apply_l0 _ _
    | ⟨1, _⟩ => exact (pool_cols_apply_l1 _ _).trans (contrEquiv1_symm_val dot_S256x4096_S4096x128_S256x128_1_0_0_1_n_n 4096 rfl rfl l)
  · refine funext fun a => Fin.ext ?_
    match a with
    | ⟨0, _⟩ => exact (pool_cols_apply_r0 _ _).trans (contrEquiv1_symm_val dot_S256x4096_S4096x128_S256x128_1_0_0_1_n_n 4096 rfl rfl l)
    | ⟨1, _⟩ => exact pool_cols_apply_r1 _ _

theorem pool_rows_apply_l0 (j : S8x128.Idx) (κ : dot_S8x256_S256x128_S8x128_1_0_0_1_n_n.contr.Idx) : (dot_S8x256_S256x128_S8x128_1_0_0_1_n_n.lhsIdx j κ 0).val = (j 0).val := by
  unfold DotDims.lhsIdx
  rw [dif_neg (show ¬(0 : Fin S8x256.rank) ∈ dot_S8x256_S256x128_S8x128_1_0_0_1_n_n.lhsBatch by decide), dif_pos (show (0 : Fin S8x256.rank) ∈ dot_S8x256_S256x128_S8x128_1_0_0_1_n_n.lhsNonContracting by decide)]
  rfl
theorem pool_rows_apply_l1 (j : S8x128.Idx) (κ : dot_S8x256_S256x128_S8x128_1_0_0_1_n_n.contr.Idx) : (dot_S8x256_S256x128_S8x128_1_0_0_1_n_n.lhsIdx j κ 1).val = (κ ⟨0, by decide⟩).val :=
  dot_S8x256_S256x128_S8x128_1_0_0_1_n_n.lhsIdx_val_of_single rfl j κ
theorem pool_rows_apply_r0 (j : S8x128.Idx) (κ : dot_S8x256_S256x128_S8x128_1_0_0_1_n_n.contr.Idx) : (dot_S8x256_S256x128_S8x128_1_0_0_1_n_n.rhsIdx j κ 0).val = (κ ⟨0, by decide⟩).val :=
  dot_S8x256_S256x128_S8x128_1_0_0_1_n_n.rhsIdx_val_of_single rfl j κ
theorem pool_rows_apply_r1 (j : S8x128.Idx) (κ : dot_S8x256_S256x128_S8x128_1_0_0_1_n_n.contr.Idx) : (dot_S8x256_S256x128_S8x128_1_0_0_1_n_n.rhsIdx j κ 1).val = (j 1).val := by
  unfold DotDims.rhsIdx
  rw [dif_neg (show ¬(1 : Fin S256x128.rank) ∈ dot_S8x256_S256x128_S8x128_1_0_0_1_n_n.rhsBatch by decide), dif_pos (show (1 : Fin S256x128.rank) ∈ dot_S8x256_S256x128_S8x128_1_0_0_1_n_n.rhsNonContracting by decide)]
  rfl

theorem pool_rows_apply (lhs : FVec Ideal S8x256 .bf16) (rhs : FVec Ideal S256x128 .bf16) (p : Fin 8) (q : Fin 128) :
    matmul dot_S8x256_S256x128_S8x128_1_0_0_1_n_n none lhs rhs (constant S8x128 .f32 0x00000000#32) (ix2 p q)
      = ∑ l : Fin 256, lhs (ix2 p l) * rhs (ix2 l q) := by
  refine MatmulSum.matmul_zero_apply_single dot_S8x256_S256x128_S8x128_1_0_0_1_n_n none 256 rfl rfl lhs rhs (ix2 p q)
    (fun l => ix2 p l) (fun l => ix2 l q) (fun l => ?_) (fun l => ?_)
  · refine funext fun a => Fin.ext ?_
    match a with
    | ⟨0, _⟩ => exact pool_rows_apply_l0 _ _
    | ⟨1, _⟩ => exact (pool_rows_apply_l1 _ _).trans (contrEquiv1_symm_val dot_S8x256_S256x128_S8x128_1_0_0_1_n_n 256 rfl rfl l)
  · refine funext fun a => Fin.ext ?_
    match a with
    | ⟨0, _⟩ => exact (pool_rows_apply_r0 _ _).trans (contrEquiv1_symm_val dot_S8x256_S256x128_S8x128_1_0_0_1_n_n 256 rfl rfl l)
    | ⟨1, _⟩ => exact pool_rows_apply_r1 _ _

theorem spread_cols_apply_l0 (j : S8x1024.Idx) (κ : dot_S8x128_S128x1024_S8x1024_1_0_0_1_n_n.contr.Idx) : (dot_S8x128_S128x1024_S8x1024_1_0_0_1_n_n.lhsIdx j κ 0).val = (j 0).val := by
  unfold DotDims.lhsIdx
  rw [dif_neg (show ¬(0 : Fin S8x128.rank) ∈ dot_S8x128_S128x1024_S8x1024_1_0_0_1_n_n.lhsBatch by decide), dif_pos (show (0 : Fin S8x128.rank) ∈ dot_S8x128_S128x1024_S8x1024_1_0_0_1_n_n.lhsNonContracting by decide)]
  rfl
theorem spread_cols_apply_l1 (j : S8x1024.Idx) (κ : dot_S8x128_S128x1024_S8x1024_1_0_0_1_n_n.contr.Idx) : (dot_S8x128_S128x1024_S8x1024_1_0_0_1_n_n.lhsIdx j κ 1).val = (κ ⟨0, by decide⟩).val :=
  dot_S8x128_S128x1024_S8x1024_1_0_0_1_n_n.lhsIdx_val_of_single rfl j κ
theorem spread_cols_apply_r0 (j : S8x1024.Idx) (κ : dot_S8x128_S128x1024_S8x1024_1_0_0_1_n_n.contr.Idx) : (dot_S8x128_S128x1024_S8x1024_1_0_0_1_n_n.rhsIdx j κ 0).val = (κ ⟨0, by decide⟩).val :=
  dot_S8x128_S128x1024_S8x1024_1_0_0_1_n_n.rhsIdx_val_of_single rfl j κ
theorem spread_cols_apply_r1 (j : S8x1024.Idx) (κ : dot_S8x128_S128x1024_S8x1024_1_0_0_1_n_n.contr.Idx) : (dot_S8x128_S128x1024_S8x1024_1_0_0_1_n_n.rhsIdx j κ 1).val = (j 1).val := by
  unfold DotDims.rhsIdx
  rw [dif_neg (show ¬(1 : Fin S128x1024.rank) ∈ dot_S8x128_S128x1024_S8x1024_1_0_0_1_n_n.rhsBatch by decide), dif_pos (show (1 : Fin S128x1024.rank) ∈ dot_S8x128_S128x1024_S8x1024_1_0_0_1_n_n.rhsNonContracting by decide)]
  rfl

theorem spread_cols_apply (lhs : FVec Ideal S8x128 .bf16) (rhs : FVec Ideal S128x1024 .bf16) (p : Fin 8) (q : Fin 1024) :
    matmul dot_S8x128_S128x1024_S8x1024_1_0_0_1_n_n none lhs rhs (constant S8x1024 .f32 0x00000000#32) (ix2 p q)
      = ∑ l : Fin 128, lhs (ix2 p l) * rhs (ix2 l q) := by
  refine MatmulSum.matmul_zero_apply_single dot_S8x128_S128x1024_S8x1024_1_0_0_1_n_n none 128 rfl rfl lhs rhs (ix2 p q)
    (fun l => ix2 p l) (fun l => ix2 l q) (fun l => ?_) (fun l => ?_)
  · refine funext fun a => Fin.ext ?_
    match a with
    | ⟨0, _⟩ => exact spread_cols_apply_l0 _ _
    | ⟨1, _⟩ => exact (spread_cols_apply_l1 _ _).trans (contrEquiv1_symm_val dot_S8x128_S128x1024_S8x1024_1_0_0_1_n_n 128 rfl rfl l)
  · refine funext fun a => Fin.ext ?_
    match a with
    | ⟨0, _⟩ => exact (spread_cols_apply_r0 _ _).trans (contrEquiv1_symm_val dot_S8x128_S128x1024_S8x1024_1_0_0_1_n_n 128 rfl rfl l)
    | ⟨1, _⟩ => exact spread_cols_apply_r1 _ _

theorem spread_rows_apply_l0 (j : S256x1024.Idx) (κ : dot_S256x8_S8x1024_S256x1024_1_0_0_1_n_n.contr.Idx) : (dot_S256x8_S8x1024_S256x1024_1_0_0_1_n_n.lhsIdx j κ 0).val = (j 0).val := by
  unfold DotDims.lhsIdx
  rw [dif_neg (show ¬(0 : Fin S256x8.rank) ∈ dot_S256x8_S8x1024_S256x1024_1_0_0_1_n_n.lhsBatch by decide), dif_pos (show (0 : Fin S256x8.rank) ∈ dot_S256x8_S8x1024_S256x1024_1_0_0_1_n_n.lhsNonContracting by decide)]
  rfl
theorem spread_rows_apply_l1 (j : S256x1024.Idx) (κ : dot_S256x8_S8x1024_S256x1024_1_0_0_1_n_n.contr.Idx) : (dot_S256x8_S8x1024_S256x1024_1_0_0_1_n_n.lhsIdx j κ 1).val = (κ ⟨0, by decide⟩).val :=
  dot_S256x8_S8x1024_S256x1024_1_0_0_1_n_n.lhsIdx_val_of_single rfl j κ
theorem spread_rows_apply_r0 (j : S256x1024.Idx) (κ : dot_S256x8_S8x1024_S256x1024_1_0_0_1_n_n.contr.Idx) : (dot_S256x8_S8x1024_S256x1024_1_0_0_1_n_n.rhsIdx j κ 0).val = (κ ⟨0, by decide⟩).val :=
  dot_S256x8_S8x1024_S256x1024_1_0_0_1_n_n.rhsIdx_val_of_single rfl j κ
theorem spread_rows_apply_r1 (j : S256x1024.Idx) (κ : dot_S256x8_S8x1024_S256x1024_1_0_0_1_n_n.contr.Idx) : (dot_S256x8_S8x1024_S256x1024_1_0_0_1_n_n.rhsIdx j κ 1).val = (j 1).val := by
  unfold DotDims.rhsIdx
  rw [dif_neg (show ¬(1 : Fin S8x1024.rank) ∈ dot_S256x8_S8x1024_S256x1024_1_0_0_1_n_n.rhsBatch by decide), dif_pos (show (1 : Fin S8x1024.rank) ∈ dot_S256x8_S8x1024_S256x1024_1_0_0_1_n_n.rhsNonContracting by decide)]
  rfl

theorem spread_rows_apply (lhs : FVec Ideal S256x8 .bf16) (rhs : FVec Ideal S8x1024 .bf16) (p : Fin 256) (q : Fin 1024) :
    matmul dot_S256x8_S8x1024_S256x1024_1_0_0_1_n_n none lhs rhs (constant S256x1024 .f32 0x00000000#32) (ix2 p q)
      = ∑ l : Fin 8, lhs (ix2 p l) * rhs (ix2 l q) := by
  refine MatmulSum.matmul_zero_apply_single dot_S256x8_S8x1024_S256x1024_1_0_0_1_n_n none 8 rfl rfl lhs rhs (ix2 p q)
    (fun l => ix2 p l) (fun l => ix2 l q) (fun l => ?_) (fun l => ?_)
  · refine funext fun a => Fin.ext ?_
    match a with
    | ⟨0, _⟩ => exact spread_rows_apply_l0 _ _
    | ⟨1, _⟩ => exact (spread_rows_apply_l1 _ _).trans (contrEquiv1_symm_val dot_S256x8_S8x1024_S256x1024_1_0_0_1_n_n 8 rfl rfl l)
  · refine funext fun a => Fin.ext ?_
    match a with
    | ⟨0, _⟩ => exact (spread_rows_apply_r0 _ _).trans (contrEquiv1_symm_val dot_S256x8_S8x1024_S256x1024_1_0_0_1_n_n 8 rfl rfl l)
    | ⟨1, _⟩ => exact spread_rows_apply_r1 _ _

end Cert.KernelIdeal.Hand

end
-- ==== Proof.KI.Payload0.lean ====
/-
  The masking kernel's one stored value, read at an entry over the extended reals.

  For the block of mask words `v0` (256 rows), the column-pooling indicator `v3` (4096 × 128), the row-pooling
  indicator `v7` (8 × 256), the row-spreading indicator `v15` (256 × 8), a chunk of 1024 columns of the
  column-spreading indicator `v21` (128 × 1024) and the same chunk of the weight block `v27`:

      stored (p, q) = v27 (p, q) · ∑ nb, v15 (p, nb) · ∑ kb, bit (nb, kb) · v21 (kb, q),
      bit (nb, kb)  = 1 if count (nb, kb) > 0 else 0,
      count (nb, kb) = ∑ r, v7 (nb, r) · ∑ k, v0 (r, k) · v3 (k, kb).

  Every change of float format is the identity here, and every matrix product is the plain sum over its contracted axis.
-/
import proofs.«142192_j60155311948051_2_alg».proof.Proof.Gen.KernelIdeal.Skeleton
import proofs.«142192_j60155311948051_2_alg».proof.Proof.KI.Matmuls
import Idealize.ShloMosaic.Lib.Pipeline.Value

noncomputable section

namespace Cert.KernelIdeal.Hand

open Cert.KernelIdeal Cert.KernelIdeal.Gen Idealize.ShloMosaic Idealize.ShloMosaic.ValueIdx

/-- The pooled count of tile `(nb, kb)` of the block: the mask words of its 32 rows and 32 columns, summed through the
    two pooling indicators. -/
def tileCount (v0 : Vec Ideal S256x4096 .i32) (v3 : Vec Ideal S4096x128 .bf16) (v7 : Vec Ideal S8x256 .bf16)
    (nb : Fin 8) (kb : Fin 128) : EReal :=
  ∑ r : Fin 256, v7 (ix2 nb r) * ∑ k : Fin 4096, FloatOps.sitofp (F := Ideal) .bf16 (v0 (ix2 r k)) * v3 (ix2 k kb)

/-- The tile's bit as a number: whether its pooled count is positive. -/
def tileBit (v0 : Vec Ideal S256x4096 .i32) (v3 : Vec Ideal S4096x128 .bf16) (v7 : Vec Ideal S8x256 .bf16)
    (nb : Fin 8) (kb : Fin 128) : EReal :=
  FloatOps.sitofp (F := Ideal) .f32
    ((FloatOps.cmpf (F := Ideal) (φ := .f32) .ogt (tileCount v0 v3 v7 nb kb) (Scalar.ofBits (F := Ideal) .f32 0x00000000#32)).setWidth 32)

/-- The stored value at entry `(p, q)` of the chunk. -/
theorem pay1_apply (v0 : Vec Ideal S256x4096 .i32) (v3 : Vec Ideal S4096x128 .bf16) (v7 : Vec Ideal S8x256 .bf16)
    (v15 : Vec Ideal S256x8 .bf16) (v21 : Vec Ideal S128x1024 .bf16) (v27 : Vec Ideal S256x1024 .f32) (p : Fin 256) (q : Fin 1024) :
    k0_pay1 (F := Ideal) v0 v3 v7 v15 v21 v27 (ix2 p q)
      = v27 (ix2 p q) * ∑ nb : Fin 8, v15 (ix2 p nb) * ∑ kb : Fin 128, tileBit v0 v3 v7 nb kb * v21 (ix2 kb q) := by
  unfold k0_pay1
  simp only [shapeCast_self]
  refine congrArg (v27 (ix2 p q) * ·) ?_
  refine (spread_rows_apply _ _ p q).trans ?_
  refine Finset.sum_congr rfl fun nb _ => congrArg (v15 (ix2 p nb) * ·) ?_
  refine (spread_cols_apply _ _ nb q).trans ?_
  refine Finset.sum_congr rfl fun kb _ => congrArg (· * v21 (ix2 kb q)) ?_
  unfold tileBit tileCount
  refine congrArg (fun x => FloatOps.sitofp (F := Ideal) .f32 ((FloatOps.cmpf (F := Ideal) (φ := .f32) .ogt x (Scalar.ofBits (F := Ideal) .f32 0x00000000#32)).setWidth 32)) ?_
  refine (pool_rows_apply _ _ nb kb).trans ?_
  refine Finset.sum_congr rfl fun r _ => congrArg (v7 (ix2 nb r) * ·) ?_
  exact pool_cols_apply _ _ r kb

end Cert.KernelIdeal.Hand

end
-- ==== Proof.LibIndicatorSums.lean ====
/-
  Sums against 0/1 indicators on the extended reals.

  * A sum of `f j` against the indicator of one index is `f` at that index (`sum_ind_right`, `sum_ind_left`): a
    product with a 0/1 matrix that has a single 1 in each row or column just picks an entry.
  * A finite sum of non-negative extended reals is positive exactly when one term is (`sum_pos_iff`).
  * Hence the pooled count of a 32 × 32 tile — the 0/1 entries of a block of rows, summed over the rows of row-tile `nb`
    and the columns of column-tile `kb` by two indicator products — is positive exactly when the tile holds a 1
    (`tile_sum_pos`).
  * A comparison bit read back as a number is the indicator of the comparison (`bit_to_ereal`).
  Only the order and the monoid structure of the extended reals are used.
-/
import Mathlib.Data.EReal.Basic
import Mathlib.Algebra.Order.BigOperators.Group.Finset
import Mathlib.Algebra.BigOperators.Fin

namespace Cert.TileMath

theorem ereal_zero_lt_one : (0 : EReal) < 1 := by exact_mod_cast (zero_lt_one : (0 : ℝ) < 1)

/-- A sum against the indicator of the index `c`, the indicator on the right. -/
theorem sum_ind_right {n : ℕ} (f : Fin n → EReal) (c : ℕ) (hc : c < n) :
    ∑ j : Fin n, f j * (if c = j.val then (1 : EReal) else 0) = f ⟨c, hc⟩ := by
  rw [Finset.sum_eq_single (⟨c, hc⟩ : Fin n)]
  · rw [if_pos rfl, mul_one]
  · intro j _ hj
    rw [if_neg (fun h => hj (Fin.ext h.symm)), mul_zero]
  · intro h; exact absurd (Finset.mem_univ _) h

/-- A sum against the indicator of the index `c`, the indicator on the left. -/
theorem sum_ind_left {n : ℕ} (f : Fin n → EReal) (c : ℕ) (hc : c < n) :
    ∑ j : Fin n, (if c = j.val then (1 : EReal) else 0) * f j = f ⟨c, hc⟩ := by
  rw [Finset.sum_eq_single (⟨c, hc⟩ : Fin n)]
  · rw [if_pos rfl, one_mul]
  · intro j _ hj
    rw [if_neg (fun h => hj (Fin.ext h.symm)), zero_mul]
  · intro h; exact absurd (Finset.mem_univ _) h

/-- A finite sum of non-negative terms is positive exactly when one of its terms is. -/
theorem sum_pos_iff {ι : Type*} (s : Finset ι) (t : ι → EReal) (h0 : ∀ i ∈ s, 0 ≤ t i) :
    0 < ∑ i ∈ s, t i ↔ ∃ i ∈ s, 0 < t i := by
  constructor
  · intro h
    by_contra hne
    have hle : ∀ i ∈ s, t i ≤ 0 := fun i hi => not_lt.mp fun h' => hne ⟨i, hi, h'⟩
    have hz : ∑ i ∈ s, t i = 0 := Finset.sum_eq_zero fun i hi => le_antisymm (hle i hi) (h0 i hi)
    rw [hz] at h; exact lt_irrefl _ h
  · rintro ⟨i, hi, hpos⟩
    exact lt_of_lt_of_le hpos (Finset.single_le_sum h0 hi)

/-- The pooled count of tile `(nb, kb)` of a block of 0/1 entries is positive exactly when the tile holds a 1. -/
theorem tile_sum_pos (mf : Fin 256 → Fin 4096 → EReal) (hmf : ∀ r k, mf r k = 0 ∨ mf r k = 1) (nb kb : ℕ) :
    0 < ∑ r : Fin 256, (if r.val / 32 = nb then (1 : EReal) else 0)
          * ∑ k : Fin 4096, mf r k * (if k.val / 32 = kb then (1 : EReal) else 0)
      ↔ ∃ (r : Fin 256) (k : Fin 4096), r.val / 32 = nb ∧ k.val / 32 = kb ∧ mf r k = 1 := by
  have hterm : ∀ (r : Fin 256) (k : Fin 4096), 0 ≤ mf r k * (if k.val / 32 = kb then (1 : EReal) else 0) := by
    intro r k
    rcases hmf r k with h | h <;> rw [h] <;> split_ifs <;> simp
  have hinner : ∀ r : Fin 256, 0 ≤ ∑ k : Fin 4096, mf r k * (if k.val / 32 = kb then (1 : EReal) else 0) :=
    fun r => Finset.sum_nonneg fun k _ => hterm r k
  have hinner_pos : ∀ r : Fin 256, (0 < ∑ k : Fin 4096, mf r k * (if k.val / 32 = kb then (1 : EReal) else 0))
      ↔ ∃ k : Fin 4096, k.val / 32 = kb ∧ mf r k = 1 := by
    intro r
    rw [sum_pos_iff _ _ (fun k _ => hterm r k)]
    constructor
    · rintro ⟨k, -, hk⟩
      refine ⟨k, ?_⟩
      by_cases hq : k.val / 32 = kb
      · refine ⟨hq, ?_⟩
        rcases hmf r k with h | h
        · rw [h, zero_mul] at hk; exact absurd hk (lt_irrefl _)
        · exact h
      · rw [if_neg hq, mul_zero] at hk; exact absurd hk (lt_irrefl _)
    · rintro ⟨k, hq, h1⟩
      exact ⟨k, Finset.mem_univ _, by rw [h1, if_pos hq, mul_one]; exact ereal_zero_lt_one⟩
  rw [sum_pos_iff _ _ (fun r _ => by
    by_cases hq : r.val / 32 = nb
    · rw [if_pos hq, one_mul]; exact hinner r
    · rw [if_neg hq, zero_mul])]
  constructor
  · rintro ⟨r, -, hr⟩
    by_cases hq : r.val / 32 = nb
    · rw [if_pos hq, one_mul] at hr
      obtain ⟨k, hk, h1⟩ := (hinner_pos r).mp hr
      exact ⟨r, k, hq, hk, h1⟩
    · rw [if_neg hq, zero_mul] at hr; exact absurd hr (lt_irrefl _)
  · rintro ⟨r, k, hq, hk, h1⟩
    refine ⟨r, Finset.mem_univ _, ?_⟩
    rw [if_pos hq, one_mul]
    exact (hinner_pos r).mpr ⟨k, hk, h1⟩

end Cert.TileMath
-- ==== Proof.KI.Bits.lean ====
/-
  The tile's bit, and the mask words read as numbers, over the extended reals.

  * The tile's bit is the comparison "pooled count > 0" read back as a number: the comparison yields a one-bit word,
    widened to 32 bits and read as a signed integer, which is 1 when the comparison holds and 0 when it does not.
    Hence the bit is the indicator of the pooled count being positive (`tileBit_eq`).
  * A word read as a signed integer and then as a number sends the word 0 to 0 and the word 1 to 1
    (`sitofp_zero`, `sitofp_one`), so a 0/1 word gives a 0/1 number (`sitofp_binary`).
-/
import proofs.«142192_j60155311948051_2_alg».proof.Proof.KI.Payload0
import proofs.«142192_j60155311948051_2_alg».proof.Proof.LibIndicatorSums

noncomputable section

namespace Cert.KernelIdeal.Hand

open Cert.KernelIdeal Cert.KernelIdeal.Gen Idealize.ShloMosaic Idealize.ShloMosaic.ValueIdx

/-- A truth value, as a one-bit word widened to 32 bits and read as a signed integer, then as a number:
    1 for true, 0 for false. -/
theorem bool_word_num (b : Bool) :
    (((((BitVec.ofBool b).setWidth 32).toInt : ℤ) : ℝ) : EReal) = if b = true then (1 : EReal) else 0 := by
  cases b
  · rw [show ((BitVec.ofBool false).setWidth 32).toInt = 0 by decide, Int.cast_zero, EReal.coe_zero]
    rfl
  · rw [show ((BitVec.ofBool true).setWidth 32).toInt = 1 by decide, Int.cast_one, EReal.coe_one]
    rfl

/-- The tile's bit, unfolded to the comparison of the pooled count with the number 0. -/
theorem tileBit_unfold (v0 : Vec Ideal S256x4096 .i32) (v3 : Vec Ideal S4096x128 .bf16) (v7 : Vec Ideal S8x256 .bf16)
    (nb : Fin 8) (kb : Fin 128) :
    tileBit v0 v3 v7 nb kb
      = (((((BitVec.ofBool (decide ((0 : EReal) < tileCount v0 v3 v7 nb kb))).setWidth 32).toInt : ℤ) : ℝ) : EReal) := by
  have hz : Scalar.ofBits (F := Ideal) .f32 0x00000000#32 = (0 : EReal) := Ideal.ofBits_zero_f32
  unfold tileBit
  rw [hz]
  rfl

/-- A tile whose pooled count is positive has bit 1. -/
theorem tileBit_of_pos (v0 : Vec Ideal S256x4096 .i32) (v3 : Vec Ideal S4096x128 .bf16) (v7 : Vec Ideal S8x256 .bf16)
    (nb : Fin 8) (kb : Fin 128) (hc : 0 < tileCount v0 v3 v7 nb kb) : tileBit v0 v3 v7 nb kb = 1 := by
  rw [tileBit_unfold, bool_word_num, if_pos (decide_eq_true hc)]

/-- A tile whose pooled count is not positive has bit 0. -/
theorem tileBit_of_not_pos (v0 : Vec Ideal S256x4096 .i32) (v3 : Vec Ideal S4096x128 .bf16) (v7 : Vec Ideal S8x256 .bf16)
    (nb : Fin 8) (kb : Fin 128) (hc : ¬ 0 < tileCount v0 v3 v7 nb kb) : tileBit v0 v3 v7 nb kb = 0 := by
  rw [tileBit_unfold, bool_word_num, if_neg (by rw [decide_eq_false hc]; exact Bool.false_ne_true)]

/-- The tile's bit is the indicator of its pooled count being positive. -/
theorem tileBit_eq (v0 : Vec Ideal S256x4096 .i32) (v3 : Vec Ideal S4096x128 .bf16) (v7 : Vec Ideal S8x256 .bf16)
    (nb : Fin 8) (kb : Fin 128) :
    tileBit v0 v3 v7 nb kb = if 0 < tileCount v0 v3 v7 nb kb then (1 : EReal) else 0 := by
  by_cases hc : 0 < tileCount v0 v3 v7 nb kb
  · rw [if_pos hc]; exact tileBit_of_pos v0 v3 v7 nb kb hc
  · rw [if_neg hc]; exact tileBit_of_not_pos v0 v3 v7 nb kb hc

/-- The word 0 read as a number is 0. -/
theorem sitofp_zero : FloatOps.sitofp (F := Ideal) .bf16 (0#32 : BitVec 32) = (0 : EReal) := by
  show ((((0#32 : BitVec 32).toInt : ℤ) : ℝ) : EReal) = 0
  rw [show (0#32 : BitVec 32).toInt = 0 by decide, Int.cast_zero, EReal.coe_zero]

/-- The word 1 read as a number is 1. -/
theorem sitofp_one : FloatOps.sitofp (F := Ideal) .bf16 (1#32 : BitVec 32) = (1 : EReal) := by
  show ((((1#32 : BitVec 32).toInt : ℤ) : ℝ) : EReal) = 1
  rw [show (1#32 : BitVec 32).toInt = 1 by decide, Int.cast_one, EReal.coe_one]

/-- A 0/1 word read as a number is 0 or 1. -/
theorem sitofp_binary (w : BitVec 32) (h : w = 0#32 ∨ w = 1#32) :
    FloatOps.sitofp (F := Ideal) .bf16 w = 0 ∨ FloatOps.sitofp (F := Ideal) .bf16 w = 1 := by
  rcases h with rfl | rfl
  · exact Or.inl sitofp_zero
  · exact Or.inr sitofp_one

end Cert.KernelIdeal.Hand

end
-- ==== Proof.KI.Gate.lean ====
/-
  The pooled tile test is the tile's activity.

  For row n = 256·tb + p and column k of the 4096 × 4096 mask, the kernel's bit for the tile of (n, k) is computed inside
  the block of rows 256·tb … 256·tb + 255: it is positive exactly when some row r of the block with r / 32 = p / 32
  and some column k' with k' / 32 = k / 32 hold the word 1. Row 256·tb + r lies in row-tile 8·tb + r / 32 = n / 32, so
  this is the statement that tile (n / 32, k / 32) of the mask is active.
-/
import proofs.«142192_j60155311948051_2_alg».proof.Proof.KI.Payload0
import proofs.«142192_j60155311948051_2_alg».proof.Proof.Spec
import proofs.«142192_j60155311948051_2_alg».proof.Proof.LibIndicatorSums

noncomputable section

namespace Cert.KernelIdeal.Hand

open Cert.KernelIdeal Cert.KernelIdeal.Gen Idealize.ShloMosaic Idealize.ShloMosaic.ValueIdx
open Cert.Spec Cert.TileMath

open Classical in
/-- The indicator of a positive pooled count is the gate of the tile of `(n, k)`, for mask words that are 0 or 1, when
    the block's words are the mask's rows `256·(n / 256) + r`, and the two pooling indicators are the tile indicators. -/
theorem gate_of_count (mask : SMat.Idx → BitVec 32) (hb : Binary mask) (n k : Fin 4096)
    (v0 : Vec Ideal S256x4096 .i32) (v3 : Vec Ideal S4096x128 .bf16) (v7 : Vec Ideal S8x256 .bf16)
    (hs0 : FloatOps.sitofp (F := Ideal) .bf16 (0#32 : BitVec 32) = (0 : EReal))
    (hs1 : FloatOps.sitofp (F := Ideal) .bf16 (1#32 : BitVec 32) = (1 : EReal))
    (h0 : ∀ (r : Fin 256) (k' : Fin 4096), v0 (ix2 r k') = mask (ix2 ⟨256 * (n.val / 256) + r.val, by have := n.isLt; have := r.isLt; omega⟩ k'))
    (h3 : ∀ (k' : Fin 4096) (kb : Fin 128), v3 (ix2 k' kb) = if k'.val / 32 = kb.val then (1 : EReal) else 0)
    (h7 : ∀ (nb : Fin 8) (r : Fin 256), v7 (ix2 nb r) = if r.val / 32 = nb.val then (1 : EReal) else 0) :
    (if 0 < tileCount v0 v3 v7 ⟨n.val % 256 / 32, by have := n.isLt; omega⟩ ⟨k.val / 32, by have := k.isLt; omega⟩ then (1 : EReal) else 0)
      = gate mask (tileOf n) (tileOf k) := by
  have hn := n.isLt
  have hk := k.isLt
  -- the block's words as numbers
  let mf : Fin 256 → Fin 4096 → EReal := fun r k' => FloatOps.sitofp (F := Ideal) .bf16 (v0 (ix2 r k'))
  have hmf : ∀ r k', mf r k' = 0 ∨ mf r k' = 1 := by
    intro r k'
    show FloatOps.sitofp (F := Ideal) .bf16 (v0 (ix2 r k')) = 0 ∨ FloatOps.sitofp (F := Ideal) .bf16 (v0 (ix2 r k')) = 1
    rw [h0]
    rcases hb (ix2 ⟨256 * (n.val / 256) + r.val, by have := r.isLt; omega⟩ k') with h | h <;> rw [h]
    · exact Or.inl hs0
    · exact Or.inr hs1
  have hmf1 : ∀ r k', mf r k' = 1 ↔ mask (ix2 ⟨256 * (n.val / 256) + r.val, by have := r.isLt; omega⟩ k') = 1#32 := by
    intro r k'
    show FloatOps.sitofp (F := Ideal) .bf16 (v0 (ix2 r k')) = 1 ↔ _
    rw [h0]
    rcases hb (ix2 ⟨256 * (n.val / 256) + r.val, by have := r.isLt; omega⟩ k') with h | h <;> rw [h]
    · rw [hs0]
      constructor
      · intro h01; exact absurd h01 (ne_of_lt ereal_zero_lt_one)
      · intro h01; exact absurd h01 (by decide)
    · rw [hs1]; exact ⟨fun _ => rfl, fun _ => rfl⟩
  have hcount : tileCount v0 v3 v7 ⟨n.val % 256 / 32, by omega⟩ ⟨k.val / 32, by omega⟩
      = ∑ r : Fin 256, (if r.val / 32 = n.val % 256 / 32 then (1 : EReal) else 0)
          * ∑ k' : Fin 4096, mf r k' * (if k'.val / 32 = k.val / 32 then (1 : EReal) else 0) := by
    unfold tileCount
    refine Finset.sum_congr rfl fun r _ => ?_
    rw [h7]
    refine congrArg _ (Finset.sum_congr rfl fun k' _ => ?_)
    rw [h3]
  have hpos := tile_sum_pos mf hmf (n.val % 256 / 32) (k.val / 32)
  rw [hcount]
  unfold gate
  by_cases hA : Active mask (tileOf n) (tileOf k)
  · rw [if_pos hA, if_pos]
    obtain ⟨r', c', hrc⟩ := hA
    refine hpos.mpr ⟨⟨32 * (n.val % 256 / 32) + r'.val, by have := r'.isLt; omega⟩, ⟨32 * (k.val / 32) + c'.val, by have := c'.isLt; omega⟩, ?_, ?_, ?_⟩
    · show (32 * (n.val % 256 / 32) + r'.val) / 32 = n.val % 256 / 32
      have := r'.isLt; omega
    · show (32 * (k.val / 32) + c'.val) / 32 = k.val / 32
      have := c'.isLt; omega
    · rw [hmf1]
      have e : (ix2 (⟨256 * (n.val / 256) + (32 * (n.val % 256 / 32) + r'.val), by have := r'.isLt; omega⟩ : Fin 4096)
            (⟨32 * (k.val / 32) + c'.val, by have := c'.isLt; omega⟩ : Fin 4096) : SMat.Idx)
          = ix2 (inTile (tileOf n) r') (inTile (tileOf k) c') := by
        refine funext fun a => Fin.ext ?_
        match a with
        | ⟨0, _⟩ => show 256 * (n.val / 256) + (32 * (n.val % 256 / 32) + r'.val) = 32 * (n.val / 32) + r'.val; omega
        | ⟨1, _⟩ => rfl
      rw [e]; exact hrc
  · rw [if_neg hA, if_neg]
    intro hp
    obtain ⟨r, k', hr, hk', h1⟩ := hpos.mp hp
    rw [hmf1] at h1
    refine hA ⟨⟨r.val % 32, Nat.mod_lt _ (by decide)⟩, ⟨k'.val % 32, Nat.mod_lt _ (by decide)⟩, ?_⟩
    have e : (ix2 (inTile (tileOf n) ⟨r.val % 32, Nat.mod_lt _ (by decide)⟩) (inTile (tileOf k) ⟨k'.val % 32, Nat.mod_lt _ (by decide)⟩) : SMat.Idx)
        = ix2 (⟨256 * (n.val / 256) + r.val, by have := r.isLt; omega⟩ : Fin 4096) k' := by
      refine funext fun a => Fin.ext ?_
      match a with
      | ⟨0, _⟩ => show 32 * (n.val / 32) + r.val % 32 = 256 * (n.val / 256) + r.val; have := r.isLt; omega
      | ⟨1, _⟩ => show 32 * (k.val / 32) + k'.val % 32 = k'.val; have := k'.isLt; omega
    rw [e]; exact h1

end Cert.KernelIdeal.Hand

end
-- ==== Proof.KI.Masked.lean ====
/-
  The masked weight the first region leaves, entry by entry.

  Entry (n, k) is the stored value of row block n / 256 and column chunk k / 1024 at (n % 256, k % 1024): the weight
  entry times a double sum against the two spreading indicators. Each indicator has a single 1 in the row or column in
  play, so the double sum picks the bit of tile (n % 256 / 32, k / 32) of the block; that bit is the indicator of a
  positive pooled count, which is the activity of tile (n / 32, k / 32) of the mask when the mask's words are 0 or 1.
-/
import proofs.«142192_j60155311948051_2_alg».proof.Proof.KI.Run
import proofs.«142192_j60155311948051_2_alg».proof.Proof.KI.Value0
import proofs.«142192_j60155311948051_2_alg».proof.Proof.KI.HostValues
import proofs.«142192_j60155311948051_2_alg».proof.Proof.KI.Bits
import proofs.«142192_j60155311948051_2_alg».proof.Proof.KI.Gate

noncomputable section

namespace Cert.KernelIdeal.Hand

open Cert.KernelIdeal Cert.KernelIdeal.Gen
open Idealize.ShloMosaic Idealize.ShloMosaic.TcCoe Idealize.ShloMosaic.ValueIdx Idealize.SL.Sem
open Cert.Spec Cert.TileMath

variable (m : (ℓ : Loc nD τ sig) → Buf (Elt Ideal) ℓ) (c : Dev nD)

/-- The four arguments as the launch memory holds them. -/
abbrev dataA : SData.Idx → EReal := m ((c : Thread nD τ).loc main_arg0)
abbrev maskA : SMat.Idx → BitVec 32 := m ((c : Thread nD τ).loc main_arg1)
abbrev weightA : SMat.Idx → EReal := m ((c : Thread nD τ).loc main_arg2)
abbrev biasA : SVec.Idx → EReal := m ((c : Thread nD τ).loc main_arg3)

/-- Entry `(n, k)` of the array the masking region leaves is the masked weight. -/
theorem masked_weight (hb : Binary (maskA m c)) (n k : Fin 4096) :
    (arr0 m c : S4096x4096.Idx → EReal) (ix2 n k) = maskedWeight (maskA m c) (weightA m c) n k := by
  have hn := n.isLt
  have hk := k.isLt
  show (dat0 (Vin0 m) c).arrAt 6 cfg0.N (ix2 n k) = _
  rw [arrAt0_apply (Vin0 m) c n k, pay1_apply]
  unfold maskedWeight
  -- the weight entry
  have hw : blockChunk (Vin0 m c main_arg2 : S4096x4096.Idx → EReal) ⟨n.val / 256, by omega⟩ ⟨k.val / 1024, by omega⟩
      (ix2 (n0 := 256) (n1 := 1024) ⟨n.val % 256, Nat.mod_lt _ (by decide)⟩ ⟨k.val % 1024, Nat.mod_lt _ (by decide)⟩)
      = weightA m c (ix2 n k) := by
    unfold blockChunk
    show (V7 m c main_arg2 : S4096x4096.Idx → EReal) _ = _
    rw [hv_w]
    refine congrArg _ (funext fun a => Fin.ext ?_)
    match a with
    | ⟨0, _⟩ => show 256 * (n.val / 256) + n.val % 256 = n.val; omega
    | ⟨1, _⟩ => show 1024 * (k.val / 1024) + k.val % 1024 = k.val; omega
  rw [hw]
  refine congrArg (weightA m c (ix2 n k) * ·) ?_
  -- the row-spreading indicator picks the row-tile of n inside its block
  have h15 : ∀ nb : Fin 8, (Vin0 m c main_v20 : S256x8.Idx → EReal) (ix2 (n0 := 256) (n1 := 8) ⟨n.val % 256, Nat.mod_lt _ (by decide)⟩ nb)
      = if n.val % 256 / 32 = nb.val then (1 : EReal) else 0 := fun nb => hv20 m c _ nb
  simp only [h15]
  rw [sum_ind_left _ (n.val % 256 / 32) (by omega)]
  -- the column-spreading indicator picks the column-tile of k
  have h21 : ∀ kb : Fin 128, colChunkOf (Vin0 m c main_v11 : S128x4096.Idx → EReal) ⟨k.val / 1024, by omega⟩
      (ix2 (n0 := 128) (n1 := 1024) kb ⟨k.val % 1024, Nat.mod_lt _ (by decide)⟩)
      = if k.val / 32 = kb.val then (1 : EReal) else 0 := by
    intro kb
    unfold colChunkOf
    show (V7 m c main_v11 : S128x4096.Idx → EReal) (ix2 (n0 := 128) (n1 := 4096) ⟨kb.val, _⟩ ⟨1024 * (k.val / 1024) + k.val % 1024, _⟩) = _
    rw [hv11]
    show (if (1024 * (k.val / 1024) + k.val % 1024) / 32 = kb.val then (1 : EReal) else 0) = _
    rw [show 1024 * (k.val / 1024) + k.val % 1024 = k.val from by omega]
  simp only [h21]
  rw [sum_ind_right _ (k.val / 32) (by omega)]
  rw [tileBit_eq]
  refine gate_of_count (maskA m c) hb n k _ _ _ sitofp_zero sitofp_one (fun r k' => ?_) (fun k' kb => hv10 m c k' kb) (fun nb r => hv21 m c nb r)
  unfold rowBlock
  show (V7 m c main_v0 : S4096x4096.Idx → BitVec 32) _ = _
  rw [hv0 m c hb]

end Cert.KernelIdeal.Hand

end
-- ==== Proof.KI.Value.lean ====
/-
  The kernel's result, read back as the common function `G`.

  The product the second region leaves is the data matrix against the masked weight contracted over all 4096 columns,
  plus the bias; the data matrix is the data with its two leading axes merged, and the result is the product with its
  leading axis split again.
-/
import proofs.«142192_j60155311948051_2_alg».proof.Proof.KI.Tail
import proofs.«142192_j60155311948051_2_alg».proof.Proof.KI.Value1
import proofs.«142192_j60155311948051_2_alg».proof.Proof.KI.Masked

noncomputable section

namespace Cert.KernelIdeal.Hand

open Cert.KernelIdeal Cert.KernelIdeal.Gen
open Idealize.ShloMosaic Idealize.ShloMosaic.TcCoe Idealize.ShloMosaic.ValueIdx Idealize.SL.Sem
open Cert.Spec Cert.TileMath

variable (m : (ℓ : Loc nD τ sig) → Buf (Elt Ideal) ℓ) (c : Dev nD)

/-- THE KERNEL'S RESULT: after the run the result buffer holds `G` of the four arguments. -/
theorem kernel_value (hb : Binary (maskA m c)) :
    (V10 m (outs m) c main_v24 : SData.Idx → EReal) = G (dataA m c) (maskA m c) (weightA m c) (biasA m c) := by
  funext i
  obtain ⟨b, s, n, rfl⟩ : ∃ (b : Fin 2) (s : Fin 2048) (n : Fin 4096), i = ix3 b s n := ⟨i 0, i 1, i 2, eq_ix3 i⟩
  have hb2 := b.isLt
  have hs := s.isLt
  rw [result_apply]
  show (dat1 (Vin1 m) c).arrAt 3 cfg1.N (ix2 _ n) = _
  rw [arrAt1_apply (Vin1 m) c _ n]
  unfold G
  have hbias : bA (Vin1 m) c (ix1 n) = biasA m c (ix1 n) := by
    show (Vin1 m c main_arg3 : S4096.Idx → EReal) (ix1 n) = _
    rw [show Vin1 m c main_arg3 = V7 m c main_arg3 from
      (Vout0_eq m c main_arg3).symm.trans (V8_of m (outs m) c main_arg3 (by decide)), hv_b]
  have hdata : ∀ k : Fin 4096, xA (Vin1 m) c
      (ix2 (n0 := 4096) (n1 := 4096) ⟨2048 * b.val + s.val, by omega⟩ k) = dataA m c (ix3 b s k) := by
    intro k
    show (Vin1 m c main_v1 : S4096x4096.Idx → EReal) _ = _
    rw [show Vin1 m c main_v1 = V7 m c main_v1 from
      (Vout0_eq m c main_v1).symm.trans (V8_of m (outs m) c main_v1 (by decide)), hv1]
    refine congrArg _ (funext fun a => Fin.ext ?_)
    match a with
    | ⟨0, _⟩ => show (2048 * b.val + s.val) / 2048 = b.val; omega
    | ⟨1, _⟩ => show (2048 * b.val + s.val) % 2048 = s.val; omega
    | ⟨2, _⟩ => rfl
  have hwb : ∀ k : Fin 4096, wbA (Vin1 m) c (ix2 n k) = maskedWeight (maskA m c) (weightA m c) n k := by
    intro k
    show (Function.update (V7 m c) main_v22 (arr0 m c) main_v22 : S4096x4096.Idx → EReal) (ix2 n k) = _
    rw [Function.update_self]
    exact masked_weight m c hb n k
  rw [hbias]
  refine congrArg (· + biasA m c (ix1 n)) ?_
  refine Finset.sum_congr rfl fun k _ => ?_
  rw [hdata k, hwb k]

end Cert.KernelIdeal.Hand

end
-- ==== Proof.RefIsSpec.lean ====
/-
  The reference computes the common result.

  The reference pools the mask over 32 × 32 tiles by an integer sum and a signed comparison against zero,
  multiplies every weight entry by the pooled bit of its tile, contracts the data against the masked weight
  and adds the bias. Read one element at a time, this is the function `G` of the common statement, once the
  tile test is known to be "some word of the tile is 1". That is the one step that is not a reading: the
  tile sum is a wrapping 32-bit sum of 1024 words, each 0 or 1, so it cannot wrap; its value is the number
  of 1s, which is positive exactly when the tile holds a 1.
-/
import proofs.«142192_j60155311948051_2_alg».proof.Proof.Gen.ReferenceIdeal.Read
import proofs.«142192_j60155311948051_2_alg».proof.Proof.Spec
import Idealize.ShloMosaic.Lib.ValueIdx
import Idealize.ShloMosaic.Lib.Pipeline.Value
import Idealize.ShloMosaic.PureOps.Ideal.Laws

noncomputable section

namespace Cert.RefValue

open Idealize.ShloMosaic Idealize.ShloMosaic.ValueIdx Cert.ReferenceIdeal Cert.ReferenceIdeal.Gen
  Cert.ReferenceIdeal.Read Cert.Spec

/-! ## A wrapping sum of words that are 0 or 1 -/

/-- The wrapping 32-bit sum, from 0, of fewer than 2³² words each 0 or 1 is the number of 1s among them. -/
theorem fold_addi_toNat {ι : Type} [DecidableEq ι] (x : ι → BitVec 32) (S : Finset ι)
    (hx : ∀ i ∈ S, x i = 0#32 ∨ x i = 1#32) (hS : S.card < 2 ^ 32) :
    (S.fold IntOp.addi 0#32 x).toNat = (S.filter fun i => x i = 1#32).card := by
  induction S using Finset.induction_on with
  | empty => rfl
  | insert a S ha ih =>
    have hcard : S.card + 1 < 2 ^ 32 := by rwa [Finset.card_insert_of_notMem ha] at hS
    have ih' := ih (fun i hi => hx i (Finset.mem_insert_of_mem hi)) (by omega)
    have hle : (S.filter fun i => x i = 1#32).card ≤ S.card := Finset.card_filter_le _ _
    rw [Finset.fold_insert ha, Finset.filter_insert]
    show (x a + S.fold IntOp.addi 0#32 x).toNat = _
    rw [BitVec.toNat_add, ih']
    rcases hx a (Finset.mem_insert_self a S) with h0 | h1
    · rw [h0, if_neg (by decide)]
      show (0 + _) % 2 ^ 32 = _
      omega
    · have hna : a ∉ S.filter fun i => x i = 1#32 := fun h => ha (Finset.mem_filter.1 h).1
      rw [h1, if_pos rfl, Finset.card_insert_of_notMem hna]
      show (1 + _) % 2 ^ 32 = _
      omega

/-- Signed "greater than zero" of a word below 2³¹ is "its value is positive". -/
theorem cmpi_sgt_zero (s : BitVec 32) (hs : s.toNat < 2 ^ 31) :
    IntOp.cmpi .sgt s 0#32 = if 0 < s.toNat then 1#1 else 0#1 := by
  have hi : s.toInt = (s.toNat : Int) := BitVec.toInt_eq_toNat_of_lt (by omega)
  show BitVec.ofBool ((0#32).slt s) = _
  rw [BitVec.slt_eq_decide, hi]
  by_cases h : 0 < s.toNat
  · rw [if_pos h, decide_eq_true (by simpa using h)]; rfl
  · rw [if_neg h, decide_eq_false (by simp; omega)]; rfl

/-! ## The tile test -/

/-- The reshaped mask's word at `(nb, r, kb, c)` is entry `(r, c)` of tile `(nb, kb)` of the mask. -/
theorem idx_v0_eq (i : S128x32x128x32.Idx) :
    idx_main_v0 i = ix2 (inTile (i 0) (i 1)) (inTile (i 2) (i 3)) := by
  have h0 : (i 0).val < 128 := (i 0).isLt
  have h1 : (i 1).val < 32 := (i 1).isLt
  have h2 : (i 2).val < 128 := (i 2).isLt
  have h3 : (i 3).val < 32 := (i 3).isLt
  funext a
  match a with
  | ⟨0, _⟩ =>
    refine Fin.ext ?_
    show ((((i 0).val * 32 + (i 1).val) * 128 + (i 2).val) * 32 + (i 3).val) / 4096 = 32 * (i 0).val + (i 1).val
    omega
  | ⟨1, _⟩ =>
    refine Fin.ext ?_
    show ((((i 0).val * 32 + (i 1).val) * 128 + (i 2).val) * 32 + (i 3).val) % 4096 = 32 * (i 2).val + (i 3).val
    omega

/-- A source index reduces into tile `(nb, kb)` exactly when its two tile coordinates are `nb` and `kb`. -/
theorem drop_eq_iff (h : S128x32x128x32.ReducesTo [1, 3] S128x128) (i : S128x32x128x32.Idx) (nb kb : Fin 128) :
    h.drop i = ix2 nb kb ↔ (i 0).val = nb.val ∧ (i 2).val = kb.val := by
  have e0 : ((h.drop i 0 : Fin _) : Nat) = i 0 := h.drop_apply_val_of_eq i 0 0
  have e1 : ((h.drop i 1 : Fin _) : Nat) = i 2 := h.drop_apply_val_of_eq i 1 2
  constructor
  · intro e
    rw [e] at e0 e1
    exact ⟨e0.symm, e1.symm⟩
  · rintro ⟨a0, a2⟩
    funext b
    match b with
    | ⟨0, _⟩ => exact Fin.ext (e0.trans a0)
    | ⟨1, _⟩ => exact Fin.ext (e1.trans a2)

open Classical in
/-- The reference's pooled bit of tile `(nb, kb)`: the tile's 1024 words, each 0 or 1, sum without wrapping to
    the number of 1s, so "the sum is positive as a signed word" is "the tile holds a 1". -/
theorem tile_test (mask : (⟨S4096x4096, .i32⟩ : BufTy).Contents (Elt Ideal)) (hb : Binary mask) (nb kb : Fin 128) :
    val_main_v3 (F := Ideal) mask (ix2 nb kb) = if Active mask nb kb then 1#1 else 0#1 := by
  rw [val_main_v3_apply, val_main_v2_apply, val_main_c_0_apply]
  unfold val_main_v1
  rw [Host.reduce_eq_fold, val_main_c_apply]
  generalize hS : (Finset.univ.filter fun i : S128x32x128x32.Idx =>
    reducesTo_S128x32x128x32_S128x128_d1_3.drop i = ix2 nb kb) = S
  have hx : ∀ i ∈ S, val_main_v0 (F := Ideal) mask i = 0#32 ∨ val_main_v0 (F := Ideal) mask i = 1#32 :=
    fun i _ => by rw [val_main_v0_apply]; exact hb _
  have hcard : S.card ≤ 16777216 :=
    calc S.card ≤ Fintype.card S128x32x128x32.Idx := Finset.card_le_univ _
      _ = S128x32x128x32.numel := Shape.card_idx _
      _ = 16777216 := by decide
  have hsum := fold_addi_toNat (val_main_v0 (F := Ideal) mask) S hx (by omega)
  have hle : (S.filter fun i => val_main_v0 (F := Ideal) mask i = 1#32).card ≤ S.card := Finset.card_filter_le _ _
  rw [cmpi_sgt_zero _ (by omega), hsum]
  have key : 0 < (S.filter fun i => val_main_v0 (F := Ideal) mask i = 1#32).card ↔ Active mask nb kb := by
    rw [Finset.card_pos]
    constructor
    · rintro ⟨i, hi⟩
      obtain ⟨hiS, hi1⟩ := Finset.mem_filter.1 hi
      rw [← hS] at hiS
      obtain ⟨a0, a2⟩ := (drop_eq_iff _ i nb kb).1 (Finset.mem_filter.1 hiS).2
      rw [val_main_v0_apply, idx_v0_eq] at hi1
      refine ⟨i 1, i 3, ?_⟩
      have en : inTile nb (i 1) = inTile (i 0) (i 1) := Fin.ext (by show 32 * nb.val + _ = 32 * (i 0).val + _; omega)
      have ek : inTile kb (i 3) = inTile (i 2) (i 3) := Fin.ext (by show 32 * kb.val + _ = 32 * (i 2).val + _; omega)
      rw [en, ek]; exact hi1
    · rintro ⟨r, c, hrc⟩
      refine ⟨ix4 nb r kb c, Finset.mem_filter.2 ⟨?_, ?_⟩⟩
      · rw [← hS]
        exact Finset.mem_filter.2 ⟨Finset.mem_univ _, (drop_eq_iff _ _ nb kb).2 ⟨rfl, rfl⟩⟩
      · rw [val_main_v0_apply, idx_v0_eq]; exact hrc
  by_cases hA : Active mask nb kb
  · rw [if_pos hA, if_pos (key.2 hA)]
  · rw [if_neg hA, if_neg (fun h => hA (key.1 h))]

/-! ## The masked weight, one entry at a time -/

/-- The four tile coordinates of `(n, k)` reassemble to `(n, k)`: the weight is read where it is written back. -/
theorem idx_v4_v9 (j : S4096x4096.Idx) : idx_main_v4 (idx_main_v9 j) = j := by
  have h0 : (j 0).val < 4096 := (j 0).isLt
  have h1 : (j 1).val < 4096 := (j 1).isLt
  funext a
  match a with
  | ⟨0, _⟩ =>
    refine Fin.ext ?_
    show (((((j 0).val * 4096 + (j 1).val) / 131072 * 32 + ((j 0).val * 4096 + (j 1).val) / 4096 % 32) * 128
      + ((j 0).val * 4096 + (j 1).val) / 32 % 128) * 32 + ((j 0).val * 4096 + (j 1).val) % 32) / 4096 = (j 0).val
    omega
  | ⟨1, _⟩ =>
    refine Fin.ext ?_
    show (((((j 0).val * 4096 + (j 1).val) / 131072 * 32 + ((j 0).val * 4096 + (j 1).val) / 4096 % 32) * 128
      + ((j 0).val * 4096 + (j 1).val) / 32 % 128) * 32 + ((j 0).val * 4096 + (j 1).val) % 32) % 4096 = (j 1).val
    omega

/-- The pooled bit an entry `(n, k)` is multiplied by is that of its tile `(n / 32, k / 32)`. -/
theorem idx_tile (j : S4096x4096.Idx) :
    idx_main_v5 (idx_main_v7 (idx_main_v9 j)) = ix2 (tileOf (j 0)) (tileOf (j 1)) := by
  have h0 : (j 0).val < 4096 := (j 0).isLt
  have h1 : (j 1).val < 4096 := (j 1).isLt
  funext a
  match a with
  | ⟨0, _⟩ =>
    refine Fin.ext ?_
    show ((j 0).val * 4096 + (j 1).val) / 131072 = (j 0).val / 32
    omega
  | ⟨1, _⟩ =>
    refine Fin.ext ?_
    show ((j 0).val * 4096 + (j 1).val) / 32 % 128 = (j 1).val / 32
    omega

/-- The bit 1 converts to the real 1 … -/
theorem uitofp_one : (FloatOps.uitofp .f32 (1#1) : Ideal .f32) = (1 : EReal) := by
  show (((1#1 : BitVec 1).toNat : ℝ) : EReal) = 1
  simp
/-- … and the bit 0 to the real 0. -/
theorem uitofp_zero : (FloatOps.uitofp .f32 (0#1) : Ideal .f32) = (0 : EReal) := by
  show (((0#1 : BitVec 1).toNat : ℝ) : EReal) = 0
  simp

/-- The reference's masked weight at `(n, k)`: the weight's entry times the indicator of its tile. -/
theorem v9_apply (mask : (⟨S4096x4096, .i32⟩ : BufTy).Contents (Elt Ideal))
    (weight : (⟨S4096x4096, .f32⟩ : BufTy).Contents (Elt Ideal)) (hb : Binary mask) (j : S4096x4096.Idx) :
    val_main_v9 (F := Ideal) mask weight j = weight j * gate mask (tileOf (j 0)) (tileOf (j 1)) := by
  rw [val_main_v9_apply, val_main_v8_apply, val_main_v4_apply, val_main_v7_apply, val_main_v6_apply,
    val_main_v5_apply, idx_v4_v9, idx_tile, tile_test mask hb, Ideal.mulf_def]
  unfold gate
  by_cases hA : Active mask (tileOf (j 0)) (tileOf (j 1))
  · rw [if_pos hA, if_pos hA, uitofp_one]
  · rw [if_neg hA, if_neg hA, uitofp_zero]

/-! ## The reference is the common result -/

theorem ref_eq_G (data : (⟨S2x2048x4096, .f32⟩ : BufTy).Contents (Elt Ideal))
    (mask : (⟨S4096x4096, .i32⟩ : BufTy).Contents (Elt Ideal))
    (weight : (⟨S4096x4096, .f32⟩ : BufTy).Contents (Elt Ideal))
    (bias : (⟨S4096, .f32⟩ : BufTy).Contents (Elt Ideal)) (hb : Cert.Spec.Binary mask) :
    Cert.ReferenceIdeal.Read.val_main_v13 (F := Ideal) data mask weight bias = Cert.Spec.G data mask weight bias := by
  funext i
  rw [val_main_v13_apply, val_main_v10_apply, val_main_v12_apply, val_main_v11_apply, Ideal.addf_def]
  have eb : idx_main_v11 (idx_main_v12 i) = (ix1 (i 2) : S4096.Idx) := by
    funext a
    match a with
    | ⟨0, _⟩ => rfl
  rw [eb]
  show _ = (∑ k : Fin 4096, data (ix3 (i 0) (i 1) k) * maskedWeight mask weight (i 2) k) + bias (ix1 (i 2))
  congr 1
  refine Finset.sum_congr rfl fun k _ => ?_
  have el : lidx_main_v10 i k = (ix3 (i 0) (i 1) k : S2x2048x4096.Idx) := by
    funext a
    match a with
    | ⟨0, _⟩ => rfl
    | ⟨1, _⟩ => rfl
    | ⟨2, _⟩ => rfl
  have er : ridx_main_v10 i k = (ix2 (i 2) k : S4096x4096.Idx) := by
    funext a
    match a with
    | ⟨0, _⟩ => rfl
    | ⟨1, _⟩ => rfl
  rw [el, er, v9_apply mask weight hb]
  rfl

end Cert.RefValue

end
-- ==== Proof.PreBinary.lean ====
/-
  The precondition, read back at the mask.

  The printed predicate is a conjunction of four one-bit words; the last is
  `all ((mask = 0) ∨ (mask = 1))`: the one-bit array whose entry at `i` is
  `(mask i = 0) or (mask i = 1)`, reduced by `and` over both axes from the word 1.
  If the whole predicate is the word 1, then so is that last conjunct; a reduction by `and`
  that comes out 1 met only 1s; an `or` of two one-bit words is 1 exactly when one of them is;
  and an equality test is 1 exactly when its operands are equal. Hence every mask word is 0 or 1.
-/
import proofs.«142192_j60155311948051_2_alg».proof.Pre_finite_inputs
import proofs.«142192_j60155311948051_2_alg».proof.Proof.Gen.Pre_finite_inputs
import proofs.«142192_j60155311948051_2_alg».proof.Proof.Spec
import Idealize.ShloMosaic.Lib.ReduceAll
import Idealize.ShloMosaic.Lib.ValueIdx
import Idealize.ShloMosaic.PureOps.Ideal

namespace Cert.PreValue

open Idealize.ShloMosaic Idealize.ShloMosaic.ValueIdx

/-- The shape of rank 0 has exactly one index. -/
instance subsingleton_scalarIdx : Subsingleton Cert.Pre_finite_inputs.S_.Idx :=
  ⟨fun _ _ => funext fun d => d.elim0⟩

/-- Under the precondition every mask word is 0 or 1. -/
theorem binary_of_pre {F : FTy → Type} [FloatOps F] [Cert.Pre_finite_inputs.Facts]
    (data : FVec F Cert.Pre_finite_inputs.S2x2048x4096 .f32) (mask : IVec Cert.Pre_finite_inputs.S4096x4096 32)
    (weight : FVec F Cert.Pre_finite_inputs.S4096x4096 .f32) (bias : FVec F Cert.Pre_finite_inputs.S4096 .f32)
    (h : Cert.Pre_finite_inputs.fn (F := F) data mask weight bias = fun _ => 1#1) : Cert.Spec.Binary mask := by
  intro i
  -- the predicate at its one index
  have h0 := congrFun h ix0
  unfold Cert.Pre_finite_inputs.fn Cert.Pre_finite_inputs.fn_part1 at h0
  dsimp only at h0
  -- the last conjunct: the reduction by `and` is 1
  have h1 := (IntOp.andi_eq_one.1 h0).2
  -- so the reduced array is 1 at `i`
  have h2 := Host.reduce_andi_all _ _ _ _ ix0 h1 i
  -- one of the two equality tests is 1 there
  rcases IntOp.ori_eq_one.1 h2 with h3 | h3
  · exact Or.inl (IntOp.cmpi_eq.1 h3)
  · exact Or.inr (IntOp.cmpi_eq.1 h3)

end Cert.PreValue
-- ==== Proof.lean ====
/-
  The certificate of the block-masked matrix product.

  The kernel pools a 4096 × 4096 integer mask over 32 × 32 tiles with 0/1 indicator products, keeps a weight entry when
  its tile holds a 1, and contracts the data against the masked weight block by block over the contracted axis, adding
  the bias at the last block; the reference sums each tile of the mask with wrapping integer addition, tests the sum
  against zero, multiplies the weight by the test's bit and contracts in one product. For mask words that are 0 or 1 the
  two tile tests agree, the two masked weights are the same array, and the block-by-block contraction is the whole one
  re-associated: both results are

      G (b, s, n) = (∑ k, data (b, s, k) · (weight (n, k) · gate (n, k))) + bias n

  on the extended reals, with no finiteness of the float inputs used.

  * The three frames: the kernel's two regions are run point by point (the masking region through its loop over column
    chunks, the contraction region with its accumulator carried between grid points), at the word level and over the
    extended reals by the same text; the reference's frame is its run with the result dropped.
  * The idealized kernel is the kernel's own text read over the extended reals: nothing was rewritten.
  * The value claim: the kernel's result buffer after the run is read back as `G` (`Cert.KernelIdeal.Hand.kernel_value`),
    the reference's composed term is `G` (`Cert.RefValue.ref_eq_G`), and the mask's words are 0 or 1 by the precondition
    (`Cert.PreValue.binary_of_pre`).
-/
import proofs.«142192_j60155311948051_2_alg».proof.Defs
import proofs.«142192_j60155311948051_2_alg».proof.Proof.Gen.Kernel
import proofs.«142192_j60155311948051_2_alg».proof.Proof.Gen.KernelIdeal
import proofs.«142192_j60155311948051_2_alg».proof.Proof.Gen.ReferenceIdeal
import proofs.«142192_j60155311948051_2_alg».proof.Proof.Gen.ReferenceIdeal.Run
import proofs.«142192_j60155311948051_2_alg».proof.Proof.Gen.ReferenceIdeal.Read
import proofs.«142192_j60155311948051_2_alg».proof.Proof.Gen.Pre_finite_inputs
import proofs.«142192_j60155311948051_2_alg».proof.Proof.K.Run
import proofs.«142192_j60155311948051_2_alg».proof.Proof.KI.Run
import proofs.«142192_j60155311948051_2_alg».proof.Proof.KI.Value
import proofs.«142192_j60155311948051_2_alg».proof.Proof.RefIsSpec
import proofs.«142192_j60155311948051_2_alg».proof.Proof.PreBinary
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts := fun m ρ _ =>
  (θ_run Cert.Kernel.defs _ _).mono (fun _ h c => (h c).2) (Cert.Kernel.Hand.run (F := Bits) m ρ)

theorem frame_kernelIdeal : @Cert.frame_KernelIdeal Cert.KernelIdeal.Gen.facts Cert.Pre_finite_inputs.Gen.facts := fun m ρ _ =>
  (θ_run Cert.KernelIdeal.defs _ _).mono (fun _ h c => (h c).2) (Cert.KernelIdeal.Hand.run (F := Ideal) m ρ)

theorem frame_referenceIdeal : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition every mask word is 0 or 1, on every core. -/
theorem binary (m : (ℓ : Loc Cert.KernelIdeal.nD Cert.KernelIdeal.τ Cert.KernelIdeal.sig) → Buf (Elt Ideal) ℓ)
    (hpre : @Cert.Pre_KernelIdeal Cert.Pre_finite_inputs.Gen.facts m) (c : Dev Cert.KernelIdeal.nD) :
    Cert.Spec.Binary (m ((c.tc : Thread Cert.KernelIdeal.nD Cert.KernelIdeal.τ).loc Cert.KernelIdeal.main_arg1)) :=
  @Cert.PreValue.binary_of_pre Ideal _ Cert.Pre_finite_inputs.Gen.facts _ _ _ _ (hpre c)

/-- Both idealized programs end with `G` of the arguments in their result buffers. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.kernel_value m c (binary m hpre c)), (h c).2⟩)
      (Cert.KernelIdeal.Hand.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v13_eq, (hagree c).1, (hagree c).2.1, (hagree c).2.2.1, (hagree c).2.2.2]
    exact Cert.RefValue.ref_eq_G _ _ _ _ (binary m hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
